-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x25x508x508 : Shape := ⟨4, ![8, 25, 508, 508]⟩
abbrev S8x3x512x512 : Shape := ⟨4, ![8, 3, 512, 512]⟩
abbrev S_ : Shape := ⟨0, ![]⟩

class Facts : Prop where
  bcast_S_S8x25x508x508 : S_.BroadcastsInDim S8x25x508x508 (![] : Fin 0 → Fin S8x25x508x508.rank)
  reducesTo_S8x25x508x508_S_d0_1_2_3 : S8x25x508x508.ReducesTo [0, 1, 2, 3] S_
  h_S_ : 0 < S_.numel
  bcast_S_S8x3x512x512 : S_.BroadcastsInDim S8x3x512x512 (![] : Fin 0 → Fin S8x3x512x512.rank)
  reducesTo_S8x3x512x512_S_d0_1_2_3 : S8x3x512x512.ReducesTo [0, 1, 2, 3] S_

variable [Facts]

def fn {F : FTy → Type} [FloatOps F] (main_arg0 : FVec F S8x25x508x508 .f32) (main_arg1 : FVec F S8x3x512x512 .f32) : IVec S_ 1 :=
  let main_v0 : FVec F S8x25x508x508 .f32 := Host.absf main_arg0
  let main_cst : FVec F S_ .f32 := constant S_ .f32 0x7F800000#32
  let main_v1 : FVec F S8x25x508x508 .f32 := broadcastInDim S8x25x508x508 ![] bcast_S_S8x25x508x508 main_cst
  let main_v2 : IVec S8x25x508x508 1 := cmpf .olt main_v0 main_v1
  let main_c : IVec S_ 1 := constantI S_ 1 1#1
  let main_v3 : IVec S_ 1 := (fun x v => Host.reduce IntOp.andi x v reducesTo_S8x25x508x508_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x25x508x508 : Shape := ⟨4, ![8, 25, 508, 508]⟩
abbrev S8x3x512x512 : Shape := ⟨4, ![8, 3, 512, 512]⟩
abbrev S_ : Shape := ⟨0, ![]⟩
abbrev S8x3x516x512 : Shape := ⟨4, ![8, 3, 516, 512]⟩
abbrev S8x3x508x508 : Shape := ⟨4, ![8, 3, 508, 508]⟩
abbrev S8x1x508x508 : Shape := ⟨4, ![8, 1, 508, 508]⟩
abbrev S1x25x128x508 : Shape := ⟨4, ![1, 25, 128, 508]⟩
abbrev S1x3x516x512 : Shape := ⟨4, ![1, 3, 516, 512]⟩
abbrev S1x3x128x508 : Shape := ⟨4, ![1, 3, 128, 508]⟩
abbrev S1x1x128x508 : Shape := ⟨4, ![1, 1, 128, 508]⟩
abbrev S1x3x132x512 : Shape := ⟨4, ![1, 3, 132, 512]⟩
abbrev S3x132x512 : Shape := ⟨3, ![3, 132, 512]⟩
abbrev S3x128x508 : Shape := ⟨3, ![3, 128, 508]⟩
abbrev S128x508 : Shape := ⟨2, ![128, 508]⟩
abbrev S3x132x508 : Shape := ⟨3, ![3, 132, 508]⟩
abbrev S1x128x508 : Shape := ⟨3, ![1, 128, 508]⟩

abbrev nBuf : Space → Nat
  | .hbm => 7
  | .vmem => 8
  | .smem => 0
  | _ => 0

abbrev bufTy : (tb : Table) → Fin (tcTables nBuf tb) → BufTy
  | .hbm, ⟨0, _⟩ => ⟨S8x25x508x508, .f32⟩
  | .hbm, ⟨1, _⟩ => ⟨S8x3x512x512, .f32⟩
  | .hbm, ⟨2, _⟩ => ⟨S_, .i32⟩
  | .hbm, ⟨3, _⟩ => ⟨S_, .f32⟩
  | .hbm, ⟨4, _⟩ => ⟨S8x3x516x512, .f32⟩
  | .hbm, ⟨5, _⟩ => ⟨S8x3x508x508, .f32⟩
  | .hbm, ⟨6, _⟩ => ⟨S8x1x508x508, .f32⟩
  | .local _ .vmem, ⟨0, _⟩ => ⟨S1x25x128x508, .f32⟩
  | .local _ .vmem, ⟨1, _⟩ => ⟨S1x25x128x508, .f32⟩
  | .local _ .vmem, ⟨2, _⟩ => ⟨S1x3x516x512, .f32⟩
  | .local _ .vmem, ⟨3, _⟩ => ⟨S1x3x516x512, .f32⟩
  | .local _ .vmem, ⟨4, _⟩ => ⟨S1x3x128x508, .f32⟩
  | .local _ .vmem, ⟨5, _⟩ => ⟨S1x3x128x508, .f32⟩
  | .local _ .vmem, ⟨6, _⟩ => ⟨S1x1x128x508, .f32⟩
  | .local _ .vmem, ⟨7, _⟩ => ⟨S1x1x128x508, .f32⟩
  | _, _ => ⟨S8x25x508x508, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 4 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x25x128x508 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x516x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x128x508 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x508 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x3x512x512_S8x3x516x512_000_000_040_000 : S8x3x512x512.Pads (![0, 0, 0, 0] : Fin 4 → Nat) ![0, 0, 4, 0] ![0, 0, 0, 0] S8x3x516x512
  h_S_ : 0 < S_.numel
  h_S1x3x132x512 : 0 < S1x3x132x512.numel
  shapeCasts_S1x3x132x512_S3x132x512 : S1x3x132x512.ShapeCasts S3x132x512
  slices_S3x132x512_o0_0_0_S3x132x508 : S3x132x512.Slices ![0, 0, 0] S3x132x508
  inb_S1x25x128x508_S1x1x128x508_0_0_0_0 : ∀ a, (![0, 0, 0, 0] : Fin 4 → Nat) a + S1x1x128x508.size a ≤ S1x25x128x508.size a
  h_S1x1x128x508 : 0 < S1x1x128x508.numel
  shapeCasts_S1x1x128x508_S128x508 : S1x1x128x508.ShapeCasts S128x508
  slices_S3x132x508_o0_0_0_S3x128x508 : S3x132x508.Slices ![0, 0, 0] S3x128x508
  shapeCasts_S128x508_S1x128x508 : S128x508.ShapeCasts S1x128x508
  broadcasts_S1x128x508_S3x128x508 : S1x128x508.Broadcasts S3x128x508
  inb_S1x25x128x508_S1x1x128x508_0_5_0_0 : ∀ a, (![0, 5, 0, 0] : Fin 4 → Nat) a + S1x1x128x508.size a ≤ S1x25x128x508.size a
  slices_S3x132x508_o0_1_0_S3x128x508 : S3x132x508.Slices ![0, 1, 0] S3x128x508
  inb_S1x25x128x508_S1x1x128x508_0_10_0_0 : ∀ a, (![0, 10, 0, 0] : Fin 4 → Nat) a + S1x1x128x508.size a ≤ S1x25x128x508.size a
  slices_S3x132x508_o0_2_0_S3x128x508 : S3x132x508.Slices ![0, 2, 0] S3x128x508
  inb_S1x25x128x508_S1x1x128x508_0_15_0_0 : ∀ a, (![0, 15, 0, 0] : Fin 4 → Nat) a + S1x1x128x508.size a ≤ S1x25x128x508.size a
  slices_S3x132x508_o0_3_0_S3x128x508 : S3x132x508.Slices ![0, 3, 0] S3x128x508
  inb_S1x25x128x508_S1x1x128x508_0_20_0_0 : ∀ a, (![0, 20, 0, 0] : Fin 4 → Nat) a + S1x1x128x508.size a ≤ S1x25x128x508.size a
  slices_S3x132x508_o0_4_0_S3x128x508 : S3x132x508.Slices ![0, 4, 0] S3x128x508
  slices_S3x132x512_o0_0_1_S3x132x508 : S3x132x512.Slices ![0, 0, 1] S3x132x508
  inb_S1x25x128x508_S1x1x128x508_0_1_0_0 : ∀ a, (![0, 1, 0, 0] : Fin 4 → Nat) a + S1x1x128x508.size a ≤ S1x25x128x508.size a
  inb_S1x25x128x508_S1x1x128x508_0_6_0_0 : ∀ a, (![0, 6, 0, 0] : Fin 4 → Nat) a + S1x1x128x508.size a ≤ S1x25x128x508.size a
  inb_S1x25x128x508_S1x1x128x508_0_11_0_0 : ∀ a, (![0, 11, 0, 0] : Fin 4 → Nat) a + S1x1x128x508.size a ≤ S1x25x128x508.size a
  inb_S1x25x128x508_S1x1x128x508_0_16_0_0 : ∀ a, (![0, 16, 0, 0] : Fin 4 → Nat) a + S1x1x128x508.size a ≤ S1x25x128x508.size a
  inb_S1x25x128x508_S1x1x128x508_0_21_0_0 : ∀ a, (![0, 21, 0, 0] : Fin 4 → Nat) a + S1x1x128x508.size a ≤ S1x25x128x508.size a
  slices_S3x132x512_o0_0_2_S3x132x508 : S3x132x512.Slices ![0, 0, 2] S3x132x508
  inb_S1x25x128x508_S1x1x128x508_0_2_0_0 : ∀ a, (![0, 2, 0, 0] : Fin 4 → Nat) a + S1x1x128x508.size a ≤ S1x25x128x508.size a
  inb_S1x25x128x508_S1x1x128x508_0_7_0_0 : ∀ a, (![0, 7, 0, 0] : Fin 4 → Nat) a + S1x1x128x508.size a ≤ S1x25x128x508.size a
  inb_S1x25x128x508_S1x1x128x508_0_12_0_0 : ∀ a, (![0, 12, 0, 0] : Fin 4 → Nat) a + S1x1x128x508.size a ≤ S1x25x128x508.size a
  inb_S1x25x128x508_S1x1x128x508_0_17_0_0 : ∀ a, (![0, 17, 0, 0] : Fin 4 → Nat) a + S1x1x128x508.size a ≤ S1x25x128x508.size a
  inb_S1x25x128x508_S1x1x128x508_0_22_0_0 : ∀ a, (![0, 22, 0, 0] : Fin 4 → Nat) a + S1x1x128x508.size a ≤ S1x25x128x508.size a
  slices_S3x132x512_o0_0_3_S3x132x508 : S3x132x512.Slices ![0, 0, 3] S3x132x508
  inb_S1x25x128x508_S1x1x128x508_0_3_0_0 : ∀ a, (![0, 3, 0, 0] : Fin 4 → Nat) a + S1x1x128x508.size a ≤ S1x25x128x508.size a
  inb_S1x25x128x508_S1x1x128x508_0_8_0_0 : ∀ a, (![0, 8, 0, 0] : Fin 4 → Nat) a + S1x1x128x508.size a ≤ S1x25x128x508.size a
  inb_S1x25x128x508_S1x1x128x508_0_13_0_0 : ∀ a, (![0, 13, 0, 0] : Fin 4 → Nat) a + S1x1x128x508.size a ≤ S1x25x128x508.size a
  inb_S1x25x128x508_S1x1x128x508_0_18_0_0 : ∀ a, (![0, 18, 0, 0] : Fin 4 → Nat) a + S1x1x128x508.size a ≤ S1x25x128x508.size a
  inb_S1x25x128x508_S1x1x128x508_0_23_0_0 : ∀ a, (![0, 23, 0, 0] : Fin 4 → Nat) a + S1x1x128x508.size a ≤ S1x25x128x508.size a
  slices_S3x132x512_o0_0_4_S3x132x508 : S3x132x512.Slices ![0, 0, 4] S3x132x508
  inb_S1x25x128x508_S1x1x128x508_0_4_0_0 : ∀ a, (![0, 4, 0, 0] : Fin 4 → Nat) a + S1x1x128x508.size a ≤ S1x25x128x508.size a
  inb_S1x25x128x508_S1x1x128x508_0_9_0_0 : ∀ a, (![0, 9, 0, 0] : Fin 4 → Nat) a + S1x1x128x508.size a ≤ S1x25x128x508.size a
  inb_S1x25x128x508_S1x1x128x508_0_14_0_0 : ∀ a, (![0, 14, 0, 0] : Fin 4 → Nat) a + S1x1x128x508.size a ≤ S1x25x128x508.size a
  inb_S1x25x128x508_S1x1x128x508_0_19_0_0 : ∀ a, (![0, 19, 0, 0] : Fin 4 → Nat) a + S1x1x128x508.size a ≤ S1x25x128x508.size a
  inb_S1x25x128x508_S1x1x128x508_0_24_0_0 : ∀ a, (![0, 24, 0, 0] : Fin 4 → Nat) a + S1x1x128x508.size a ≤ S1x25x128x508.size a
  inb_S1x3x128x508_S1x3x128x508_0_0_0_0 : ∀ a, (![0, 0, 0, 0] : Fin 4 → Nat) a + S1x3x128x508.size a ≤ S1x3x128x508.size a
  h_S1x3x128x508 : 0 < S1x3x128x508.numel
  shapeCasts_S1x3x128x508_S3x128x508 : S1x3x128x508.ShapeCasts S3x128x508
  shapeCasts_S3x128x508_S1x3x128x508 : S3x128x508.ShapeCasts S1x3x128x508
  inb_S1x1x128x508_S1x1x128x508_0_0_0_0 : ∀ a, (![0, 0, 0, 0] : Fin 4 → Nat) a + S1x1x128x508.size a ≤ S1x1x128x508.size a
  shapeCasts_S128x508_S1x1x128x508 : S128x508.ShapeCasts S1x1x128x508
  hrank0 : 0 < grid0.rank
  k0_mult1_dvd : ∀ i : grid0.Coords, 128 ∣ (k0_mult1 i).toNat
  k0_off1_inb : ∀ i : grid0.Coords, ∀ a, (k0_off1 i) a + S1x3x132x512.size a ≤ S1x3x516x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x25x128x508.size a < S8x25x508x508.size a
  hwx0_0 : ∀ i : grid0.Coords, EltTy.bits .f32 = 32 ∨ (Rect.unit (s := S8x25x508x508) (fun a => cc0_transform_0 i a * S1x25x128x508.size a) (fun a => (Pipeline.Clip.of (cc0_transform_0 i a) (S1x25x128x508.size a) (S8x25x508x508.size a)).extent (S1x25x128x508.size a)) fun a => Pipeline.Clip.inb (Pipeline.Clip.ok_of (hstart0_0 i a))).WholeWords (EltTy.packing .f32)
  hwxs0_0 : ∀ i : grid0.Coords, EltTy.bits .f32 = 32 ∨ (Rect.unit (s := S1x25x128x508) (fun _ => 0) (fun a => (Pipeline.Clip.of (cc0_transform_0 i a) (S1x25x128x508.size a) (S8x25x508x508.size a)).extent (S1x25x128x508.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x516x512.size a ≤ S8x3x516x512.size a
  hwx0_1 : ∀ i : grid0.Coords, EltTy.bits .f32 = 32 ∨ (Rect.block (s := S8x3x516x512) S1x3x516x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x3x128x508.size a < S8x3x508x508.size a
  hwx0_2 : ∀ i : grid0.Coords, EltTy.bits .f32 = 32 ∨ (Rect.unit (s := S8x3x508x508) (fun a => cc0_transform_2 i a * S1x3x128x508.size a) (fun a => (Pipeline.Clip.of (cc0_transform_2 i a) (S1x3x128x508.size a) (S8x3x508x508.size a)).extent (S1x3x128x508.size a)) fun a => Pipeline.Clip.inb (Pipeline.Clip.ok_of (hstart0_2 i a))).WholeWords (EltTy.packing .f32)
  hwxs0_2 : ∀ i : grid0.Coords, EltTy.bits .f32 = 32 ∨ (Rect.unit (s := S1x3x128x508) (fun _ => 0) (fun a => (Pipeline.Clip.of (cc0_transform_2 i a) (S1x3x128x508.size a) (S8x3x508x508.size a)).extent (S1x3x128x508.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1x128x508.size a < S8x1x508x508.size a
  hwx0_3 : ∀ i : grid0.Coords, EltTy.bits .f32 = 32 ∨ (Rect.unit (s := S8x1x508x508) (fun a => cc0_transform_3 i a * S1x1x128x508.size a) (fun a => (Pipeline.Clip.of (cc0_transform_3 i a) (S1x1x128x508.size a) (S8x1x508x508.size a)).extent (S1x1x128x508.size a)) fun a => Pipeline.Clip.inb (Pipeline.Clip.ok_of (hstart0_3 i a))).WholeWords (EltTy.packing .f32)
  hwxs0_3 : ∀ i : grid0.Coords, EltTy.bits .f32 = 32 ∨ (Rect.unit (s := S1x1x128x508) (fun _ => 0) (fun a => (Pipeline.Clip.of (cc0_transform_3 i a) (S1x1x128x508.size a) (S8x1x508x508.size a)).extent (S1x1x128x508.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_arg0) S1x25x128x508.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1x3x516x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v1_0) S1x3x128x508.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1_1) S1x1x128x508.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x25x508x508 : Shape := ⟨4, ![8, 25, 508, 508]⟩
abbrev S8x3x512x512 : Shape := ⟨4, ![8, 3, 512, 512]⟩
abbrev S_ : Shape := ⟨0, ![]⟩
abbrev S8x3x508x508 : Shape := ⟨4, ![8, 3, 508, 508]⟩
abbrev S8x1x508x508 : Shape := ⟨4, ![8, 1, 508, 508]⟩
abbrev S8x508x508 : Shape := ⟨3, ![8, 508, 508]⟩

abbrev nBuf : Space → Nat
  | .hbm => 182
  | .vmem => 0
  | .smem => 0
  | _ => 0

abbrev hbmTy0_0 (i : Nat) : BufTy := match i % 128 with
  | 0 => ⟨S8x25x508x508, .f32⟩
  | 1 => ⟨S8x3x512x512, .f32⟩
  | 2 => ⟨S_, .f32⟩
  | 3 => ⟨S8x3x508x508, .f32⟩
  | 4 => ⟨S8x1x508x508, .f32⟩
  | 5 => ⟨S8x508x508, .f32⟩
  | 6 => ⟨S8x1x508x508, .f32⟩
  | 7 => ⟨S8x3x508x508, .f32⟩
  | 8 => ⟨S8x3x508x508, .f32⟩
  | 9 => ⟨S8x3x508x508, .f32⟩
  | 10 => ⟨S8x3x508x508, .f32⟩
  | 11 => ⟨S8x1x508x508, .f32⟩
  | 12 => ⟨S8x508x508, .f32⟩
  | 13 => ⟨S8x1x508x508, .f32⟩
  | 14 => ⟨S8x3x508x508, .f32⟩
  | 15 => ⟨S8x3x508x508, .f32⟩
  | 16 => ⟨S8x3x508x508, .f32⟩
  | 17 => ⟨S8x3x508x508, .f32⟩
  | 18 => ⟨S8x1x508x508, .f32⟩
  | 19 => ⟨S8x508x508, .f32⟩
  | 20 => ⟨S8x1x508x508, .f32⟩
  | 21 => ⟨S8x3x508x508, .f32⟩
  | 22 => ⟨S8x3x508x508, .f32⟩
  | 23 => ⟨S8x3x508x508, .f32⟩
  | 24 => ⟨S8x3x508x508, .f32⟩
  | 25 => ⟨S8x1x508x508, .f32⟩
  | 26 => ⟨S8x508x508, .f32⟩
  | 27 => ⟨S8x1x508x508, .f32⟩
  | 28 => ⟨S8x3x508x508, .f32⟩
  | 29 => ⟨S8x3x508x508, .f32⟩
  | 30 => ⟨S8x3x508x508, .f32⟩
  | 31 => ⟨S8x3x508x508, .f32⟩
  | 32 => ⟨S8x1x508x508, .f32⟩
  | 33 => ⟨S8x508x508, .f32⟩
  | 34 => ⟨S8x1x508x508, .f32⟩
  | 35 => ⟨S8x3x508x508, .f32⟩
  | 36 => ⟨S8x3x508x508, .f32⟩
  | 37 => ⟨S8x3x508x508, .f32⟩
  | 38 => ⟨S8x3x508x508, .f32⟩
  | 39 => ⟨S8x1x508x508, .f32⟩
  | 40 => ⟨S8x508x508, .f32⟩
  | 41 => ⟨S8x1x508x508, .f32⟩
  | 42 => ⟨S8x3x508x508, .f32⟩
  | 43 => ⟨S8x3x508x508, .f32⟩
  | 44 => ⟨S8x3x508x508, .f32⟩
  | 45 => ⟨S8x3x508x508, .f32⟩
  | 46 => ⟨S8x1x508x508, .f32⟩
  | 47 => ⟨S8x508x508, .f32⟩
  | 48 => ⟨S8x1x508x508, .f32⟩
  | 49 => ⟨S8x3x508x508, .f32⟩
  | 50 => ⟨S8x3x508x508, .f32⟩
  | 51 => ⟨S8x3x508x508, .f32⟩
  | 52 => ⟨S8x3x508x508, .f32⟩
  | 53 => ⟨S8x1x508x508, .f32⟩
  | 54 => ⟨S8x508x508, .f32⟩
  | 55 => ⟨S8x1x508x508, .f32⟩
  | 56 => ⟨S8x3x508x508, .f32⟩
  | 57 => ⟨S8x3x508x508, .f32⟩
  | 58 => ⟨S8x3x508x508, .f32⟩
  | 59 => ⟨S8x3x508x508, .f32⟩
  | 60 => ⟨S8x1x508x508, .f32⟩
  | 61 => ⟨S8x508x508, .f32⟩
  | 62 => ⟨S8x1x508x508, .f32⟩
  | 63 => ⟨S8x3x508x508, .f32⟩
  | 64 => ⟨S8x3x508x508, .f32⟩
  | 65 => ⟨S8x3x508x508, .f32⟩
  | 66 => ⟨S8x3x508x508, .f32⟩
  | 67 => ⟨S8x1x508x508, .f32⟩
  | 68 => ⟨S8x508x508, .f32⟩
  | 69 => ⟨S8x1x508x508, .f32⟩
  | 70 => ⟨S8x3x508x508, .f32⟩
  | 71 => ⟨S8x3x508x508, .f32⟩
  | 72 => ⟨S8x3x508x508, .f32⟩
  | 73 => ⟨S8x3x508x508, .f32⟩
  | 74 => ⟨S8x1x508x508, .f32⟩
  | 75 => ⟨S8x508x508, .f32⟩
  | 76 => ⟨S8x1x508x508, .f32⟩
  | 77 => ⟨S8x3x508x508, .f32⟩
  | 78 => ⟨S8x3x508x508, .f32⟩
  | 79 => ⟨S8x3x508x508, .f32⟩
  | 80 => ⟨S8x3x508x508, .f32⟩
  | 81 => ⟨S8x1x508x508, .f32⟩
  | 82 => ⟨S8x508x508, .f32⟩
  | 83 => ⟨S8x1x508x508, .f32⟩
  | 84 => ⟨S8x3x508x508, .f32⟩
  | 85 => ⟨S8x3x508x508, .f32⟩
  | 86 => ⟨S8x3x508x508, .f32⟩
  | 87 => ⟨S8x3x508x508, .f32⟩
  | 88 => ⟨S8x1x508x508, .f32⟩
  | 89 => ⟨S8x508x508, .f32⟩
  | 90 => ⟨S8x1x508x508, .f32⟩
  | 91 => ⟨S8x3x508x508, .f32⟩
  | 92 => ⟨S8x3x508x508, .f32⟩
  | 93 => ⟨S8x3x508x508, .f32⟩
  | 94 => ⟨S8x3x508x508, .f32⟩
  | 95 => ⟨S8x1x508x508, .f32⟩
  | 96 => ⟨S8x508x508, .f32⟩
  | 97 => ⟨S8x1x508x508, .f32⟩
  | 98 => ⟨S8x3x508x508, .f32⟩
  | 99 => ⟨S8x3x508x508, .f32⟩
  | 100 => ⟨S8x3x508x508, .f32⟩
  | 101 => ⟨S8x3x508x508, .f32⟩
  | 102 => ⟨S8x1x508x508, .f32⟩
  | 103 => ⟨S8x508x508, .f32⟩
  | 104 => ⟨S8x1x508x508, .f32⟩
  | 105 => ⟨S8x3x508x508, .f32⟩
  | 106 => ⟨S8x3x508x508, .f32⟩
  | 107 => ⟨S8x3x508x508, .f32⟩
  | 108 => ⟨S8x3x508x508, .f32⟩
  | 109 => ⟨S8x1x508x508, .f32⟩
  | 110 => ⟨S8x508x508, .f32⟩
  | 111 => ⟨S8x1x508x508, .f32⟩
  | 112 => ⟨S8x3x508x508, .f32⟩
  | 113 => ⟨S8x3x508x508, .f32⟩
  | 114 => ⟨S8x3x508x508, .f32⟩
  | 115 => ⟨S8x3x508x508, .f32⟩
  | 116 => ⟨S8x1x508x508, .f32⟩
  | 117 => ⟨S8x508x508, .f32⟩
  | 118 => ⟨S8x1x508x508, .f32⟩
  | 119 => ⟨S8x3x508x508, .f32⟩
  | 120 => ⟨S8x3x508x508, .f32⟩
  | 121 => ⟨S8x3x508x508, .f32⟩
  | 122 => ⟨S8x3x508x508, .f32⟩
  | 123 => ⟨S8x1x508x508, .f32⟩
  | 124 => ⟨S8x508x508, .f32⟩
  | 125 => ⟨S8x1x508x508, .f32⟩
  | 126 => ⟨S8x3x508x508, .f32⟩
  | 127 => ⟨S8x3x508x508, .f32⟩
  | _ => ⟨S8x25x508x508, .f32⟩

abbrev hbmTy0_1 (i : Nat) : BufTy := match i % 128 with
  | 0 => ⟨S8x3x508x508, .f32⟩
  | 1 => ⟨S8x3x508x508, .f32⟩
  | 2 => ⟨S8x1x508x508, .f32⟩
  | 3 => ⟨S8x508x508, .f32⟩
  | 4 => ⟨S8x1x508x508, .f32⟩
  | 5 => ⟨S8x3x508x508, .f32⟩
  | 6 => ⟨S8x3x508x508, .f32⟩
  | 7 => ⟨S8x3x508x508, .f32⟩
  | 8 => ⟨S8x3x508x508, .f32⟩
  | 9 => ⟨S8x1x508x508, .f32⟩
  | 10 => ⟨S8x508x508, .f32⟩
  | 11 => ⟨S8x1x508x508, .f32⟩
  | 12 => ⟨S8x3x508x508, .f32⟩
  | 13 => ⟨S8x3x508x508, .f32⟩
  | 14 => ⟨S8x3x508x508, .f32⟩
  | 15 => ⟨S8x3x508x508, .f32⟩
  | 16 => ⟨S8x1x508x508, .f32⟩
  | 17 => ⟨S8x508x508, .f32⟩
  | 18 => ⟨S8x1x508x508, .f32⟩
  | 19 => ⟨S8x3x508x508, .f32⟩
  | 20 => ⟨S8x3x508x508, .f32⟩
  | 21 => ⟨S8x3x508x508, .f32⟩
  | 22 => ⟨S8x3x508x508, .f32⟩
  | 23 => ⟨S8x1x508x508, .f32⟩
  | 24 => ⟨S8x508x508, .f32⟩
  | 25 => ⟨S8x1x508x508, .f32⟩
  | 26 => ⟨S8x3x508x508, .f32⟩
  | 27 => ⟨S8x3x508x508, .f32⟩
  | 28 => ⟨S8x3x508x508, .f32⟩
  | 29 => ⟨S8x3x508x508, .f32⟩
  | 30 => ⟨S8x1x508x508, .f32⟩
  | 31 => ⟨S8x508x508, .f32⟩
  | 32 => ⟨S8x1x508x508, .f32⟩
  | 33 => ⟨S8x3x508x508, .f32⟩
  | 34 => ⟨S8x3x508x508, .f32⟩
  | 35 => ⟨S8x3x508x508, .f32⟩
  | 36 => ⟨S8x3x508x508, .f32⟩
  | 37 => ⟨S8x1x508x508, .f32⟩
  | 38 => ⟨S8x508x508, .f32⟩
  | 39 => ⟨S8x1x508x508, .f32⟩
  | 40 => ⟨S8x3x508x508, .f32⟩
  | 41 => ⟨S8x3x508x508, .f32⟩
  | 42 => ⟨S8x3x508x508, .f32⟩
  | 43 => ⟨S8x3x508x508, .f32⟩
  | 44 => ⟨S8x1x508x508, .f32⟩
  | 45 => ⟨S8x508x508, .f32⟩
  | 46 => ⟨S8x1x508x508, .f32⟩
  | 47 => ⟨S8x3x508x508, .f32⟩
  | 48 => ⟨S8x3x508x508, .f32⟩
  | 49 => ⟨S8x3x508x508, .f32⟩
  | 50 => ⟨S8x3x508x508, .f32⟩
  | 51 => ⟨S_, .f32⟩
  | 52 => ⟨S8x508x508, .f32⟩
  | 53 => ⟨S8x1x508x508, .f32⟩
  | _ => ⟨S8x25x508x508, .f32⟩

abbrev hbmTy (i : Nat) : BufTy := match i / 128 with
  | 0 => hbmTy0_0 i
  | 1 => hbmTy0_1 i
  | _ => ⟨S8x25x508x508, .f32⟩

abbrev bufTy : (tb : Table) → Fin (tcTables nBuf tb) → BufTy
  | .hbm, ⟨i, _⟩ => hbmTy i
  | _, _ => ⟨S8x25x508x508, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_cst_0 : Ref sig .tc := ⟨.hbm, 179, rfl⟩
abbrev main_v176 : Ref sig .tc := ⟨.hbm, 180, rfl⟩
abbrev main_v177 : Ref sig .tc := ⟨.hbm, 181, rfl⟩

abbrev nD : Nat := 1
abbrev τ : Topo := Topo.v7x

variable {F : FTy → Type} [FloatOps F]

class Facts₀ : Prop where
  bcast_S_S8x3x508x508 : S_.BroadcastsInDim S8x3x508x508 (![] : Fin 0 → Fin S8x3x508x508.rank)
  slices_S8x25x508x508_S8x1x508x508_0_0_0_0 : S8x25x508x508.Slices ![0, 0, 0, 0] S8x1x508x508
  shapeCasts_S8x1x508x508_S8x508x508 : S8x1x508x508.ShapeCasts S8x508x508
  bcast_S8x508x508_S8x1x508x508_0_2_3 : S8x508x508.BroadcastsInDim S8x1x508x508 (![0, 2, 3] : Fin 3 → Fin S8x1x508x508.rank)
  slices_S8x3x512x512_S8x3x508x508_0_0_0_0 : S8x3x512x512.Slices ![0, 0, 0, 0] S8x3x508x508
  bcast_S8x1x508x508_S8x3x508x508_0_1_2_3 : S8x1x508x508.BroadcastsInDim S8x3x508x508 (![0, 1, 2, 3] : Fin 4 → Fin S8x3x508x508.rank)
  slices_S8x25x508x508_S8x1x508x508_0_1_0_0 : S8x25x508x508.Slices ![0, 1, 0, 0] S8x1x508x508
  slices_S8x3x512x512_S8x3x508x508_0_0_0_1 : S8x3x512x512.Slices ![0, 0, 0, 1] S8x3x508x508
  slices_S8x25x508x508_S8x1x508x508_0_2_0_0 : S8x25x508x508.Slices ![0, 2, 0, 0] S8x1x508x508
  slices_S8x3x512x512_S8x3x508x508_0_0_0_2 : S8x3x512x512.Slices ![0, 0, 0, 2] S8x3x508x508
  slices_S8x25x508x508_S8x1x508x508_0_3_0_0 : S8x25x508x508.Slices ![0, 3, 0, 0] S8x1x508x508
  slices_S8x3x512x512_S8x3x508x508_0_0_0_3 : S8x3x512x512.Slices ![0, 0, 0, 3] S8x3x508x508
  slices_S8x25x508x508_S8x1x508x508_0_4_0_0 : S8x25x508x508.Slices ![0, 4, 0, 0] S8x1x508x508
  slices_S8x3x512x512_S8x3x508x508_0_0_0_4 : S8x3x512x512.Slices ![0, 0, 0, 4] S8x3x508x508
  slices_S8x25x508x508_S8x1x508x508_0_5_0_0 : S8x25x508x508.Slices ![0, 5, 0, 0] S8x1x508x508
  slices_S8x3x512x512_S8x3x508x508_0_0_1_0 : S8x3x512x512.Slices ![0, 0, 1, 0] S8x3x508x508
  slices_S8x25x508x508_S8x1x508x508_0_6_0_0 : S8x25x508x508.Slices ![0, 6, 0, 0] S8x1x508x508
  slices_S8x3x512x512_S8x3x508x508_0_0_1_1 : S8x3x512x512.Slices ![0, 0, 1, 1] S8x3x508x508
  slices_S8x25x508x508_S8x1x508x508_0_7_0_0 : S8x25x508x508.Slices ![0, 7, 0, 0] S8x1x508x508
  slices_S8x3x512x512_S8x3x508x508_0_0_1_2 : S8x3x512x512.Slices ![0, 0, 1, 2] S8x3x508x508
  slices_S8x25x508x508_S8x1x508x508_0_8_0_0 : S8x25x508x508.Slices ![0, 8, 0, 0] S8x1x508x508
  slices_S8x3x512x512_S8x3x508x508_0_0_1_3 : S8x3x512x512.Slices ![0, 0, 1, 3] S8x3x508x508
  slices_S8x25x508x508_S8x1x508x508_0_9_0_0 : S8x25x508x508.Slices ![0, 9, 0, 0] S8x1x508x508
  slices_S8x3x512x512_S8x3x508x508_0_0_1_4 : S8x3x512x512.Slices ![0, 0, 1, 4] S8x3x508x508
  slices_S8x25x508x508_S8x1x508x508_0_10_0_0 : S8x25x508x508.Slices ![0, 10, 0, 0] S8x1x508x508
  slices_S8x3x512x512_S8x3x508x508_0_0_2_0 : S8x3x512x512.Slices ![0, 0, 2, 0] S8x3x508x508
  slices_S8x25x508x508_S8x1x508x508_0_11_0_0 : S8x25x508x508.Slices ![0, 11, 0, 0] S8x1x508x508
  slices_S8x3x512x512_S8x3x508x508_0_0_2_1 : S8x3x512x512.Slices ![0, 0, 2, 1] S8x3x508x508
  slices_S8x25x508x508_S8x1x508x508_0_12_0_0 : S8x25x508x508.Slices ![0, 12, 0, 0] S8x1x508x508
  slices_S8x3x512x512_S8x3x508x508_0_0_2_2 : S8x3x512x512.Slices ![0, 0, 2, 2] S8x3x508x508
  slices_S8x25x508x508_S8x1x508x508_0_13_0_0 : S8x25x508x508.Slices ![0, 13, 0, 0] S8x1x508x508
  slices_S8x3x512x512_S8x3x508x508_0_0_2_3 : S8x3x512x512.Slices ![0, 0, 2, 3] S8x3x508x508
  slices_S8x25x508x508_S8x1x508x508_0_14_0_0 : S8x25x508x508.Slices ![0, 14, 0, 0] S8x1x508x508
  slices_S8x3x512x512_S8x3x508x508_0_0_2_4 : S8x3x512x512.Slices ![0, 0, 2, 4] S8x3x508x508
  slices_S8x25x508x508_S8x1x508x508_0_15_0_0 : S8x25x508x508.Slices ![0, 15, 0, 0] S8x1x508x508
  slices_S8x3x512x512_S8x3x508x508_0_0_3_0 : S8x3x512x512.Slices ![0, 0, 3, 0] S8x3x508x508
  slices_S8x25x508x508_S8x1x508x508_0_16_0_0 : S8x25x508x508.Slices ![0, 16, 0, 0] S8x1x508x508
  slices_S8x3x512x512_S8x3x508x508_0_0_3_1 : S8x3x512x512.Slices ![0, 0, 3, 1] S8x3x508x508
  slices_S8x25x508x508_S8x1x508x508_0_17_0_0 : S8x25x508x508.Slices ![0, 17, 0, 0] S8x1x508x508
  slices_S8x3x512x512_S8x3x508x508_0_0_3_2 : S8x3x512x512.Slices ![0, 0, 3, 2] S8x3x508x508
  slices_S8x25x508x508_S8x1x508x508_0_18_0_0 : S8x25x508x508.Slices ![0, 18, 0, 0] S8x1x508x508
  slices_S8x3x512x512_S8x3x508x508_0_0_3_3 : S8x3x512x512.Slices ![0, 0, 3, 3] S8x3x508x508
  slices_S8x25x508x508_S8x1x508x508_0_19_0_0 : S8x25x508x508.Slices ![0, 19, 0, 0] S8x1x508x508
  slices_S8x3x512x512_S8x3x508x508_0_0_3_4 : S8x3x512x512.Slices ![0, 0, 3, 4] S8x3x508x508
  slices_S8x25x508x508_S8x1x508x508_0_20_0_0 : S8x25x508x508.Slices ![0, 20, 0, 0] S8x1x508x508
  slices_S8x3x512x512_S8x3x508x508_0_0_4_0 : S8x3x512x512.Slices ![0, 0, 4, 0] S8x3x508x508
  slices_S8x25x508x508_S8x1x508x508_0_21_0_0 : S8x25x508x508.Slices ![0, 21, 0, 0] S8x1x508x508
  slices_S8x3x512x512_S8x3x508x508_0_0_4_1 : S8x3x512x512.Slices ![0, 0, 4, 1] S8x3x508x508
  slices_S8x25x508x508_S8x1x508x508_0_22_0_0 : S8x25x508x508.Slices ![0, 22, 0, 0] S8x1x508x508
  slices_S8x3x512x512_S8x3x508x508_0_0_4_2 : S8x3x512x512.Slices ![0, 0, 4, 2] S8x3x508x508
  slices_S8x25x508x508_S8x1x508x508_0_23_0_0 : S8x25x508x508.Slices ![0, 23, 0, 0] S8x1x508x508
  slices_S8x3x512x512_S8x3x508x508_0_0_4_3 : S8x3x512x512.Slices ![0, 0, 4, 3] S8x3x508x508
  slices_S8x25x508x508_S8x1x508x508_0_24_0_0 : S8x25x508x508.Slices ![0, 24, 0, 0] S8x1x508x508
  slices_S8x3x512x512_S8x3x508x508_0_0_4_4 : S8x3x512x512.Slices ![0, 0, 4, 4] S8x3x508x508
  reducesTo_S8x25x508x508_S8x508x508_d1 : S8x25x508x508.ReducesTo [1] S8x508x508
  h_S_ : 0 < S_.numel

variable [Facts₀]

class Facts : Prop extends Facts₀ where

variable [Facts]
-- ==== Proof.BodyBits.lean ====
/-
  The body of the per-pixel 5×5 filtering kernel, run on whole staging buffers.

  One grid point (b, h) handles image b and the 128 output rows 128·h … 128·h+127. The body reads a
  132-row band of the (zero-padded) image block starting at row 128·h, reads the 25 tap planes of
  the weight block one after the other, and accumulates, lane shift outermost and row shift
  innermost,
      acc[c, r, j]  += w[5·di + dj, r, j] · band[c, r + di, j + dj],
      ksum[r, j]    += w[5·di + dj, r, j],
  both from zero; it stores acc and ksum whole. This file states what the two output buffers hold
  after the body as functions of the two input buffers (`accOut`, `sumOut`) and proves the body's
  triple, for any float instance.
-/
import proofs.«111710_j29137058136307_2_alg».proof.Proof.Gen.Kernel.Frame
import proofs.«111710_j29137058136307_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

/-- Tap plane n of the weight block. -/
abbrev rk0 : Rect S1x25x128x508 := Rect.unit (s := S1x25x128x508) ![0, 0, 0, 0] S1x1x128x508.size inb_S1x25x128x508_S1x1x128x508_0_0_0_0
abbrev rk1 : Rect S1x25x128x508 := Rect.unit (s := S1x25x128x508) ![0, 1, 0, 0] S1x1x128x508.size inb_S1x25x128x508_S1x1x128x508_0_1_0_0
abbrev rk2 : Rect S1x25x128x508 := Rect.unit (s := S1x25x128x508) ![0, 2, 0, 0] S1x1x128x508.size inb_S1x25x128x508_S1x1x128x508_0_2_0_0
abbrev rk3 : Rect S1x25x128x508 := Rect.unit (s := S1x25x128x508) ![0, 3, 0, 0] S1x1x128x508.size inb_S1x25x128x508_S1x1x128x508_0_3_0_0
abbrev rk4 : Rect S1x25x128x508 := Rect.unit (s := S1x25x128x508) ![0, 4, 0, 0] S1x1x128x508.size inb_S1x25x128x508_S1x1x128x508_0_4_0_0
abbrev rk5 : Rect S1x25x128x508 := Rect.unit (s := S1x25x128x508) ![0, 5, 0, 0] S1x1x128x508.size inb_S1x25x128x508_S1x1x128x508_0_5_0_0
abbrev rk6 : Rect S1x25x128x508 := Rect.unit (s := S1x25x128x508) ![0, 6, 0, 0] S1x1x128x508.size inb_S1x25x128x508_S1x1x128x508_0_6_0_0
abbrev rk7 : Rect S1x25x128x508 := Rect.unit (s := S1x25x128x508) ![0, 7, 0, 0] S1x1x128x508.size inb_S1x25x128x508_S1x1x128x508_0_7_0_0
abbrev rk8 : Rect S1x25x128x508 := Rect.unit (s := S1x25x128x508) ![0, 8, 0, 0] S1x1x128x508.size inb_S1x25x128x508_S1x1x128x508_0_8_0_0
abbrev rk9 : Rect S1x25x128x508 := Rect.unit (s := S1x25x128x508) ![0, 9, 0, 0] S1x1x128x508.size inb_S1x25x128x508_S1x1x128x508_0_9_0_0
abbrev rk10 : Rect S1x25x128x508 := Rect.unit (s := S1x25x128x508) ![0, 10, 0, 0] S1x1x128x508.size inb_S1x25x128x508_S1x1x128x508_0_10_0_0
abbrev rk11 : Rect S1x25x128x508 := Rect.unit (s := S1x25x128x508) ![0, 11, 0, 0] S1x1x128x508.size inb_S1x25x128x508_S1x1x128x508_0_11_0_0
abbrev rk12 : Rect S1x25x128x508 := Rect.unit (s := S1x25x128x508) ![0, 12, 0, 0] S1x1x128x508.size inb_S1x25x128x508_S1x1x128x508_0_12_0_0
abbrev rk13 : Rect S1x25x128x508 := Rect.unit (s := S1x25x128x508) ![0, 13, 0, 0] S1x1x128x508.size inb_S1x25x128x508_S1x1x128x508_0_13_0_0
abbrev rk14 : Rect S1x25x128x508 := Rect.unit (s := S1x25x128x508) ![0, 14, 0, 0] S1x1x128x508.size inb_S1x25x128x508_S1x1x128x508_0_14_0_0
abbrev rk15 : Rect S1x25x128x508 := Rect.unit (s := S1x25x128x508) ![0, 15, 0, 0] S1x1x128x508.size inb_S1x25x128x508_S1x1x128x508_0_15_0_0
abbrev rk16 : Rect S1x25x128x508 := Rect.unit (s := S1x25x128x508) ![0, 16, 0, 0] S1x1x128x508.size inb_S1x25x128x508_S1x1x128x508_0_16_0_0
abbrev rk17 : Rect S1x25x128x508 := Rect.unit (s := S1x25x128x508) ![0, 17, 0, 0] S1x1x128x508.size inb_S1x25x128x508_S1x1x128x508_0_17_0_0
abbrev rk18 : Rect S1x25x128x508 := Rect.unit (s := S1x25x128x508) ![0, 18, 0, 0] S1x1x128x508.size inb_S1x25x128x508_S1x1x128x508_0_18_0_0
abbrev rk19 : Rect S1x25x128x508 := Rect.unit (s := S1x25x128x508) ![0, 19, 0, 0] S1x1x128x508.size inb_S1x25x128x508_S1x1x128x508_0_19_0_0
abbrev rk20 : Rect S1x25x128x508 := Rect.unit (s := S1x25x128x508) ![0, 20, 0, 0] S1x1x128x508.size inb_S1x25x128x508_S1x1x128x508_0_20_0_0
abbrev rk21 : Rect S1x25x128x508 := Rect.unit (s := S1x25x128x508) ![0, 21, 0, 0] S1x1x128x508.size inb_S1x25x128x508_S1x1x128x508_0_21_0_0
abbrev rk22 : Rect S1x25x128x508 := Rect.unit (s := S1x25x128x508) ![0, 22, 0, 0] S1x1x128x508.size inb_S1x25x128x508_S1x1x128x508_0_22_0_0
abbrev rk23 : Rect S1x25x128x508 := Rect.unit (s := S1x25x128x508) ![0, 23, 0, 0] S1x1x128x508.size inb_S1x25x128x508_S1x1x128x508_0_23_0_0
abbrev rk24 : Rect S1x25x128x508 := Rect.unit (s := S1x25x128x508) ![0, 24, 0, 0] S1x1x128x508.size inb_S1x25x128x508_S1x1x128x508_0_24_0_0
/-- The 132-row band of the image block the point's rows need. -/
abbrev rband (i : grid0.Coords) : Rect S1x3x516x512 := Rect.unit (s := S1x3x516x512) (k0_off1 i) S1x3x132x512.size (k0_off1_inb i)
/-- The whole of each output block. -/
abbrev racc : Rect S1x3x128x508 := Rect.unit (s := S1x3x128x508) ![0, 0, 0, 0] S1x3x128x508.size inb_S1x3x128x508_S1x3x128x508_0_0_0_0
abbrev rsum : Rect S1x1x128x508 := Rect.unit (s := S1x1x128x508) ![0, 0, 0, 0] S1x1x128x508.size inb_S1x1x128x508_S1x1x128x508_0_0_0_0

/-! ## What the body stores, from the two input buffers -/

/-- The weighted sum the body stores, as the chain of the body's own partial sums over the 25 tap planes
    of `x0` and the band of `x1`. -/
def accVal (i : grid0.Coords) (x0 : Vec F S1x25x128x508 .f32) (x1 : Vec F S1x3x516x512 .f32) : FVec F S1x3x128x508 .f32 :=
  have band := View.ld x1 (rband i)
  have v4 := k0_pay5 band
  have v7 := k0_pay6 band
  have v30 := k0_pay10 band (View.ld x0 rk0) (View.ld x0 rk5) (View.ld x0 rk10)
  have v34 := k0_pay13 band
  have v35 := k0_pay14 (View.ld x0 rk15)
  have v48 := k0_pay16 v4
  have v71 := k0_pay20 v4 v7 v30 v34 v35 (View.ld x0 rk20) (View.ld x0 rk1) (View.ld x0 rk6) (View.ld x0 rk11)
  have v74 := k0_pay22 (View.ld x0 rk16)
  have v75 := k0_pay23 v4
  have v89 := k0_pay25 v4
  have v112 := k0_pay29 v4 v48 v71 v74 v75 (View.ld x0 rk21) (View.ld x0 rk2) (View.ld x0 rk7) (View.ld x0 rk12)
  have v115 := k0_pay31 (View.ld x0 rk17)
  have v130 := k0_pay33 v4
  have v153 := k0_pay37 v4 v89 v112 v115 (View.ld x0 rk22) (View.ld x0 rk3) (View.ld x0 rk8) (View.ld x0 rk13)
  have v171 := k0_pay41 v4
  have v194 := k0_pay45 v4 v130 v153 (View.ld x0 rk18) (View.ld x0 rk23) (View.ld x0 rk4) (View.ld x0 rk9) (View.ld x0 rk14)
  k0_pay3 v171 v194 (View.ld x0 rk19) (View.ld x0 rk24)

/-- The sum of the tap planes the body stores, as the chain of the body's own partial sums. -/
def sumVal (x0 : Vec F S1x25x128x508 .f32) : FVec F S1x1x128x508 .f32 :=
  have v31 := k0_pay11 (View.ld x0 rk0) (View.ld x0 rk5) (View.ld x0 rk10)
  have v33 := k0_pay12 (View.ld x0 rk15)
  have v72 := k0_pay21 v31 v33 (View.ld x0 rk20) (View.ld x0 rk1) (View.ld x0 rk6) (View.ld x0 rk11)
  have v74 := k0_pay22 (View.ld x0 rk16)
  have v113 := k0_pay30 v72 v74 (View.ld x0 rk21) (View.ld x0 rk2) (View.ld x0 rk7) (View.ld x0 rk12)
  have v115 := k0_pay31 (View.ld x0 rk17)
  have v154 := k0_pay38 v113 v115 (View.ld x0 rk22) (View.ld x0 rk3) (View.ld x0 rk8) (View.ld x0 rk13)
  have v195 := k0_pay46 v154 (View.ld x0 rk18) (View.ld x0 rk23) (View.ld x0 rk4) (View.ld x0 rk9) (View.ld x0 rk14)
  k0_pay4 v195 (View.ld x0 rk19) (View.ld x0 rk24)

/-- The weighted-sum buffer after the body: its one whole store. -/
def accOut (i : grid0.Coords) (x0 : Vec F S1x25x128x508 .f32) (x1 : Vec F S1x3x516x512 .f32) : Vec F S1x3x128x508 .f32 :=
  View.canon [⟨racc, accVal i x0 x1⟩]
/-- The tap-sum buffer after the body: its one whole store. -/
def sumOut (x0 : Vec F S1x25x128x508 .f32) : Vec F S1x1x128x508 .f32 :=
  View.canon [⟨rsum, sumVal x0⟩]

/-- A whole store covers its buffer. -/
theorem cover_acc (p0 : Vec F S1x3x128x508 .f32) (y : S1x3x128x508.Idx) :
    ∃ pc ∈ ([⟨racc, p0⟩] : List (View.Piece (Elt F) S1x3x128x508 .f32)), y ∈ pc.1.set :=
  View.cover_of_tiled [⟨racc, p0⟩] S1x3x128x508.size (by rfl) y
theorem cover_sum (p0 : Vec F S1x1x128x508 .f32) (y : S1x1x128x508.Idx) :
    ∃ pc ∈ ([⟨rsum, p0⟩] : List (View.Piece (Elt F) S1x1x128x508 .f32)), y ∈ pc.1.set :=
  View.cover_of_tiled [⟨rsum, p0⟩] S1x1x128x508.size (by rfl) y

/-! ## The body's triple -/

set_option maxHeartbeats 4000000 in
/-- On whole staging memrefs, the two inputs' at contents `x0`, `x1` and the two outputs' at anything, the body
    runs to the continuation holding the inputs' as they were and the outputs' at `accOut`, `sumOut`. -/
theorem sound_kernel (c : Dev nD) (E : Set ℕ) (i : grid0.Coords)
    (arg2 : Memref sig .tc .vmem S1x25x128x508 .f32) (harg2 : arg2.IsWhole) (arg3 : Memref sig .tc .vmem S1x3x516x512 .f32) (harg3 : arg3.IsWhole)
    (arg4 : Memref sig .tc .vmem S1x3x128x508 .f32) (harg4 : arg4.IsWhole) (arg5 : Memref sig .tc .vmem S1x1x128x508 .f32) (harg5 : arg5.IsWhole)
    (x0 : Vec F S1x25x128x508 .f32) (x1 : Vec F S1x3x516x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (accOut i x0 x1) ∗ owns (c : Thread nD τ) arg5 fullShare (sumOut x0)) -∗ K ⟨⟩))
      ⊢ wp frame (wpE (defs₀ (F := F)) Variants.none c none) E (cc0__apply_kernel_body i arg2 harg2 arg3 harg3 arg4 harg4 arg5 harg5) K := by
  simp only [cc0__apply_kernel_body_eq_skeleton]; unfold cc0__apply_kernel_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover_acc _)
  · iexists _; isplitr
    swap; · iexact H3
    ipureintro
    try dsimp only
    exact View.read_writes_eq_canon _ _ _ (cover_sum _)

end Cert.Kernel.Body

end
-- ==== Proof.LibTaps.lean ====
/-
  Layout operations of a 5×5 per-pixel filter's body, read at an index.

  The body works on a weight block of 25 tap planes of 128 × 508 entries and on a 132-row band of a
  3-channel image block. Every operation between a load and a store only moves entries around:
  a tap plane is re-laid [1,1,128,508] → [128,508] → [1,128,508] and spread over the 3 channels; the band
  is re-laid [1,3,132,512] → [3,132,512], cut to 508 lanes from lane dj, and cut to 128 rows from row di.
  Each lemma says which entry of the operand an entry of the result is.
-/
import Idealize.ShloMosaic.Lib.ValueIdx
import Idealize.ShloMosaic.Lib.Pipeline.Value

namespace Cert.Taps

open Idealize.ShloMosaic Idealize.ShloMosaic.ValueIdx

variable {α : Type}

/-- A tap plane [1,1,128,508] re-laid as [128,508]: entry (r, j) is entry (0, 0, r, j). -/
theorem plane_apply (v : (⟨4, ![1, 1, 128, 508]⟩ : Shape).Idx → α)
    (h : (⟨4, ![1, 1, 128, 508]⟩ : Shape).ShapeCasts ⟨2, ![128, 508]⟩) (r : Fin 128) (j : Fin 508) :
    shapeCast ⟨2, ![128, 508]⟩ v h (ix2 r j) = v (ix4 0 0 r j) :=
  shapeCast_apply v h _ _ (by rw [Shape.rowMajor_val_four, Shape.rowMajor_val_two]; show ((0 * 1 + 0) * 128 + r.val) * 508 + j.val = r.val * 508 + j.val; omega)

/-- A plane [128,508] re-laid as [1,128,508] and spread over 3 channels: entry (c, r, j) is entry (r, j). -/
theorem spread_apply (w : (⟨2, ![128, 508]⟩ : Shape).Idx → α)
    (h : (⟨2, ![128, 508]⟩ : Shape).ShapeCasts ⟨3, ![1, 128, 508]⟩)
    (h' : (⟨3, ![1, 128, 508]⟩ : Shape).Broadcasts ⟨3, ![3, 128, 508]⟩) (c : Fin 3) (r : Fin 128) (j : Fin 508) :
    broadcastTo ⟨3, ![3, 128, 508]⟩ (shapeCast ⟨3, ![1, 128, 508]⟩ w h) h' (ix3 c r j) = w (ix2 r j) := by
  refine (broadcastTo_apply _ h' (ix3 c r j) (ix3 0 r j) fun a => ?_).trans ?_
  · match a with
    | ⟨0, _⟩ => rfl
    | ⟨1, _⟩ => rfl
    | ⟨2, _⟩ => rfl
  · exact shapeCast_apply w h _ _ (by rw [Shape.rowMajor_val_three, Shape.rowMajor_val_two]; show (r.val * 508 + j.val) = ((0 * 128 + r.val) * 508 + j.val); omega)

/-- A spread plane that was already re-laid as [1,128,508] (the re-laying done before): the same entry. -/
theorem spread1_apply (w : (⟨3, ![1, 128, 508]⟩ : Shape).Idx → α)
    (h' : (⟨3, ![1, 128, 508]⟩ : Shape).Broadcasts ⟨3, ![3, 128, 508]⟩) (c : Fin 3) (r : Fin 128) (j : Fin 508) :
    broadcastTo ⟨3, ![3, 128, 508]⟩ w h' (ix3 c r j) = w (ix3 0 r j) :=
  broadcastTo_apply _ h' (ix3 c r j) (ix3 0 r j) fun a => by
    match a with
    | ⟨0, _⟩ => rfl
    | ⟨1, _⟩ => rfl
    | ⟨2, _⟩ => rfl

/-- A plane [128,508] re-laid as [1,128,508]: entry (0, r, j) is entry (r, j). -/
theorem relay3_apply (w : (⟨2, ![128, 508]⟩ : Shape).Idx → α)
    (h : (⟨2, ![128, 508]⟩ : Shape).ShapeCasts ⟨3, ![1, 128, 508]⟩) (r : Fin 128) (j : Fin 508) :
    shapeCast ⟨3, ![1, 128, 508]⟩ w h (ix3 0 r j) = w (ix2 r j) :=
  shapeCast_apply w h _ _ (by rw [Shape.rowMajor_val_three, Shape.rowMajor_val_two]; show (r.val * 508 + j.val) = ((0 * 128 + r.val) * 508 + j.val); omega)

/-- The band [1,3,132,512] re-laid as [3,132,512]: entry (c, r, j) is entry (0, c, r, j). -/
theorem band_apply (v : (⟨4, ![1, 3, 132, 512]⟩ : Shape).Idx → α)
    (h : (⟨4, ![1, 3, 132, 512]⟩ : Shape).ShapeCasts ⟨3, ![3, 132, 512]⟩) (c : Fin 3) (r : Fin 132) (j : Fin 512) :
    shapeCast ⟨3, ![3, 132, 512]⟩ v h (ix3 c r j) = v (ix4 0 c r j) :=
  shapeCast_apply v h _ _ (by rw [Shape.rowMajor_val_four, Shape.rowMajor_val_three]; show (((0 * 3 + c.val) * 132 + r.val) * 512 + j.val) = ((c.val * 132 + r.val) * 512 + j.val); omega)

/-- The band cut to 508 lanes from lane `dj`: entry (c, r, j) is entry (c, r, j + dj). -/
theorem lanes_apply (dj : Nat) (hdj : dj ≤ 4) (v : (⟨3, ![3, 132, 512]⟩ : Shape).Idx → α)
    (h : (⟨3, ![3, 132, 512]⟩ : Shape).Slices ![0, 0, dj] ⟨3, ![3, 132, 508]⟩) (c : Fin 3) (r : Fin 132) (j : Fin 508) :
    extractStridedSlice ⟨3, ![3, 132, 508]⟩ ![0, 0, dj] v h (ix3 c r j) = v (ix3 c r ⟨j.val + dj, by omega⟩) :=
  extractStridedSlice_apply _ v h _ _ fun a => by
    match a with
    | ⟨0, _⟩ => show c.val = 0 + c.val; omega
    | ⟨1, _⟩ => show r.val = 0 + r.val; omega
    | ⟨2, _⟩ => show j.val + dj = dj + j.val; omega

/-- The lane-cut band cut to 128 rows from row `di`: entry (c, r, j) is entry (c, r + di, j). -/
theorem rows_apply (di : Nat) (hdi : di ≤ 4) (v : (⟨3, ![3, 132, 508]⟩ : Shape).Idx → α)
    (h : (⟨3, ![3, 132, 508]⟩ : Shape).Slices ![0, di, 0] ⟨3, ![3, 128, 508]⟩) (c : Fin 3) (r : Fin 128) (j : Fin 508) :
    extractStridedSlice ⟨3, ![3, 128, 508]⟩ ![0, di, 0] v h (ix3 c r j) = v (ix3 c ⟨r.val + di, by omega⟩ j) :=
  extractStridedSlice_apply _ v h _ _ fun a => by
    match a with
    | ⟨0, _⟩ => show c.val = 0 + c.val; omega
    | ⟨1, _⟩ => show r.val + di = di + r.val; omega
    | ⟨2, _⟩ => show j.val = 0 + j.val; omega

/-- The weighted sum [3,128,508] re-laid as [1,3,128,508]: entry (0, c, r, j) is entry (c, r, j). -/
theorem relayAcc_apply (v : (⟨3, ![3, 128, 508]⟩ : Shape).Idx → α)
    (h : (⟨3, ![3, 128, 508]⟩ : Shape).ShapeCasts ⟨4, ![1, 3, 128, 508]⟩) (c : Fin 3) (r : Fin 128) (j : Fin 508) :
    shapeCast ⟨4, ![1, 3, 128, 508]⟩ v h (ix4 0 c r j) = v (ix3 c r j) :=
  shapeCast_apply v h _ _ (by rw [Shape.rowMajor_val_four, Shape.rowMajor_val_three]; show ((c.val * 128 + r.val) * 508 + j.val) = (((0 * 3 + c.val) * 128 + r.val) * 508 + j.val); omega)

/-- The tap sum [128,508] re-laid as [1,1,128,508]: entry (0, 0, r, j) is entry (r, j). -/
theorem relaySum_apply (v : (⟨2, ![128, 508]⟩ : Shape).Idx → α)
    (h : (⟨2, ![128, 508]⟩ : Shape).ShapeCasts ⟨4, ![1, 1, 128, 508]⟩) (r : Fin 128) (j : Fin 508) :
    shapeCast ⟨4, ![1, 1, 128, 508]⟩ v h (ix4 0 0 r j) = v (ix2 r j) :=
  shapeCast_apply v h _ _ (by rw [Shape.rowMajor_val_four, Shape.rowMajor_val_two]; show (r.val * 508 + j.val) = (((0 * 1 + 0) * 128 + r.val) * 508 + j.val); omega)

end Cert.Taps
-- ==== Proof.ReadBits.lean ====
import proofs.«111710_j29137058136307_2_alg».proof.Proof.BodyBits
import proofs.«111710_j29137058136307_2_alg».proof.Proof.LibTaps

set_option maxRecDepth 16384

noncomputable section

namespace Cert.Kernel.Body

open Cert.Kernel Cert.Kernel.Gen
open Idealize.ShloMosaic Idealize.ShloMosaic.TcCoe Idealize.ShloMosaic.ValueIdx Cert.Taps

variable {F : FTy → Type} [FloatOps F]

/-! ## The body's loads read at an index, and which weight entries an output entry depends on -/

/-- The band starts at image-block row 128·h at grid point (b, h). -/
theorem band_off (i : grid0.Coords) : k0_off1 i = ![0, 0, 128 * (i 1).val, 0] := by
  have h : ∀ q : Fin 4, (Scalar.indexCast (Scalar.muli (BitVec.ofNat 32 q.val) 128#32)).toNat = 128 * q.val := by decide
  unfold k0_off1
  exact congrArg (fun z => ![0, 0, z, 0]) (h (i 1))

/-- Entry (0, 0, r, j) of tap plane `n` of the weight block is the block's entry (0, n, r, j). -/
theorem tap_idx (n : Nat)
    (hinb : ∀ a, (![0, n, 0, 0] : Fin 4 → Nat) a + S1x1x128x508.size a ≤ S1x25x128x508.size a) (r : Fin 128) (j : Fin 508) :
    (Rect.unit (s := S1x25x128x508) ![0, n, 0, 0] S1x1x128x508.size hinb).idx (ix4 0 0 r j) = ix4 (n0 := 1) (n1 := 25) (n2 := 128) (n3 := 508) 0 ⟨n, hinb 1⟩ r j :=
  funext fun a => Fin.ext (by
    match a with
    | ⟨0, _⟩ => show 0 + 1 * 0 = 0; omega
    | ⟨1, _⟩ => show n + 1 * 0 = n; omega
    | ⟨2, _⟩ => show 0 + 1 * r.val = r.val; omega
    | ⟨3, _⟩ => show 0 + 1 * j.val = j.val; omega)

/-- Entry (0, c, r, j) of the band of the image block is the block's entry (0, c, 128·h + r, j). -/
theorem band_idx (i : grid0.Coords) (c : Fin 3) (r : Fin 132) (j : Fin 512) :
    (rband i).idx (ix4 0 c r j) = ix4 (n0 := 1) (n1 := 3) (n2 := 516) (n3 := 512) 0 c ⟨128 * (i 1).val + r.val, by have : (i 1).val < 4 := (i 1).isLt; omega⟩ j :=
  funext fun a => Fin.ext (by
    have e := band_off i
    match a with
    | ⟨0, _⟩ => show (k0_off1 i) 0 + 1 * 0 = 0; rw [e]; show 0 + 1 * 0 = 0; omega
    | ⟨1, _⟩ => show (k0_off1 i) 1 + 1 * c.val = c.val; rw [e]; show 0 + 1 * c.val = c.val; omega
    | ⟨2, _⟩ => show (k0_off1 i) 2 + 1 * r.val = 128 * (i 1).val + r.val; rw [e]; show 128 * (i 1).val + 1 * r.val = _; omega
    | ⟨3, _⟩ => show (k0_off1 i) 3 + 1 * j.val = j.val; rw [e]; show 0 + 1 * j.val = j.val; omega)

/-- Entry (c, r, j) of the weighted sum reads the weight block only at row r, lane j of its 25 planes. -/
theorem accVal_congr (i : grid0.Coords) (x0 x0' : Vec F S1x25x128x508 .f32) (x1 : Vec F S1x3x516x512 .f32) (c : Fin 3) (r : Fin 128) (j : Fin 508)
    (h : ∀ n : Fin 25, x0 (ix4 0 n r j) = x0' (ix4 0 n r j)) :
    accVal i x0 x1 (ix4 0 c r j) = accVal i x0' x1 (ix4 0 c r j) := by
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx, h]

/-- Entry (r, j) of the tap sum reads the weight block only at row r, lane j of its 25 planes. -/
theorem sumVal_congr (x0 x0' : Vec F S1x25x128x508 .f32) (r : Fin 128) (j : Fin 508)
    (h : ∀ n : Fin 25, x0 (ix4 0 n r j) = x0' (ix4 0 n r j)) :
    sumVal x0 (ix4 0 0 r j) = sumVal x0' (ix4 0 0 r j) := by
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx, h]

end Cert.Kernel.Body
end
-- ==== Proof.FrameBits.lean ====
/-
  The frame of the filtering kernel: it runs to the end, faults nowhere and leaves its two arguments unchanged.

  The grid has 8 × 4 points; point (b, h) stages weight rows 128·h … 128·h+127 of image b, but the weight
  array has only 508 rows, so at h = 3 only 124 rows are fetched and the last four rows of the staging
  buffer hold words nothing names. The body multiplies and adds row by row, so what it leaves in rows
  0 … 123 of the two output buffers does not depend on those words, and only those rows are written
  back. The proof data below names the buffers' contents with the unnamed rows filled by zero; the
  body obligation is stated on the rows that are moved.
-/
import proofs.«111710_j29137058136307_2_alg».proof.Proof.ReadBits
import Idealize.ShloMosaic.Lib.Pipeline.Kit

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rows a point moves -/

/-- At every point the weight window moves its one image, all 25 planes and all 508 lanes, and as many rows as
    the two output windows do; the outputs move all their channels and lanes. -/
theorem moved_sizes : ∀ t : Fin cfg0.N,
    win0_0.xsize (grid0.coords t) 0 = 1 ∧ win0_0.xsize (grid0.coords t) 1 = 25 ∧ win0_0.xsize (grid0.coords t) 3 = 508
    ∧ win0_0.xsize (grid0.coords t) 2 = win0_2.xsize (grid0.coords t) 2
    ∧ win0_3.xsize (grid0.coords t) 2 = win0_2.xsize (grid0.coords t) 2 :=
  (by decide +kernel : ∀ t : Fin grid0.N,
    win0_0.xsize (grid0.coords t) 0 = 1 ∧ win0_0.xsize (grid0.coords t) 1 = 25 ∧ win0_0.xsize (grid0.coords t) 3 = 508
    ∧ win0_0.xsize (grid0.coords t) 2 = win0_2.xsize (grid0.coords t) 2
    ∧ win0_3.xsize (grid0.coords t) 2 = win0_2.xsize (grid0.coords t) 2)

/-- On a row the point moves, a filled weight block is the fetched block whatever filled the rest. -/
theorem fill_row (t : Fin cfg0.N) (d d' : S1x25x128x508.Idx → Elt F .f32)
    (g : (win0_0.xblock (grid0.coords t)).Idx → Elt F .f32) (r : Fin 128) (j : Fin 508)
    (hr : r.val < win0_2.xsize (grid0.coords t) 2) (n : Fin 25) :
    win0_0.fill (grid0.coords t) d g (ix4 0 n r j) = win0_0.fill (grid0.coords t) d' g (ix4 0 n r j) := by
  have hm : win0_0.moved (grid0.coords t) (ix4 0 n r j) = true := (win0_0.moved_iff _ _).mpr fun a => by
    obtain ⟨h0, h1, h3, h2, -⟩ := moved_sizes t
    match a with
    | ⟨0, _⟩ => show 0 < win0_0.xsize (grid0.coords t) 0; rw [h0]; exact Nat.one_pos
    | ⟨1, _⟩ => show n.val < win0_0.xsize (grid0.coords t) 1; rw [h1]; exact n.isLt
    | ⟨2, _⟩ => show r.val < win0_0.xsize (grid0.coords t) 2; rw [h2]; exact hr
    | ⟨3, _⟩ => show j.val < win0_0.xsize (grid0.coords t) 3; rw [h3]; exact j.isLt
  unfold Window.fill; rw [dif_pos hm, dif_pos hm]

theorem zeros4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-- The one whole store leaves its payload. -/
theorem accOut_eq (i : grid0.Coords) (x0 : Vec F S1x25x128x508 .f32) (x1 : Vec F S1x3x516x512 .f32) : accOut i x0 x1 = accVal i x0 x1 :=
  View.canon_unit_zero zeros4 _ _
theorem sumOut_eq (x0 : Vec F S1x25x128x508 .f32) : sumOut x0 = sumVal x0 :=
  View.canon_unit_zero zeros4 _ _

/-- The moved rows of the weighted sum do not depend on what fills the unmoved rows of the weight block. -/
theorem acc_cut_fill (t : Fin cfg0.N) (d d' : S1x25x128x508.Idx → Elt F .f32)
    (g : (win0_0.xblock (grid0.coords t)).Idx → Elt F .f32) (x1 : Vec F S1x3x516x512 .f32) :
    win0_2.cut (grid0.coords t) (accOut (grid0.coords t) (win0_0.fill (grid0.coords t) d g) x1)
      = win0_2.cut (grid0.coords t) (accOut (grid0.coords t) (win0_0.fill (grid0.coords t) d' g) x1) := by
  funext y
  show accOut _ _ x1 (win0_2.xinj (grid0.coords t) y) = accOut _ _ x1 (win0_2.xinj (grid0.coords t) y)
  have e0 : win0_2.xinj (grid0.coords t) y 0 = (0 : Fin 1) := Fin.ext (by
    have : (win0_2.xinj (grid0.coords t) y 0).val < 1 := (win0_2.xinj (grid0.coords t) y 0).isLt
    show (win0_2.xinj (grid0.coords t) y 0).val = 0; omega)
  have e := eq_ix4 (win0_2.xinj (grid0.coords t) y)
  rw [e0] at e
  rw [e, accOut_eq, accOut_eq]
  exact accVal_congr _ _ _ _ _ _ _ fun n => fill_row t d d' g _ _ (y 2).isLt n

/-- The moved rows of the tap sum likewise. -/
theorem sum_cut_fill (t : Fin cfg0.N) (d d' : S1x25x128x508.Idx → Elt F .f32)
    (g : (win0_0.xblock (grid0.coords t)).Idx → Elt F .f32) :
    win0_3.cut (grid0.coords t) (sumOut (win0_0.fill (grid0.coords t) d g))
      = win0_3.cut (grid0.coords t) (sumOut (win0_0.fill (grid0.coords t) d' g)) := by
  funext y
  show sumOut _ (win0_3.xinj (grid0.coords t) y) = sumOut _ (win0_3.xinj (grid0.coords t) y)
  have e0 : win0_3.xinj (grid0.coords t) y 0 = (0 : Fin 1) := Fin.ext (by
    have : (win0_3.xinj (grid0.coords t) y 0).val < 1 := (win0_3.xinj (grid0.coords t) y 0).isLt
    show (win0_3.xinj (grid0.coords t) y 0).val = 0; omega)
  have e1 : win0_3.xinj (grid0.coords t) y 1 = (0 : Fin 1) := Fin.ext (by
    have : (win0_3.xinj (grid0.coords t) y 1).val < 1 := (win0_3.xinj (grid0.coords t) y 1).isLt
    show (win0_3.xinj (grid0.coords t) y 1).val = 0; omega)
  have e := eq_ix4 (win0_3.xinj (grid0.coords t) y)
  rw [e0, e1] at e
  rw [e, sumOut_eq, sumOut_eq]
  exact sumVal_congr _ _ _ _ fun n => fill_row t d d' g _ _ (by
    have h := (y 2).isLt
    obtain ⟨-, -, -, -, h3⟩ := moved_sizes t
    show (y 2).val < win0_2.xsize (grid0.coords t) 2
    rw [← h3]; exact h) n

variable (m : (ℓ : Loc nD τ sig) → Buf (Elt F) ℓ) (ρ : Dev nD → PrngReg)

/-! ## The proof data -/

/-- The weight block of point `t` with the rows the fetch does not reach filled by zero. -/
def wblk (c : Dev nD) (t : Fin cfg0.N) : Vec F S1x25x128x508 .f32 :=
  win0_0.fill (grid0.coords t) (fun _ => Scalar.ofBits .f32 0#32) (iblk m c 0 t)

/-- The arrays as the region finds them; after the body at point `t` the weight buffer at its filled block, the image
    buffer at its block, the two output buffers at the body's sums of those; nothing carried between points. -/
def dats (_ : Fin 1) (c : Dev nD) : Dat τ (Elt F) Unit ℕ (UR sig nD τ) ℕ cfg0 c where
  A w := V m c (Pipeline.arrRef spec0 w)
  after w t := match w with
    | ⟨0, _⟩ => wblk m c t
    | ⟨1, _⟩ => iblk m c 1 t
    | ⟨2, _⟩ => accOut (grid0.coords t) (wblk m c t) (iblk m c 1 t)
    | ⟨3, _⟩ => sumOut (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = wblk m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = accOut (grid0.coords t) (wblk m c t) (iblk m c 1 t) := by dsimp only [dats]
theorem after_3 (c : Dev nD) (t : Fin cfg0.N) : (dats m 0 c).after 3 t = sumOut (wblk m c t) := by dsimp only [dats]

/-- The weight buffer as the body finds it: just fetched, the block on the rows the fetch reaches. -/
theorem before_0 (c : Dev nD) (t : Fin cfg0.N) (d) :
    (dats m 0 c).before 0 t d = win0_0.fill (grid0.coords t) d (iblk m c 0 t) := by
  unfold Dat.before; rw [if_pos (fetch0_0 t)]; rfl
/-- The image buffer holds its block at every point, fetched there or not. -/
theorem before_1 (c : Dev nD) (t : Fin cfg0.N) (d) : (dats m 0 c).before 1 t d = iblk m c 1 t :=
  before0_1_of m (dats m 0 c) (A_eq m c 1) (after_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  iapply (sound_kernel c Set.univ (grid0.coords t) _ _ _ _ _ _ _ _ (win0_0.fill (grid0.coords t) d0 (iblk m c 0 t)) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  have hx : win0_0.cut (grid0.coords t) (wblk m c t) = iblk m c 0 t := win0_0.cut_fill _ _ _
  isplitl [H0]
  · iexists d0
    rw [after_0]
    change _ ⊢ owns (c : Thread nD τ) (st0_0 t) fullShare (win0_0.fill (grid0.coords t) d0 (win0_0.cut (grid0.coords t) (wblk m c t)))
    rw [hx]; try iexact H0
  isplitl [H1]
  · rw [after_1]; iexact H1
  isplitl [H2]
  · iexists accOut (grid0.coords t) (win0_0.fill (grid0.coords t) d0 (iblk m c 0 t)) (iblk m c 1 t)
    rw [after_2]
    change _ ⊢ owns (c : Thread nD τ) (st0_2 t) fullShare (win0_2.fill (grid0.coords t) (accOut (grid0.coords t) (win0_0.fill (grid0.coords t) d0 (iblk m c 0 t)) (iblk m c 1 t))
      (win0_2.cut (grid0.coords t) (accOut (grid0.coords t) (wblk m c t) (iblk m c 1 t))))
    unfold wblk
    rw [win0_2.fill_congr_cut (grid0.coords t) (acc_cut_fill t d0 _ (iblk m c 0 t) (iblk m c 1 t))]; try iexact H2
  · iexists sumOut (win0_0.fill (grid0.coords t) d0 (iblk m c 0 t))
    rw [after_3]
    change _ ⊢ owns (c : Thread nD τ) (st0_3 t) fullShare (win0_3.fill (grid0.coords t) (sumOut (win0_0.fill (grid0.coords t) d0 (iblk m c 0 t)))
      (win0_3.cut (grid0.coords t) (sumOut (wblk m c t))))
    unfold wblk
    rw [win0_3.fill_congr_cut (grid0.coords t) (sum_cut_fill t d0 _ (iblk m c 0 t))]; try iexact H3

/-! ## The run and the frame -/

set_option backward.isDefEq.respectTransparency.types false in
/-- Every weakly fair execution of @main terminates, and every final state has every array of the pipeline at what
    the write-backs of the proof data leave and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The body of the per-pixel 5×5 filtering kernel, run on whole staging buffers.

  One grid point (b, h) handles image b and the 128 output rows 128·h … 128·h+127. The body reads a
  132-row band of the (zero-padded) image block starting at row 128·h, reads the 25 tap planes of
  the weight block one after the other, and accumulates, lane shift outermost and row shift
  innermost,
      acc[c, r, j]  += w[5·di + dj, r, j] · band[c, r + di, j + dj],
      ksum[r, j]    += w[5·di + dj, r, j],
  both from zero; it stores acc and ksum whole. This file states what the two output buffers hold
  after the body as functions of the two input buffers (`accOut`, `sumOut`) and proves the body's
  triple, for any float instance.
-/
import proofs.«111710_j29137058136307_2_alg».proof.Proof.Gen.KernelIdeal.Frame
import proofs.«111710_j29137058136307_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

/-- Tap plane n of the weight block. -/
abbrev rk0 : Rect S1x25x128x508 := Rect.unit (s := S1x25x128x508) ![0, 0, 0, 0] S1x1x128x508.size inb_S1x25x128x508_S1x1x128x508_0_0_0_0
abbrev rk1 : Rect S1x25x128x508 := Rect.unit (s := S1x25x128x508) ![0, 1, 0, 0] S1x1x128x508.size inb_S1x25x128x508_S1x1x128x508_0_1_0_0
abbrev rk2 : Rect S1x25x128x508 := Rect.unit (s := S1x25x128x508) ![0, 2, 0, 0] S1x1x128x508.size inb_S1x25x128x508_S1x1x128x508_0_2_0_0
abbrev rk3 : Rect S1x25x128x508 := Rect.unit (s := S1x25x128x508) ![0, 3, 0, 0] S1x1x128x508.size inb_S1x25x128x508_S1x1x128x508_0_3_0_0
abbrev rk4 : Rect S1x25x128x508 := Rect.unit (s := S1x25x128x508) ![0, 4, 0, 0] S1x1x128x508.size inb_S1x25x128x508_S1x1x128x508_0_4_0_0
abbrev rk5 : Rect S1x25x128x508 := Rect.unit (s := S1x25x128x508) ![0, 5, 0, 0] S1x1x128x508.size inb_S1x25x128x508_S1x1x128x508_0_5_0_0
abbrev rk6 : Rect S1x25x128x508 := Rect.unit (s := S1x25x128x508) ![0, 6, 0, 0] S1x1x128x508.size inb_S1x25x128x508_S1x1x128x508_0_6_0_0
abbrev rk7 : Rect S1x25x128x508 := Rect.unit (s := S1x25x128x508) ![0, 7, 0, 0] S1x1x128x508.size inb_S1x25x128x508_S1x1x128x508_0_7_0_0
abbrev rk8 : Rect S1x25x128x508 := Rect.unit (s := S1x25x128x508) ![0, 8, 0, 0] S1x1x128x508.size inb_S1x25x128x508_S1x1x128x508_0_8_0_0
abbrev rk9 : Rect S1x25x128x508 := Rect.unit (s := S1x25x128x508) ![0, 9, 0, 0] S1x1x128x508.size inb_S1x25x128x508_S1x1x128x508_0_9_0_0
abbrev rk10 : Rect S1x25x128x508 := Rect.unit (s := S1x25x128x508) ![0, 10, 0, 0] S1x1x128x508.size inb_S1x25x128x508_S1x1x128x508_0_10_0_0
abbrev rk11 : Rect S1x25x128x508 := Rect.unit (s := S1x25x128x508) ![0, 11, 0, 0] S1x1x128x508.size inb_S1x25x128x508_S1x1x128x508_0_11_0_0
abbrev rk12 : Rect S1x25x128x508 := Rect.unit (s := S1x25x128x508) ![0, 12, 0, 0] S1x1x128x508.size inb_S1x25x128x508_S1x1x128x508_0_12_0_0
abbrev rk13 : Rect S1x25x128x508 := Rect.unit (s := S1x25x128x508) ![0, 13, 0, 0] S1x1x128x508.size inb_S1x25x128x508_S1x1x128x508_0_13_0_0
abbrev rk14 : Rect S1x25x128x508 := Rect.unit (s := S1x25x128x508) ![0, 14, 0, 0] S1x1x128x508.size inb_S1x25x128x508_S1x1x128x508_0_14_0_0
abbrev rk15 : Rect S1x25x128x508 := Rect.unit (s := S1x25x128x508) ![0, 15, 0, 0] S1x1x128x508.size inb_S1x25x128x508_S1x1x128x508_0_15_0_0
abbrev rk16 : Rect S1x25x128x508 := Rect.unit (s := S1x25x128x508) ![0, 16, 0, 0] S1x1x128x508.size inb_S1x25x128x508_S1x1x128x508_0_16_0_0
abbrev rk17 : Rect S1x25x128x508 := Rect.unit (s := S1x25x128x508) ![0, 17, 0, 0] S1x1x128x508.size inb_S1x25x128x508_S1x1x128x508_0_17_0_0
abbrev rk18 : Rect S1x25x128x508 := Rect.unit (s := S1x25x128x508) ![0, 18, 0, 0] S1x1x128x508.size inb_S1x25x128x508_S1x1x128x508_0_18_0_0
abbrev rk19 : Rect S1x25x128x508 := Rect.unit (s := S1x25x128x508) ![0, 19, 0, 0] S1x1x128x508.size inb_S1x25x128x508_S1x1x128x508_0_19_0_0
abbrev rk20 : Rect S1x25x128x508 := Rect.unit (s := S1x25x128x508) ![0, 20, 0, 0] S1x1x128x508.size inb_S1x25x128x508_S1x1x128x508_0_20_0_0
abbrev rk21 : Rect S1x25x128x508 := Rect.unit (s := S1x25x128x508) ![0, 21, 0, 0] S1x1x128x508.size inb_S1x25x128x508_S1x1x128x508_0_21_0_0
abbrev rk22 : Rect S1x25x128x508 := Rect.unit (s := S1x25x128x508) ![0, 22, 0, 0] S1x1x128x508.size inb_S1x25x128x508_S1x1x128x508_0_22_0_0
abbrev rk23 : Rect S1x25x128x508 := Rect.unit (s := S1x25x128x508) ![0, 23, 0, 0] S1x1x128x508.size inb_S1x25x128x508_S1x1x128x508_0_23_0_0
abbrev rk24 : Rect S1x25x128x508 := Rect.unit (s := S1x25x128x508) ![0, 24, 0, 0] S1x1x128x508.size inb_S1x25x128x508_S1x1x128x508_0_24_0_0
/-- The 132-row band of the image block the point's rows need. -/
abbrev rband (i : grid0.Coords) : Rect S1x3x516x512 := Rect.unit (s := S1x3x516x512) (k0_off1 i) S1x3x132x512.size (k0_off1_inb i)
/-- The whole of each output block. -/
abbrev racc : Rect S1x3x128x508 := Rect.unit (s := S1x3x128x508) ![0, 0, 0, 0] S1x3x128x508.size inb_S1x3x128x508_S1x3x128x508_0_0_0_0
abbrev rsum : Rect S1x1x128x508 := Rect.unit (s := S1x1x128x508) ![0, 0, 0, 0] S1x1x128x508.size inb_S1x1x128x508_S1x1x128x508_0_0_0_0

/-! ## What the body stores, from the two input buffers -/

/-- The weighted sum the body stores, as the chain of the body's own partial sums over the 25 tap planes
    of `x0` and the band of `x1`. -/
def accVal (i : grid0.Coords) (x0 : Vec F S1x25x128x508 .f32) (x1 : Vec F S1x3x516x512 .f32) : FVec F S1x3x128x508 .f32 :=
  have band := View.ld x1 (rband i)
  have v4 := k0_pay5 band
  have v7 := k0_pay6 band
  have v30 := k0_pay10 band (View.ld x0 rk0) (View.ld x0 rk5) (View.ld x0 rk10)
  have v34 := k0_pay13 band
  have v35 := k0_pay14 (View.ld x0 rk15)
  have v48 := k0_pay16 v4
  have v71 := k0_pay20 v4 v7 v30 v34 v35 (View.ld x0 rk20) (View.ld x0 rk1) (View.ld x0 rk6) (View.ld x0 rk11)
  have v74 := k0_pay22 (View.ld x0 rk16)
  have v75 := k0_pay23 v4
  have v89 := k0_pay25 v4
  have v112 := k0_pay29 v4 v48 v71 v74 v75 (View.ld x0 rk21) (View.ld x0 rk2) (View.ld x0 rk7) (View.ld x0 rk12)
  have v115 := k0_pay31 (View.ld x0 rk17)
  have v130 := k0_pay33 v4
  have v153 := k0_pay37 v4 v89 v112 v115 (View.ld x0 rk22) (View.ld x0 rk3) (View.ld x0 rk8) (View.ld x0 rk13)
  have v171 := k0_pay41 v4
  have v194 := k0_pay45 v4 v130 v153 (View.ld x0 rk18) (View.ld x0 rk23) (View.ld x0 rk4) (View.ld x0 rk9) (View.ld x0 rk14)
  k0_pay3 v171 v194 (View.ld x0 rk19) (View.ld x0 rk24)

/-- The sum of the tap planes the body stores, as the chain of the body's own partial sums. -/
def sumVal (x0 : Vec F S1x25x128x508 .f32) : FVec F S1x1x128x508 .f32 :=
  have v31 := k0_pay11 (View.ld x0 rk0) (View.ld x0 rk5) (View.ld x0 rk10)
  have v33 := k0_pay12 (View.ld x0 rk15)
  have v72 := k0_pay21 v31 v33 (View.ld x0 rk20) (View.ld x0 rk1) (View.ld x0 rk6) (View.ld x0 rk11)
  have v74 := k0_pay22 (View.ld x0 rk16)
  have v113 := k0_pay30 v72 v74 (View.ld x0 rk21) (View.ld x0 rk2) (View.ld x0 rk7) (View.ld x0 rk12)
  have v115 := k0_pay31 (View.ld x0 rk17)
  have v154 := k0_pay38 v113 v115 (View.ld x0 rk22) (View.ld x0 rk3) (View.ld x0 rk8) (View.ld x0 rk13)
  have v195 := k0_pay46 v154 (View.ld x0 rk18) (View.ld x0 rk23) (View.ld x0 rk4) (View.ld x0 rk9) (View.ld x0 rk14)
  k0_pay4 v195 (View.ld x0 rk19) (View.ld x0 rk24)

/-- The weighted-sum buffer after the body: its one whole store. -/
def accOut (i : grid0.Coords) (x0 : Vec F S1x25x128x508 .f32) (x1 : Vec F S1x3x516x512 .f32) : Vec F S1x3x128x508 .f32 :=
  View.canon [⟨racc, accVal i x0 x1⟩]
/-- The tap-sum buffer after the body: its one whole store. -/
def sumOut (x0 : Vec F S1x25x128x508 .f32) : Vec F S1x1x128x508 .f32 :=
  View.canon [⟨rsum, sumVal x0⟩]

/-- A whole store covers its buffer. -/
theorem cover_acc (p0 : Vec F S1x3x128x508 .f32) (y : S1x3x128x508.Idx) :
    ∃ pc ∈ ([⟨racc, p0⟩] : List (View.Piece (Elt F) S1x3x128x508 .f32)), y ∈ pc.1.set :=
  View.cover_of_tiled [⟨racc, p0⟩] S1x3x128x508.size (by rfl) y
theorem cover_sum (p0 : Vec F S1x1x128x508 .f32) (y : S1x1x128x508.Idx) :
    ∃ pc ∈ ([⟨rsum, p0⟩] : List (View.Piece (Elt F) S1x1x128x508 .f32)), y ∈ pc.1.set :=
  View.cover_of_tiled [⟨rsum, p0⟩] S1x1x128x508.size (by rfl) y

/-! ## The body's triple -/

set_option maxHeartbeats 4000000 in
/-- On whole staging memrefs, the two inputs' at contents `x0`, `x1` and the two outputs' at anything, the body
    runs to the continuation holding the inputs' as they were and the outputs' at `accOut`, `sumOut`. -/
theorem sound_kernel (c : Dev nD) (E : Set ℕ) (i : grid0.Coords)
    (arg2 : Memref sig .tc .vmem S1x25x128x508 .f32) (harg2 : arg2.IsWhole) (arg3 : Memref sig .tc .vmem S1x3x516x512 .f32) (harg3 : arg3.IsWhole)
    (arg4 : Memref sig .tc .vmem S1x3x128x508 .f32) (harg4 : arg4.IsWhole) (arg5 : Memref sig .tc .vmem S1x1x128x508 .f32) (harg5 : arg5.IsWhole)
    (x0 : Vec F S1x25x128x508 .f32) (x1 : Vec F S1x3x516x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (accOut i x0 x1) ∗ owns (c : Thread nD τ) arg5 fullShare (sumOut x0)) -∗ K ⟨⟩))
      ⊢ wp frame (wpE (defs₀ (F := F)) Variants.none c none) E (cc0__apply_kernel_body i arg2 harg2 arg3 harg3 arg4 harg4 arg5 harg5) K := by
  simp only [cc0__apply_kernel_body_eq_skeleton]; unfold cc0__apply_kernel_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover_acc _)
  · iexists _; isplitr
    swap; · iexact H3
    ipureintro
    try dsimp only
    exact View.read_writes_eq_canon _ _ _ (cover_sum _)

end Cert.KernelIdeal.Body

end
-- ==== Proof.ReadIdeal.lean ====
import proofs.«111710_j29137058136307_2_alg».proof.Proof.BodyIdeal
import proofs.«111710_j29137058136307_2_alg».proof.Proof.LibTaps

set_option maxRecDepth 16384

noncomputable section

namespace Cert.KernelIdeal.Body

open Cert.KernelIdeal Cert.KernelIdeal.Gen
open Idealize.ShloMosaic Idealize.ShloMosaic.TcCoe Idealize.ShloMosaic.ValueIdx Cert.Taps

variable {F : FTy → Type} [FloatOps F]

/-! ## The body's loads read at an index, and which weight entries an output entry depends on -/

/-- The band starts at image-block row 128·h at grid point (b, h). -/
theorem band_off (i : grid0.Coords) : k0_off1 i = ![0, 0, 128 * (i 1).val, 0] := by
  have h : ∀ q : Fin 4, (Scalar.indexCast (Scalar.muli (BitVec.ofNat 32 q.val) 128#32)).toNat = 128 * q.val := by decide
  unfold k0_off1
  exact congrArg (fun z => ![0, 0, z, 0]) (h (i 1))

/-- Entry (0, 0, r, j) of tap plane `n` of the weight block is the block's entry (0, n, r, j). -/
theorem tap_idx (n : Nat)
    (hinb : ∀ a, (![0, n, 0, 0] : Fin 4 → Nat) a + S1x1x128x508.size a ≤ S1x25x128x508.size a) (r : Fin 128) (j : Fin 508) :
    (Rect.unit (s := S1x25x128x508) ![0, n, 0, 0] S1x1x128x508.size hinb).idx (ix4 0 0 r j) = ix4 (n0 := 1) (n1 := 25) (n2 := 128) (n3 := 508) 0 ⟨n, hinb 1⟩ r j :=
  funext fun a => Fin.ext (by
    match a with
    | ⟨0, _⟩ => show 0 + 1 * 0 = 0; omega
    | ⟨1, _⟩ => show n + 1 * 0 = n; omega
    | ⟨2, _⟩ => show 0 + 1 * r.val = r.val; omega
    | ⟨3, _⟩ => show 0 + 1 * j.val = j.val; omega)

/-- Entry (0, c, r, j) of the band of the image block is the block's entry (0, c, 128·h + r, j). -/
theorem band_idx (i : grid0.Coords) (c : Fin 3) (r : Fin 132) (j : Fin 512) :
    (rband i).idx (ix4 0 c r j) = ix4 (n0 := 1) (n1 := 3) (n2 := 516) (n3 := 512) 0 c ⟨128 * (i 1).val + r.val, by have : (i 1).val < 4 := (i 1).isLt; omega⟩ j :=
  funext fun a => Fin.ext (by
    have e := band_off i
    match a with
    | ⟨0, _⟩ => show (k0_off1 i) 0 + 1 * 0 = 0; rw [e]; show 0 + 1 * 0 = 0; omega
    | ⟨1, _⟩ => show (k0_off1 i) 1 + 1 * c.val = c.val; rw [e]; show 0 + 1 * c.val = c.val; omega
    | ⟨2, _⟩ => show (k0_off1 i) 2 + 1 * r.val = 128 * (i 1).val + r.val; rw [e]; show 128 * (i 1).val + 1 * r.val = _; omega
    | ⟨3, _⟩ => show (k0_off1 i) 3 + 1 * j.val = j.val; rw [e]; show 0 + 1 * j.val = j.val; omega)

/-- Entry (c, r, j) of the weighted sum reads the weight block only at row r, lane j of its 25 planes. -/
theorem accVal_congr (i : grid0.Coords) (x0 x0' : Vec F S1x25x128x508 .f32) (x1 : Vec F S1x3x516x512 .f32) (c : Fin 3) (r : Fin 128) (j : Fin 508)
    (h : ∀ n : Fin 25, x0 (ix4 0 n r j) = x0' (ix4 0 n r j)) :
    accVal i x0 x1 (ix4 0 c r j) = accVal i x0' x1 (ix4 0 c r j) := by
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx, h]

/-- Entry (r, j) of the tap sum reads the weight block only at row r, lane j of its 25 planes. -/
theorem sumVal_congr (x0 x0' : Vec F S1x25x128x508 .f32) (r : Fin 128) (j : Fin 508)
    (h : ∀ n : Fin 25, x0 (ix4 0 n r j) = x0' (ix4 0 n r j)) :
    sumVal x0 (ix4 0 0 r j) = sumVal x0' (ix4 0 0 r j) := by
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx, h]

end Cert.KernelIdeal.Body
end
-- ==== Proof.FrameIdeal.lean ====
/-
  The frame of the filtering kernel: it runs to the end, faults nowhere and leaves its two arguments unchanged.

  The grid has 8 × 4 points; point (b, h) stages weight rows 128·h … 128·h+127 of image b, but the weight
  array has only 508 rows, so at h = 3 only 124 rows are fetched and the last four rows of the staging
  buffer hold words nothing names. The body multiplies and adds row by row, so what it leaves in rows
  0 … 123 of the two output buffers does not depend on those words, and only those rows are written
  back. The proof data below names the buffers' contents with the unnamed rows filled by zero; the
  body obligation is stated on the rows that are moved.
-/
import proofs.«111710_j29137058136307_2_alg».proof.Proof.ReadIdeal
import Idealize.ShloMosaic.Lib.Pipeline.Kit

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rows a point moves -/

/-- At every point the weight window moves its one image, all 25 planes and all 508 lanes, and as many rows as
    the two output windows do; the outputs move all their channels and lanes. -/
theorem moved_sizes : ∀ t : Fin cfg0.N,
    win0_0.xsize (grid0.coords t) 0 = 1 ∧ win0_0.xsize (grid0.coords t) 1 = 25 ∧ win0_0.xsize (grid0.coords t) 3 = 508
    ∧ win0_0.xsize (grid0.coords t) 2 = win0_2.xsize (grid0.coords t) 2
    ∧ win0_3.xsize (grid0.coords t) 2 = win0_2.xsize (grid0.coords t) 2 :=
  (by decide +kernel : ∀ t : Fin grid0.N,
    win0_0.xsize (grid0.coords t) 0 = 1 ∧ win0_0.xsize (grid0.coords t) 1 = 25 ∧ win0_0.xsize (grid0.coords t) 3 = 508
    ∧ win0_0.xsize (grid0.coords t) 2 = win0_2.xsize (grid0.coords t) 2
    ∧ win0_3.xsize (grid0.coords t) 2 = win0_2.xsize (grid0.coords t) 2)

/-- On a row the point moves, a filled weight block is the fetched block whatever filled the rest. -/
theorem fill_row (t : Fin cfg0.N) (d d' : S1x25x128x508.Idx → Elt F .f32)
    (g : (win0_0.xblock (grid0.coords t)).Idx → Elt F .f32) (r : Fin 128) (j : Fin 508)
    (hr : r.val < win0_2.xsize (grid0.coords t) 2) (n : Fin 25) :
    win0_0.fill (grid0.coords t) d g (ix4 0 n r j) = win0_0.fill (grid0.coords t) d' g (ix4 0 n r j) := by
  have hm : win0_0.moved (grid0.coords t) (ix4 0 n r j) = true := (win0_0.moved_iff _ _).mpr fun a => by
    obtain ⟨h0, h1, h3, h2, -⟩ := moved_sizes t
    match a with
    | ⟨0, _⟩ => show 0 < win0_0.xsize (grid0.coords t) 0; rw [h0]; exact Nat.one_pos
    | ⟨1, _⟩ => show n.val < win0_0.xsize (grid0.coords t) 1; rw [h1]; exact n.isLt
    | ⟨2, _⟩ => show r.val < win0_0.xsize (grid0.coords t) 2; rw [h2]; exact hr
    | ⟨3, _⟩ => show j.val < win0_0.xsize (grid0.coords t) 3; rw [h3]; exact j.isLt
  unfold Window.fill; rw [dif_pos hm, dif_pos hm]

theorem zeros4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-- The one whole store leaves its payload. -/
theorem accOut_eq (i : grid0.Coords) (x0 : Vec F S1x25x128x508 .f32) (x1 : Vec F S1x3x516x512 .f32) : accOut i x0 x1 = accVal i x0 x1 :=
  View.canon_unit_zero zeros4 _ _
theorem sumOut_eq (x0 : Vec F S1x25x128x508 .f32) : sumOut x0 = sumVal x0 :=
  View.canon_unit_zero zeros4 _ _

/-- The moved rows of the weighted sum do not depend on what fills the unmoved rows of the weight block. -/
theorem acc_cut_fill (t : Fin cfg0.N) (d d' : S1x25x128x508.Idx → Elt F .f32)
    (g : (win0_0.xblock (grid0.coords t)).Idx → Elt F .f32) (x1 : Vec F S1x3x516x512 .f32) :
    win0_2.cut (grid0.coords t) (accOut (grid0.coords t) (win0_0.fill (grid0.coords t) d g) x1)
      = win0_2.cut (grid0.coords t) (accOut (grid0.coords t) (win0_0.fill (grid0.coords t) d' g) x1) := by
  funext y
  show accOut _ _ x1 (win0_2.xinj (grid0.coords t) y) = accOut _ _ x1 (win0_2.xinj (grid0.coords t) y)
  have e0 : win0_2.xinj (grid0.coords t) y 0 = (0 : Fin 1) := Fin.ext (by
    have : (win0_2.xinj (grid0.coords t) y 0).val < 1 := (win0_2.xinj (grid0.coords t) y 0).isLt
    show (win0_2.xinj (grid0.coords t) y 0).val = 0; omega)
  have e := eq_ix4 (win0_2.xinj (grid0.coords t) y)
  rw [e0] at e
  rw [e, accOut_eq, accOut_eq]
  exact accVal_congr _ _ _ _ _ _ _ fun n => fill_row t d d' g _ _ (y 2).isLt n

/-- The moved rows of the tap sum likewise. -/
theorem sum_cut_fill (t : Fin cfg0.N) (d d' : S1x25x128x508.Idx → Elt F .f32)
    (g : (win0_0.xblock (grid0.coords t)).Idx → Elt F .f32) :
    win0_3.cut (grid0.coords t) (sumOut (win0_0.fill (grid0.coords t) d g))
      = win0_3.cut (grid0.coords t) (sumOut (win0_0.fill (grid0.coords t) d' g)) := by
  funext y
  show sumOut _ (win0_3.xinj (grid0.coords t) y) = sumOut _ (win0_3.xinj (grid0.coords t) y)
  have e0 : win0_3.xinj (grid0.coords t) y 0 = (0 : Fin 1) := Fin.ext (by
    have : (win0_3.xinj (grid0.coords t) y 0).val < 1 := (win0_3.xinj (grid0.coords t) y 0).isLt
    show (win0_3.xinj (grid0.coords t) y 0).val = 0; omega)
  have e1 : win0_3.xinj (grid0.coords t) y 1 = (0 : Fin 1) := Fin.ext (by
    have : (win0_3.xinj (grid0.coords t) y 1).val < 1 := (win0_3.xinj (grid0.coords t) y 1).isLt
    show (win0_3.xinj (grid0.coords t) y 1).val = 0; omega)
  have e := eq_ix4 (win0_3.xinj (grid0.coords t) y)
  rw [e0, e1] at e
  rw [e, sumOut_eq, sumOut_eq]
  exact sumVal_congr _ _ _ _ fun n => fill_row t d d' g _ _ (by
    have h := (y 2).isLt
    obtain ⟨-, -, -, -, h3⟩ := moved_sizes t
    show (y 2).val < win0_2.xsize (grid0.coords t) 2
    rw [← h3]; exact h) n

variable (m : (ℓ : Loc nD τ sig) → Buf (Elt F) ℓ) (ρ : Dev nD → PrngReg)

/-! ## The proof data -/

/-- The weight block of point `t` with the rows the fetch does not reach filled by zero. -/
def wblk (c : Dev nD) (t : Fin cfg0.N) : Vec F S1x25x128x508 .f32 :=
  win0_0.fill (grid0.coords t) (fun _ => Scalar.ofBits .f32 0#32) (iblk m c 0 t)

/-- The arrays as the region finds them; after the body at point `t` the weight buffer at its filled block, the image
    buffer at its block, the two output buffers at the body's sums of those; nothing carried between points. -/
def dats (_ : Fin 1) (c : Dev nD) : Dat τ (Elt F) Unit ℕ (UR sig nD τ) ℕ cfg0 c where
  A w := V m c (Pipeline.arrRef spec0 w)
  after w t := match w with
    | ⟨0, _⟩ => wblk m c t
    | ⟨1, _⟩ => iblk m c 1 t
    | ⟨2, _⟩ => accOut (grid0.coords t) (wblk m c t) (iblk m c 1 t)
    | ⟨3, _⟩ => sumOut (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = wblk m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = accOut (grid0.coords t) (wblk m c t) (iblk m c 1 t) := by dsimp only [dats]
theorem after_3 (c : Dev nD) (t : Fin cfg0.N) : (dats m 0 c).after 3 t = sumOut (wblk m c t) := by dsimp only [dats]

/-- The weight buffer as the body finds it: just fetched, the block on the rows the fetch reaches. -/
theorem before_0 (c : Dev nD) (t : Fin cfg0.N) (d) :
    (dats m 0 c).before 0 t d = win0_0.fill (grid0.coords t) d (iblk m c 0 t) := by
  unfold Dat.before; rw [if_pos (fetch0_0 t)]; rfl
/-- The image buffer holds its block at every point, fetched there or not. -/
theorem before_1 (c : Dev nD) (t : Fin cfg0.N) (d) : (dats m 0 c).before 1 t d = iblk m c 1 t :=
  before0_1_of m (dats m 0 c) (A_eq m c 1) (after_1 m c) t d

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  iapply (sound_kernel c Set.univ (grid0.coords t) _ _ _ _ _ _ _ _ (win0_0.fill (grid0.coords t) d0 (iblk m c 0 t)) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  have hx : win0_0.cut (grid0.coords t) (wblk m c t) = iblk m c 0 t := win0_0.cut_fill _ _ _
  isplitl [H0]
  · iexists d0
    rw [after_0]
    change _ ⊢ owns (c : Thread nD τ) (st0_0 t) fullShare (win0_0.fill (grid0.coords t) d0 (win0_0.cut (grid0.coords t) (wblk m c t)))
    rw [hx]; try iexact H0
  isplitl [H1]
  · rw [after_1]; iexact H1
  isplitl [H2]
  · iexists accOut (grid0.coords t) (win0_0.fill (grid0.coords t) d0 (iblk m c 0 t)) (iblk m c 1 t)
    rw [after_2]
    change _ ⊢ owns (c : Thread nD τ) (st0_2 t) fullShare (win0_2.fill (grid0.coords t) (accOut (grid0.coords t) (win0_0.fill (grid0.coords t) d0 (iblk m c 0 t)) (iblk m c 1 t))
      (win0_2.cut (grid0.coords t) (accOut (grid0.coords t) (wblk m c t) (iblk m c 1 t))))
    unfold wblk
    rw [win0_2.fill_congr_cut (grid0.coords t) (acc_cut_fill t d0 _ (iblk m c 0 t) (iblk m c 1 t))]; try iexact H2
  · iexists sumOut (win0_0.fill (grid0.coords t) d0 (iblk m c 0 t))
    rw [after_3]
    change _ ⊢ owns (c : Thread nD τ) (st0_3 t) fullShare (win0_3.fill (grid0.coords t) (sumOut (win0_0.fill (grid0.coords t) d0 (iblk m c 0 t)))
      (win0_3.cut (grid0.coords t) (sumOut (wblk m c t))))
    unfold wblk
    rw [win0_3.fill_congr_cut (grid0.coords t) (sum_cut_fill t d0 _ (iblk m c 0 t))]; try iexact H3

/-! ## The run and the frame -/

set_option backward.isDefEq.respectTransparency.types false in
/-- Every weakly fair execution of @main terminates, and every final state has every array of the pipeline at what
    the write-backs of the proof data leave and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibReorder.lean ====
/-
  Twenty-five terms added up in two orders.

  A 5 × 5 family of terms of a commutative additive monoid summed column by column from zero equals the
  same family summed row by row from zero; and 25 terms taken in the order 0, 5, 10, 15, 20, 1, 6, … and
  added to zero one after the other equal zero plus their sum over `Fin 25`. Only commutativity and
  associativity of addition are used, so the statements hold on the extended reals.
-/
import Mathlib.Algebra.BigOperators.Fin
import Mathlib.Tactic.Abel

namespace Cert.Reorder

open scoped BigOperators

variable {M : Type*} [AddCommMonoid M]

/-- The 5 × 5 family added to zero column by column: the second index outermost. -/
def colMajor (g : Fin 5 → Fin 5 → M) : M :=
  0 + g 0 0 + g 1 0 + g 2 0 + g 3 0 + g 4 0 + g 0 1 + g 1 1 + g 2 1 + g 3 1 + g 4 1 + g 0 2 + g 1 2 + g 2 2 + g 3 2 + g 4 2 + g 0 3 + g 1 3 + g 2 3 + g 3 3 + g 4 3 + g 0 4 + g 1 4 + g 2 4 + g 3 4 + g 4 4

/-- The same family added to zero row by row: the first index outermost. -/
def rowMajor (g : Fin 5 → Fin 5 → M) : M :=
  0 + g 0 0 + g 0 1 + g 0 2 + g 0 3 + g 0 4 + g 1 0 + g 1 1 + g 1 2 + g 1 3 + g 1 4 + g 2 0 + g 2 1 + g 2 2 + g 2 3 + g 2 4 + g 3 0 + g 3 1 + g 3 2 + g 3 3 + g 3 4 + g 4 0 + g 4 1 + g 4 2 + g 4 3 + g 4 4

theorem colMajor_eq_rowMajor (g : Fin 5 → Fin 5 → M) : colMajor g = rowMajor g := by
  unfold colMajor rowMajor
  ac_rfl

/-- Twenty-five terms added to zero in the order 0, 5, 10, 15, 20, 1, 6, …: entry 5·a + b at place 5·b + a. -/
def strided (f : Fin 25 → M) : M :=
  0 + f 0 + f 5 + f 10 + f 15 + f 20 + f 1 + f 6 + f 11 + f 16 + f 21 + f 2 + f 7 + f 12 + f 17 + f 22 + f 3 + f 8 + f 13 + f 18 + f 23 + f 4 + f 9 + f 14 + f 19 + f 24

/-- A sum over `Fin 25`, written out. -/
theorem sum25 (f : Fin 25 → M) : ∑ k, f k = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 := by
  simp only [Fin.sum_univ_castSucc, Fin.sum_univ_zero]
  rfl

theorem strided_eq_sum (f : Fin 25 → M) : strided f = 0 + ∑ k, f k := by
  rw [sum25 f]
  unfold strided
  ac_rfl

end Cert.Reorder
-- ==== Proof.Spec.lean ====
/-
  The per-pixel 5 × 5 filter and its tap sums, entry by entry, on the extended reals.

  For weights w[b, n, R, j] (25 planes of 508 × 508 per image) and an image P[b, c, ·, ·] of at least 512 rows
  and 512 lanes, the filtered image at (b, c, R, j) is the sum over the 25 taps (di, dj) of
  w[b, 5·di + dj, R, j] · P[b, c, R + di, j + dj], and the tap sum at (b, R, j) is the sum of the 25 weights.
  Both are stated as 25 terms added to zero one after the other, in the two orders a program may take them;
  the orders agree because addition of extended reals is commutative and associative.
-/
import proofs.«111710_j29137058136307_2_alg».proof.Proof.LibReorder
import Idealize.ShloMosaic.Lib.ValueIdx

noncomputable section

namespace Cert.Spec

open Cert.Reorder Idealize.ShloMosaic Idealize.ShloMosaic.ValueIdx
open scoped BigOperators

/-- The product of tap (di, dj) at output entry (b, c, R, j). -/
def tapProd {H : Nat} (w : (⟨4, ![8, 25, 508, 508]⟩ : Shape).Idx → EReal) (P : (⟨4, ![8, 3, H, 512]⟩ : Shape).Idx → EReal)
    (hH : 512 ≤ H) (b : Fin 8) (c : Fin 3) (R : Fin 508) (j : Fin 508) (di dj : Fin 5) : EReal :=
  w (ix4 b ⟨5 * di.val + dj.val, by have := di.isLt; have := dj.isLt; omega⟩ R j)
    * P (ix4 b c ⟨R.val + di.val, by have := di.isLt; have := R.isLt; omega⟩ ⟨j.val + dj.val, by have := dj.isLt; have := j.isLt; omega⟩)

/-- Entry (b, c, R, j) of the filtered image, the lane shift dj outermost. -/
def filteredAt {H : Nat} (w : (⟨4, ![8, 25, 508, 508]⟩ : Shape).Idx → EReal) (P : (⟨4, ![8, 3, H, 512]⟩ : Shape).Idx → EReal)
    (hH : 512 ≤ H) (b : Fin 8) (c : Fin 3) (R : Fin 508) (j : Fin 508) : EReal :=
  colMajor (tapProd w P hH b c R j)

/-- The same entry, the row shift di outermost. -/
def filteredRowAt {H : Nat} (w : (⟨4, ![8, 25, 508, 508]⟩ : Shape).Idx → EReal) (P : (⟨4, ![8, 3, H, 512]⟩ : Shape).Idx → EReal)
    (hH : 512 ≤ H) (b : Fin 8) (c : Fin 3) (R : Fin 508) (j : Fin 508) : EReal :=
  rowMajor (tapProd w P hH b c R j)

theorem filteredAt_eq_row {H : Nat} (w : (⟨4, ![8, 25, 508, 508]⟩ : Shape).Idx → EReal) (P : (⟨4, ![8, 3, H, 512]⟩ : Shape).Idx → EReal)
    (hH : 512 ≤ H) (b : Fin 8) (c : Fin 3) (R : Fin 508) (j : Fin 508) :
    filteredAt w P hH b c R j = filteredRowAt w P hH b c R j :=
  colMajor_eq_rowMajor _

/-- The filtered image. -/
def filtered {H : Nat} (w : (⟨4, ![8, 25, 508, 508]⟩ : Shape).Idx → EReal) (P : (⟨4, ![8, 3, H, 512]⟩ : Shape).Idx → EReal)
    (hH : 512 ≤ H) : (⟨4, ![8, 3, 508, 508]⟩ : Shape).Idx → EReal :=
  fun i => filteredAt w P hH (i 0) (i 1) (i 2) (i 3)

/-- Entry (b, R, j) of the tap sums, the planes taken in the order 0, 5, 10, 15, 20, 1, 6, …. -/
def tapSumAt (w : (⟨4, ![8, 25, 508, 508]⟩ : Shape).Idx → EReal) (b : Fin 8) (R : Fin 508) (j : Fin 508) : EReal :=
  strided fun n => w (ix4 b n R j)

theorem tapSumAt_eq_sum (w : (⟨4, ![8, 25, 508, 508]⟩ : Shape).Idx → EReal) (b : Fin 8) (R : Fin 508) (j : Fin 508) :
    tapSumAt w b R j = 0 + ∑ n : Fin 25, w (ix4 b n R j) :=
  strided_eq_sum _

/-- The tap sums, as the [8,1,508,508] array the programs return. -/
def tapSum (w : (⟨4, ![8, 25, 508, 508]⟩ : Shape).Idx → EReal) : (⟨4, ![8, 1, 508, 508]⟩ : Shape).Idx → EReal :=
  fun i => tapSumAt w (i 0) (i 2) (i 3)

/-- The filtered image reads the image only inside its first 512 rows: two images that agree there filter alike. -/
theorem filteredAt_congr {H H' : Nat} (w : (⟨4, ![8, 25, 508, 508]⟩ : Shape).Idx → EReal) (P : (⟨4, ![8, 3, H, 512]⟩ : Shape).Idx → EReal)
    (P' : (⟨4, ![8, 3, H', 512]⟩ : Shape).Idx → EReal) (hH : 512 ≤ H) (hH' : 512 ≤ H')
    (h : ∀ (b : Fin 8) (c : Fin 3) (r : Fin 512) (l : Fin 512),
      P (ix4 b c ⟨r.val, by omega⟩ l) = P' (ix4 b c ⟨r.val, by omega⟩ l))
    (b : Fin 8) (c : Fin 3) (R : Fin 508) (j : Fin 508) :
    filteredAt w P hH b c R j = filteredAt w P' hH' b c R j := by
  have e : tapProd w P hH b c R j = tapProd w P' hH' b c R j := by
    funext di dj
    unfold tapProd
    exact congrArg (_ * ·) (h b c ⟨R.val + di.val, by have := di.isLt; have := R.isLt; omega⟩ ⟨j.val + dj.val, by have := dj.isLt; have := j.isLt; omega⟩)
  unfold filteredAt; rw [e]

end Cert.Spec
-- ==== Proof.ValueIdeal.lean ====
/-
  What the filtering kernel computes, at the extended reals.

  Output entry (b, c, R, j), R < 508, is written by grid point (b, R / 128) from row r = R % 128 of its blocks: it is
  the 25 products  weights[b, 5·di + dj, R, j] · image[b, c, R + di, j + dj]  added to zero, lane shift dj outermost
  (`Spec.filteredAt`). The rows 508 … 511 of the last row-tile, computed from words nothing names, are never written
  back. The tap-sum output entry (b, 0, R, j) is the 25 weights added to zero in the order 0, 5, 10, 15, 20, 1, 6, …
  (`Spec.tapSumAt`).
-/
import proofs.«111710_j29137058136307_2_alg».proof.Proof.FrameIdeal
import proofs.«111710_j29137058136307_2_alg».proof.Proof.Spec
import Idealize.ShloMosaic.Lib.KernelVsHost
import Idealize.ShloMosaic.Lib.StableHlo.Run
import Idealize.ShloMosaic.PureOps.Ideal.Laws

set_option maxRecDepth 16384

noncomputable section

namespace Cert.KernelIdeal.Body

open Cert.KernelIdeal Cert.KernelIdeal.Gen Cert.Reorder Cert.Taps Cert.Spec
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The grid: which image and which rows each point handles -/

theorem grid_facts : ∀ t : Fin cfg0.N,
    (win0_0.index t 0 = (grid0.coords t 0).val ∧ win0_0.index t 1 = 0 ∧ win0_0.index t 2 = (grid0.coords t 1).val ∧ win0_0.index t 3 = 0)
    ∧ (win0_1.index t 0 = (grid0.coords t 0).val ∧ win0_1.index t 1 = 0 ∧ win0_1.index t 2 = 0 ∧ win0_1.index t 3 = 0)
    ∧ (win0_2.index t 0 = (grid0.coords t 0).val ∧ win0_2.index t 1 = 0 ∧ win0_2.index t 2 = (grid0.coords t 1).val ∧ win0_2.index t 3 = 0)
    ∧ (win0_3.index t 0 = (grid0.coords t 0).val ∧ win0_3.index t 1 = 0 ∧ win0_3.index t 2 = (grid0.coords t 1).val ∧ win0_3.index t 3 = 0)
    ∧ (win0_2.xsize (grid0.coords t) 0 = 1 ∧ win0_2.xsize (grid0.coords t) 1 = 3 ∧ win0_2.xsize (grid0.coords t) 3 = 508
        ∧ win0_2.xsize (grid0.coords t) 2 ≤ 128 ∧ 128 * (grid0.coords t 1).val + win0_2.xsize (grid0.coords t) 2 ≤ 508
        ∧ ((grid0.coords t 1).val < 3 → win0_2.xsize (grid0.coords t) 2 = 128)
        ∧ ((grid0.coords t 1).val = 3 → win0_2.xsize (grid0.coords t) 2 = 124))
    ∧ (win0_3.xsize (grid0.coords t) 0 = 1 ∧ win0_3.xsize (grid0.coords t) 1 = 1 ∧ win0_3.xsize (grid0.coords t) 3 = 508
        ∧ win0_3.xsize (grid0.coords t) 2 = win0_2.xsize (grid0.coords t) 2)
    ∧ (grid0.coords t 0).val < 8 ∧ (grid0.coords t 1).val < 4 :=
  (by decide +kernel : ∀ t : Fin grid0.N, _)

/-- Every (image, row-tile) pair is some point's. -/
theorem grid_onto : ∀ (b : Fin 8) (h : Fin 4), ∃ t : Fin cfg0.N, (grid0.coords t 0).val = b.val ∧ (grid0.coords t 1).val = h.val :=
  (by decide +kernel : ∀ (b : Fin 8) (h : Fin 4), ∃ t : Fin grid0.N, (grid0.coords t 0).val = b.val ∧ (grid0.coords t 1).val = h.val)

/-! ## The blocks the body reads, as entries of the arrays -/

/-- An entry of the image block of point `t` is an entry of the padded image of that point's image. -/
theorem img_at (c : Dev nD) (t : Fin cfg0.N) (cc : Fin 3) (rr : Fin 516) (jj : Fin 512) :
    iblk m c 1 t (ix4 0 cc rr jj)
      = V m c main_v0 (ix4 (n0 := 8) (n1 := 3) (n2 := 516) (n3 := 512) ⟨(grid0.coords t 0).val, (grid_facts t).2.2.2.2.2.2.1⟩ cc rr jj) := by
  obtain ⟨-, ⟨e0, e1, e2, e3⟩, -⟩ := grid_facts t
  unfold iblk
  show V m c main_v0 (((cfg0.win 1).blk t).view.emb (ix4 0 cc rr jj)) = _
  refine congrArg (V m c main_v0) (funext fun a => Fin.ext ?_)
  match a with
  | ⟨0, _⟩ => show win0_1.index t 0 * 1 + 1 * 0 = (grid0.coords t 0).val; omega
  | ⟨1, _⟩ => show win0_1.index t 1 * 3 + 1 * cc.val = cc.val; omega
  | ⟨2, _⟩ => show win0_1.index t 2 * 516 + 1 * rr.val = rr.val; omega
  | ⟨3, _⟩ => show win0_1.index t 3 * 512 + 1 * jj.val = jj.val; omega

/-- On a row the point moves, an entry of the filled weight block is an entry of the weights. -/
theorem wt_at (c : Dev nD) (t : Fin cfg0.N) (n : Fin 25) (r : Fin 128) (j : Fin 508)
    (hr : r.val < win0_2.xsize (grid0.coords t) 2) :
    wblk m c t (ix4 0 n r j)
      = m ((c : Thread nD τ).loc main_arg0) (ix4 (n0 := 8) (n1 := 25) (n2 := 508) (n3 := 508) ⟨(grid0.coords t 0).val, (grid_facts t).2.2.2.2.2.2.1⟩ n
          ⟨128 * (grid0.coords t 1).val + r.val, by have := (grid_facts t).2.2.2.2.1.2.2.2.2.1; omega⟩ j) := by
  obtain ⟨⟨e0, e1, e2, e3⟩, -⟩ := grid_facts t
  have hm : win0_0.moved (grid0.coords t) (ix4 0 n r j) = true := (win0_0.moved_iff _ _).mpr fun a => by
    obtain ⟨h0, h1, h3, h2, -⟩ := moved_sizes t
    match a with
    | ⟨0, _⟩ => show 0 < win0_0.xsize (grid0.coords t) 0; rw [h0]; exact Nat.one_pos
    | ⟨1, _⟩ => show n.val < win0_0.xsize (grid0.coords t) 1; rw [h1]; exact n.isLt
    | ⟨2, _⟩ => show r.val < win0_0.xsize (grid0.coords t) 2; rw [h2]; exact hr
    | ⟨3, _⟩ => show j.val < win0_0.xsize (grid0.coords t) 3; rw [h3]; exact j.isLt
  unfold wblk Window.fill
  rw [dif_pos hm]
  unfold iblk
  show V m c main_arg0 (((cfg0.win 0).blk t).view.emb _) = _
  rw [V_main_arg0]
  refine congrArg (m ((c : Thread nD τ).loc main_arg0)) (funext fun a => Fin.ext ?_)
  match a with
  | ⟨0, _⟩ => show win0_0.index t 0 * 1 + 1 * 0 = (grid0.coords t 0).val; omega
  | ⟨1, _⟩ => show win0_0.index t 1 * 25 + 1 * n.val = n.val; omega
  | ⟨2, _⟩ => show win0_0.index t 2 * 128 + 1 * r.val = 128 * (grid0.coords t 1).val + r.val; omega
  | ⟨3, _⟩ => show win0_0.index t 3 * 508 + 1 * j.val = j.val; omega

theorem zero_bits : (FloatOps.ofBits .f32 0#32 : Ideal .f32) = (0 : EReal) := Ideal.ofBits_zero_f32

/-! ## What each point writes back -/

/-- Point `t` writes back its rows of the filtered image of the weights and the padded image. -/
theorem acc_flushed (c : Dev nD) (t : Fin cfg0.N) :
    (dats m 0 c).flushed 2 t = ((cfg0.win 2).blk t).view.read (Elt Ideal)
      (filtered (m ((c : Thread nD τ).loc main_arg0)) (V m c main_v0) (by decide)) := by
  obtain ⟨-, -, ⟨e0, e1, e2, e3⟩, -, ⟨x0, x1, x3, x2le, x2sum, -, -⟩, -, hB, hH⟩ := grid_facts t
  show (cfg0.win 2).cut (grid0.coords t) ((dats m 0 c).after 2 t) = _
  rw [after_2]
  funext y
  have hy0 : (y 0).val < win0_2.xsize (grid0.coords t) 0 := (y 0).isLt
  have hy1 : (y 1).val < win0_2.xsize (grid0.coords t) 1 := (y 1).isLt
  have hy2 : (y 2).val < win0_2.xsize (grid0.coords t) 2 := (y 2).isLt
  have hy3 : (y 3).val < win0_2.xsize (grid0.coords t) 3 := (y 3).isLt
  rw [x0] at hy0; rw [x1] at hy1; rw [x3] at hy3
  obtain ⟨cc, hcc⟩ : ∃ cc : Fin 3, cc.val = (y 1).val := ⟨⟨(y 1).val, hy1⟩, rfl⟩
  obtain ⟨rr, hrr⟩ : ∃ rr : Fin 128, rr.val = (y 2).val := ⟨⟨(y 2).val, Nat.lt_of_lt_of_le hy2 x2le⟩, rfl⟩
  obtain ⟨jj, hjj⟩ : ∃ jj : Fin 508, jj.val = (y 3).val := ⟨⟨(y 3).val, hy3⟩, rfl⟩
  have hx : win0_2.xinj (grid0.coords t) y = ix4 0 cc rr jj := funext fun a => Fin.ext (by
    match a with
    | ⟨0, _⟩ => show (y 0).val = 0; omega
    | ⟨1, _⟩ => show (y 1).val = cc.val; omega
    | ⟨2, _⟩ => show (y 2).val = rr.val; omega
    | ⟨3, _⟩ => show (y 3).val = jj.val; omega)
  have hemb : ((cfg0.win 2).blk t).view.emb y
      = ix4 (n0 := 8) (n1 := 3) (n2 := 508) (n3 := 508) ⟨(grid0.coords t 0).val, hB⟩ cc ⟨128 * (grid0.coords t 1).val + rr.val, by omega⟩ jj :=
    funext fun a => Fin.ext (by
      match a with
      | ⟨0, _⟩ => show win0_2.index t 0 * 1 + 1 * (y 0).val = (grid0.coords t 0).val; omega
      | ⟨1, _⟩ => show win0_2.index t 1 * 3 + 1 * (y 1).val = cc.val; omega
      | ⟨2, _⟩ => show win0_2.index t 2 * 128 + 1 * (y 2).val = 128 * (grid0.coords t 1).val + rr.val; omega
      | ⟨3, _⟩ => show win0_2.index t 3 * 508 + 1 * (y 3).val = jj.val; omega)
  have hr : rr.val < win0_2.xsize (grid0.coords t) 2 := by rw [hrr]; exact hy2
  show accOut (F := Ideal) _ _ _ (win0_2.xinj (grid0.coords t) y) = filtered _ _ _ (((cfg0.win 2).blk t).view.emb y)
  rw [hx, hemb, accOut_eq]
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx]
  simp only [fun n => wt_at m c t n rr jj hr, img_at m c t, zero_bits]
  rfl

/-- Point `t` writes back its rows of the tap sums of the weights. -/
theorem sum_flushed (c : Dev nD) (t : Fin cfg0.N) :
    (dats m 0 c).flushed 3 t = ((cfg0.win 3).blk t).view.read (Elt Ideal) (tapSum (m ((c : Thread nD τ).loc main_arg0))) := by
  obtain ⟨-, -, -, ⟨e0, e1, e2, e3⟩, ⟨-, -, -, x2le, x2sum, -, -⟩, ⟨x0, x1, x3, x2⟩, hB, hH⟩ := grid_facts t
  show (cfg0.win 3).cut (grid0.coords t) ((dats m 0 c).after 3 t) = _
  rw [after_3]
  funext y
  have hy0 : (y 0).val < win0_3.xsize (grid0.coords t) 0 := (y 0).isLt
  have hy1 : (y 1).val < win0_3.xsize (grid0.coords t) 1 := (y 1).isLt
  have hy2 : (y 2).val < win0_3.xsize (grid0.coords t) 2 := (y 2).isLt
  have hy3 : (y 3).val < win0_3.xsize (grid0.coords t) 3 := (y 3).isLt
  rw [x0] at hy0; rw [x1] at hy1; rw [x3] at hy3; rw [x2] at hy2
  obtain ⟨rr, hrr⟩ : ∃ rr : Fin 128, rr.val = (y 2).val := ⟨⟨(y 2).val, Nat.lt_of_lt_of_le hy2 x2le⟩, rfl⟩
  obtain ⟨jj, hjj⟩ : ∃ jj : Fin 508, jj.val = (y 3).val := ⟨⟨(y 3).val, hy3⟩, rfl⟩
  have hx : win0_3.xinj (grid0.coords t) y = ix4 0 0 rr jj := funext fun a => Fin.ext (by
    match a with
    | ⟨0, _⟩ => show (y 0).val = 0; omega
    | ⟨1, _⟩ => show (y 1).val = 0; omega
    | ⟨2, _⟩ => show (y 2).val = rr.val; omega
    | ⟨3, _⟩ => show (y 3).val = jj.val; omega)
  have hemb : ((cfg0.win 3).blk t).view.emb y
      = ix4 (n0 := 8) (n1 := 1) (n2 := 508) (n3 := 508) ⟨(grid0.coords t 0).val, hB⟩ 0 ⟨128 * (grid0.coords t 1).val + rr.val, by omega⟩ jj :=
    funext fun a => Fin.ext (by
      match a with
      | ⟨0, _⟩ => show win0_3.index t 0 * 1 + 1 * (y 0).val = (grid0.coords t 0).val; omega
      | ⟨1, _⟩ => show win0_3.index t 1 * 1 + 1 * (y 1).val = 0; omega
      | ⟨2, _⟩ => show win0_3.index t 2 * 128 + 1 * (y 2).val = 128 * (grid0.coords t 1).val + rr.val; omega
      | ⟨3, _⟩ => show win0_3.index t 3 * 508 + 1 * (y 3).val = jj.val; omega)
  have hr : rr.val < win0_2.xsize (grid0.coords t) 2 := by rw [hrr]; exact hy2
  show sumOut (F := Ideal) _ (win0_3.xinj (grid0.coords t) y) = tapSum _ (((cfg0.win 3).blk t).view.emb y)
  rw [hx, hemb, sumOut_eq]
  simp only [accVal, sumVal, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, mulf, addf, broadcast, plane_apply, spread_apply, spread1_apply, relay3_apply, band_apply,
    lanes_apply 0 (by omega), lanes_apply 1 (by omega), lanes_apply 2 (by omega), lanes_apply 3 (by omega), lanes_apply 4 (by omega),
    rows_apply 0 (by omega), rows_apply 1 (by omega), rows_apply 2 (by omega), rows_apply 3 (by omega), rows_apply 4 (by omega),
    relayAcc_apply, relaySum_apply, View.ld, tap_idx, band_idx]
  simp only [fun n => wt_at m c t n rr jj hr, zero_bits]
  rfl

/-! ## The output arrays after the run -/

/-- Every entry of the filtered image is in the block of the point of its image and row-tile. -/
theorem acc_cover (i : S8x3x508x508.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 508 := (i 2).isLt
  have h3 : (i 3).val < 508 := (i 3).isLt
  obtain ⟨t, hb, hh⟩ := grid_onto ⟨(i 0).val, h0⟩ ⟨(i 2).val / 128, by omega⟩
  obtain ⟨-, -, ⟨e0, e1, e2, e3⟩, -, ⟨x0, x1, x3, x2le, x2sum, xa, xb⟩, -, hB, hH⟩ := grid_facts t
  have hb' : (grid0.coords t 0).val = (i 0).val := hb
  have hh' : (grid0.coords t 1).val = (i 2).val / 128 := hh
  refine ⟨t, flush0_2 t, ?_⟩
  show i ∈ ((View.whole main_v1_0).slice (win0_2.rect t)).set
  rw [View.set_slice_whole, Rect.mem_set_unit]
  intro a
  match a with
  | ⟨0, _⟩ => show win0_2.index t 0 * 1 ≤ (i 0).val ∧ (i 0).val < win0_2.index t 0 * 1 + win0_2.xsize (grid0.coords t) 0; omega
  | ⟨1, _⟩ => show win0_2.index t 1 * 3 ≤ (i 1).val ∧ (i 1).val < win0_2.index t 1 * 3 + win0_2.xsize (grid0.coords t) 1; omega
  | ⟨2, _⟩ =>
    show win0_2.index t 2 * 128 ≤ (i 2).val ∧ (i 2).val < win0_2.index t 2 * 128 + win0_2.xsize (grid0.coords t) 2
    rcases Nat.lt_or_ge (grid0.coords t 1).val 3 with h | h
    · have := xa h; omega
    · have := xb (by omega); omega
  | ⟨3, _⟩ => show win0_2.index t 3 * 508 ≤ (i 3).val ∧ (i 3).val < win0_2.index t 3 * 508 + win0_2.xsize (grid0.coords t) 3; omega

theorem sum_cover (i : S8x1x508x508.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 508 := (i 2).isLt
  have h3 : (i 3).val < 508 := (i 3).isLt
  obtain ⟨t, hb, hh⟩ := grid_onto ⟨(i 0).val, h0⟩ ⟨(i 2).val / 128, by omega⟩
  obtain ⟨-, -, -, ⟨e0, e1, e2, e3⟩, ⟨-, -, -, x2le, x2sum, xa, xb⟩, ⟨x0, x1, x3, x2⟩, hB, hH⟩ := grid_facts t
  have hb' : (grid0.coords t 0).val = (i 0).val := hb
  have hh' : (grid0.coords t 1).val = (i 2).val / 128 := hh
  refine ⟨t, flush0_3 t, ?_⟩
  show i ∈ ((View.whole main_v1_1).slice (win0_3.rect t)).set
  rw [View.set_slice_whole, Rect.mem_set_unit]
  intro a
  match a with
  | ⟨0, _⟩ => show win0_3.index t 0 * 1 ≤ (i 0).val ∧ (i 0).val < win0_3.index t 0 * 1 + win0_3.xsize (grid0.coords t) 0; omega
  | ⟨1, _⟩ => show win0_3.index t 1 * 1 ≤ (i 1).val ∧ (i 1).val < win0_3.index t 1 * 1 + win0_3.xsize (grid0.coords t) 1; omega
  | ⟨2, _⟩ =>
    show win0_3.index t 2 * 128 ≤ (i 2).val ∧ (i 2).val < win0_3.index t 2 * 128 + win0_3.xsize (grid0.coords t) 2
    rw [x2]
    rcases Nat.lt_or_ge (grid0.coords t 1).val 3 with h | h
    · have := xa h; omega
    · have := xb (by omega); omega
  | ⟨3, _⟩ => show win0_3.index t 3 * 508 ≤ (i 3).val ∧ (i 3).val < win0_3.index t 3 * 508 + win0_3.xsize (grid0.coords t) 3; omega

/-- The image as the region finds it: the argument with four rows of the converted integer zero below it. -/
theorem padded_eq (c : Dev nD) :
    (V m c main_v0 : S8x3x516x512.Idx → EReal)
      = pad S8x3x516x512 ![0, 0, 0, 0] ![0, 0, 4, 0] ![0, 0, 0, 0] (m ((c : Thread nD τ).loc main_arg1))
          (sitofp (F := Ideal) .f32 (constantI S_ 32 0#32)) pads_S8x3x512x512_S8x3x516x512_000_000_040_000 h_S_ := by
  dsimp only [Gen.V]
  simp only [hostOps0, hostOps0_1, List.flatten_cons, List.flatten_nil, List.append_nil, List.cons_append, List.nil_append]
  after_results
  rfl

/-- Inside its first 512 rows the padded image is the image. -/
theorem pad_at (c : Dev nD) (b : Fin 8) (c' : Fin 3) (r : Fin 512) (l : Fin 512) :
    V m c main_v0 (ix4 (n0 := 8) (n1 := 3) (n2 := 516) (n3 := 512) b c' ⟨r.val, by omega⟩ l)
      = m ((c : Thread nD τ).loc main_arg1) (ix4 (n0 := 8) (n1 := 3) (n2 := 512) (n3 := 512) b c' r l) := by
  rw [padded_eq]
  exact pad_apply_of_inside _ _ _ _ _ _ _ _ _ fun a => by
    match a with
    | ⟨0, _⟩ => show b.val = 0 + b.val * (0 + 1); omega
    | ⟨1, _⟩ => show c'.val = 0 + c'.val * (0 + 1); omega
    | ⟨2, _⟩ => show r.val = 0 + r.val * (0 + 1); omega
    | ⟨3, _⟩ => show l.val = 0 + l.val * (0 + 1); omega

/-- The first result after the run: the filtered image of the two arguments. -/
theorem acc_final (c : Dev nD) :
    (dats m 0 c).arrAt 2 cfg0.N
      = filtered (m ((c : Thread nD τ).loc main_arg0)) (m ((c : Thread nD τ).loc main_arg1)) (Nat.le_refl _) :=
  ((dats m 0 c).arrAt_eq_of_cover 2 _ (fun t _ => acc_flushed m c t) acc_cover).trans
    (funext fun i => filteredAt_congr _ _ _ _ _ (pad_at m c) _ _ _ _)

/-- The second result after the run: the tap sums of the first argument. -/
theorem sum_final (c : Dev nD) :
    (dats m 0 c).arrAt 3 cfg0.N = tapSum (m ((c : Thread nD τ).loc main_arg0)) :=
  (dats m 0 c).arrAt_eq_of_cover 3 _ (fun t _ => sum_flushed m c t) sum_cover

/-- The run of the idealized kernel, read: both results named, both arguments unchanged. -/
theorem run : θ_run defs (onTc (τ := τ) (main (F := Ideal))) ⟨m, fun _ => 0, ρ⟩ fun r => ∀ c : Dev nD,
      r.2.mem ((c : Thread nD τ).loc main_v1_0)
        = filtered (m ((c : Thread nD τ).loc main_arg0)) (m ((c : Thread nD τ).loc main_arg1)) (Nat.le_refl _)
      ∧ r.2.mem ((c : Thread nD τ).loc main_v1_1) = tapSum (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (acc_final m c), ((h c).1 3).trans (sum_final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Body

end
-- ==== Proof.RefRun.lean ====
/-
  The reference's run, read tap by tap.

  The reference is a straight line of 180 array operations: a zero array, then for each of the 25 taps (di, dj) seven
  operations — plane 5·di + dj of the weights sliced, re-laid and spread over the channels, the image shifted by
  (di, dj), their product, and the product added to the running sum — and last the sum of the weights over the plane
  axis. Run from any memory it terminates with every buffer at the fold of the operations' results; this file reads
  that fold at the two results: the running sum after the 25th tap (`acc25`) and the tap sums, the arguments unchanged.
-/
import proofs.«111710_j29137058136307_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, in groups: the zero array, one group per tap, the tap sums -/

abbrev zeroOps : List (HloOp τ sig (Elt F)) :=
  [ nullary main_cst (constant S_ .f32 0x00000000#32),
    unary main_cst main_v0 (broadcastInDim S8x3x508x508 ![] bcast_S_S8x3x508x508 : (⟨S_, .f32⟩ : BufTy).Contents (Elt F) → (⟨S8x3x508x508, .f32⟩ : BufTy).Contents (Elt F)) ]

abbrev tap0 : List (HloOp τ sig (Elt F)) :=
  [ unary main_arg0 main_v1 ((extractStridedSlice S8x1x508x508 ![0, 0, 0, 0] · slices_S8x25x508x508_S8x1x508x508_0_0_0_0) : (⟨S8x25x508x508, .f32⟩ : BufTy).Contents (Elt F) → (⟨S8x1x508x508, .f32⟩ : BufTy).Contents (Elt F)),
    reshape main_v1 main_v2 rfl shapeCasts_S8x1x508x508_S8x508x508,
    unary main_v2 main_v3 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v4 ((extractStridedSlice S8x3x508x508 ![0, 0, 0, 0] · slices_S8x3x512x512_S8x3x508x508_0_0_0_0) : (⟨S8x3x512x512, .f32⟩ : BufTy).Contents (Elt F) → (⟨S8x3x508x508, .f32⟩ : BufTy).Contents (Elt F)),
    unary main_v3 main_v5 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v5 main_v4 main_v6 (mulf : (⟨S8x3x508x508, .f32⟩ : BufTy).Contents (Elt F) → (⟨S8x3x508x508, .f32⟩ : BufTy).Contents (Elt F) → (⟨S8x3x508x508, .f32⟩ : BufTy).Contents (Elt F)),
    binary main_v0 main_v6 main_v7 (addf : (⟨S8x3x508x508, .f32⟩ : BufTy).Contents (Elt F) → (⟨S8x3x508x508, .f32⟩ : BufTy).Contents (Elt F) → (⟨S8x3x508x508, .f32⟩ : BufTy).Contents (Elt F)) ]

abbrev tap1 : List (HloOp τ sig (Elt F)) :=
  [ unary main_arg0 main_v8 ((extractStridedSlice S8x1x508x508 ![0, 1, 0, 0] · slices_S8x25x508x508_S8x1x508x508_0_1_0_0) : (⟨S8x25x508x508, .f32⟩ : BufTy).Contents (Elt F) → (⟨S8x1x508x508, .f32⟩ : BufTy).Contents (Elt F)),
    reshape main_v8 main_v9 rfl shapeCasts_S8x1x508x508_S8x508x508,
    unary main_v9 main_v10 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v11 ((extractStridedSlice S8x3x508x508 ![0, 0, 0, 1] · slices_S8x3x512x512_S8x3x508x508_0_0_0_1) : (⟨S8x3x512x512, .f32⟩ : BufTy).Contents (Elt F) → (⟨S8x3x508x508, .f32⟩ : BufTy).Contents (Elt F)),
    unary main_v10 main_v12 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v12 main_v11 main_v13 (mulf : (⟨S8x3x508x508, .f32⟩ : BufTy).Contents (Elt F) → (⟨S8x3x508x508, .f32⟩ : BufTy).Contents (Elt F) → (⟨S8x3x508x508, .f32⟩ : BufTy).Contents (Elt F)),
    binary main_v7 main_v13 main_v14 (addf : (⟨S8x3x508x508, .f32⟩ : BufTy).Contents (Elt F) → (⟨S8x3x508x508, .f32⟩ : BufTy).Contents (Elt F) → (⟨S8x3x508x508, .f32⟩ : BufTy).Contents (Elt F)) ]

abbrev tap2 : List (HloOp τ sig (Elt F)) :=
  [ unary main_arg0 main_v15 ((extractStridedSlice S8x1x508x508 ![0, 2, 0, 0] · slices_S8x25x508x508_S8x1x508x508_0_2_0_0) : (⟨S8x25x508x508, .f32⟩ : BufTy).Contents (Elt F) → (⟨S8x1x508x508, .f32⟩ : BufTy).Contents (Elt F)),
    reshape main_v15 main_v16 rfl shapeCasts_S8x1x508x508_S8x508x508,
    unary main_v16 main_v17 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v18 ((extractStridedSlice S8x3x508x508 ![0, 0, 0, 2] · slices_S8x3x512x512_S8x3x508x508_0_0_0_2) : (⟨S8x3x512x512, .f32⟩ : BufTy).Contents (Elt F) → (⟨S8x3x508x508, .f32⟩ : BufTy).Contents (Elt F)),
    unary main_v17 main_v19 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v19 main_v18 main_v20 (mulf : (⟨S8x3x508x508, .f32⟩ : BufTy).Contents (Elt F) → (⟨S8x3x508x508, .f32⟩ : BufTy).Contents (Elt F) → (⟨S8x3x508x508, .f32⟩ : BufTy).Contents (Elt F)),
    binary main_v14 main_v20 main_v21 (addf : (⟨S8x3x508x508, .f32⟩ : BufTy).Contents (Elt F) → (⟨S8x3x508x508, .f32⟩ : BufTy).Contents (Elt F) → (⟨S8x3x508x508, .f32⟩ : BufTy).Contents (Elt F)) ]

abbrev tap3 : List (HloOp τ sig (Elt F)) :=
  [ unary main_arg0 main_v22 ((extractStridedSlice S8x1x508x508 ![0, 3, 0, 0] · slices_S8x25x508x508_S8x1x508x508_0_3_0_0) : (⟨S8x25x508x508, .f32⟩ : BufTy).Contents (Elt F) → (⟨S8x1x508x508, .f32⟩ : BufTy).Contents (Elt F)),
    reshape main_v22 main_v23 rfl shapeCasts_S8x1x508x508_S8x508x508,
    unary main_v23 main_v24 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v25 ((extractStridedSlice S8x3x508x508 ![0, 0, 0, 3] · slices_S8x3x512x512_S8x3x508x508_0_0_0_3) : (⟨S8x3x512x512, .f32⟩ : BufTy).Contents (Elt F) → (⟨S8x3x508x508, .f32⟩ : BufTy).Contents (Elt F)),
    unary main_v24 main_v26 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v26 main_v25 main_v27 (mulf : (⟨S8x3x508x508, .f32⟩ : BufTy).Contents (Elt F) → (⟨S8x3x508x508, .f32⟩ : BufTy).Contents (Elt F) → (⟨S8x3x508x508, .f32⟩ : BufTy).Contents (Elt F)),
    binary main_v21 main_v27 main_v28 (addf : (⟨S8x3x508x508, .f32⟩ : BufTy).Contents (Elt F) → (⟨S8x3x508x508, .f32⟩ : BufTy).Contents (Elt F) → (⟨S8x3x508x508, .f32⟩ : BufTy).Contents (Elt F)) ]

abbrev tap4 : List (HloOp τ sig (Elt F)) :=
  [ unary main_arg0 main_v29 ((extractStridedSlice S8x1x508x508 ![0, 4, 0, 0] · slices_S8x25x508x508_S8x1x508x508_0_4_0_0) : (⟨S8x25x508x508, .f32⟩ : BufTy).Contents (Elt F) → (⟨S8x1x508x508, .f32⟩ : BufTy).Contents (Elt F)),
    reshape main_v29 main_v30 rfl shapeCasts_S8x1x508x508_S8x508x508,
    unary main_v30 main_v31 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v32 ((extractStridedSlice S8x3x508x508 ![0, 0, 0, 4] · slices_S8x3x512x512_S8x3x508x508_0_0_0_4) : (⟨S8x3x512x512, .f32⟩ : BufTy).Contents (Elt F) → (⟨S8x3x508x508, .f32⟩ : BufTy).Contents (Elt F)),
    unary main_v31 main_v33 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v33 main_v32 main_v34 (mulf : (⟨S8x3x508x508, .f32⟩ : BufTy).Contents (Elt F) → (⟨S8x3x508x508, .f32⟩ : BufTy).Contents (Elt F) → (⟨S8x3x508x508, .f32⟩ : BufTy).Contents (Elt F)),
    binary main_v28 main_v34 main_v35 (addf : (⟨S8x3x508x508, .f32⟩ : BufTy).Contents (Elt F) → (⟨S8x3x508x508, .f32⟩ : BufTy).Contents (Elt F) → (⟨S8x3x508x508, .f32⟩ : BufTy).Contents (Elt F)) ]

abbrev tap5 : List (HloOp τ sig (Elt F)) :=
  [ unary main_arg0 main_v36 ((extractStridedSlice S8x1x508x508 ![0, 5, 0, 0] · slices_S8x25x508x508_S8x1x508x508_0_5_0_0) : (⟨S8x25x508x508, .f32⟩ : BufTy).Contents (Elt F) → (⟨S8x1x508x508, .f32⟩ : BufTy).Contents (Elt F)),
    reshape main_v36 main_v37 rfl shapeCasts_S8x1x508x508_S8x508x508,
    unary main_v37 main_v38 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v39 ((extractStridedSlice S8x3x508x508 ![0, 0, 1, 0] · slices_S8x3x512x512_S8x3x508x508_0_0_1_0) : (⟨S8x3x512x512, .f32⟩ : BufTy).Contents (Elt F) → (⟨S8x3x508x508, .f32⟩ : BufTy).Contents (Elt F)),
    unary main_v38 main_v40 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v40 main_v39 main_v41 (mulf : (⟨S8x3x508x508, .f32⟩ : BufTy).Contents (Elt F) → (⟨S8x3x508x508, .f32⟩ : BufTy).Contents (Elt F) → (⟨S8x3x508x508, .f32⟩ : BufTy).Contents (Elt F)),
    binary main_v35 main_v41 main_v42 (addf : (⟨S8x3x508x508, .f32⟩ : BufTy).Contents (Elt F) → (⟨S8x3x508x508, .f32⟩ : BufTy).Contents (Elt F) → (⟨S8x3x508x508, .f32⟩ : BufTy).Contents (Elt F)) ]

abbrev tap6 : List (HloOp τ sig (Elt F)) :=
  [ unary main_arg0 main_v43 ((extractStridedSlice S8x1x508x508 ![0, 6, 0, 0] · slices_S8x25x508x508_S8x1x508x508_0_6_0_0) : (⟨S8x25x508x508, .f32⟩ : BufTy).Contents (Elt F) → (⟨S8x1x508x508, .f32⟩ : BufTy).Contents (Elt F)),
    reshape main_v43 main_v44 rfl shapeCasts_S8x1x508x508_S8x508x508,
    unary main_v44 main_v45 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v46 ((extractStridedSlice S8x3x508x508 ![0, 0, 1, 1] · slices_S8x3x512x512_S8x3x508x508_0_0_1_1) : (⟨S8x3x512x512, .f32⟩ : BufTy).Contents (Elt F) → (⟨S8x3x508x508, .f32⟩ : BufTy).Contents (Elt F)),
    unary main_v45 main_v47 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v47 main_v46 main_v48 (mulf : (⟨S8x3x508x508, .f32⟩ : BufTy).Contents (Elt F) → (⟨S8x3x508x508, .f32⟩ : BufTy).Contents (Elt F) → (⟨S8x3x508x508, .f32⟩ : BufTy).Contents (Elt F)),
    binary main_v42 main_v48 main_v49 (addf : (⟨S8x3x508x508, .f32⟩ : BufTy).Contents (Elt F) → (⟨S8x3x508x508, .f32⟩ : BufTy).Contents (Elt F) → (⟨S8x3x508x508, .f32⟩ : BufTy).Contents (Elt F)) ]

abbrev tap7 : List (HloOp τ sig (Elt F)) :=
  [ unary main_arg0 main_v50 ((extractStridedSlice S8x1x508x508 ![0, 7, 0, 0] · slices_S8x25x508x508_S8x1x508x508_0_7_0_0) : (⟨S8x25x508x508, .f32⟩ : BufTy).Contents (Elt F) → (⟨S8x1x508x508, .f32⟩ : BufTy).Contents (Elt F)),
    reshape main_v50 main_v51 rfl shapeCasts_S8x1x508x508_S8x508x508,
    unary main_v51 main_v52 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v53 ((extractStridedSlice S8x3x508x508 ![0, 0, 1, 2] · slices_S8x3x512x512_S8x3x508x508_0_0_1_2) : (⟨S8x3x512x512, .f32⟩ : BufTy).Contents (Elt F) → (⟨S8x3x508x508, .f32⟩ : BufTy).Contents (Elt F)),
    unary main_v52 main_v54 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v54 main_v53 main_v55 (mulf : (⟨S8x3x508x508, .f32⟩ : BufTy).Contents (Elt F) → (⟨S8x3x508x508, .f32⟩ : BufTy).Contents (Elt F) → (⟨S8x3x508x508, .f32⟩ : BufTy).Contents (Elt F)),
    binary main_v49 main_v55 main_v56 (addf : (⟨S8x3x508x508, .f32⟩ : BufTy).Contents (Elt F) → (⟨S8x3x508x508, .f32⟩ : BufTy).Contents (Elt F) → (⟨S8x3x508x508, .f32⟩ : BufTy).Contents (Elt F)) ]

abbrev tap8a : List (HloOp τ sig (Elt F)) :=
  [ unary main_arg0 main_v57 ((extractStridedSlice S8x1x508x508 ![0, 8, 0, 0] · slices_S8x25x508x508_S8x1x508x508_0_8_0_0) : (⟨S8x25x508x508, .f32⟩ : BufTy).Contents (Elt F) → (⟨S8x1x508x508, .f32⟩ : BufTy).Contents (Elt F)),
    reshape main_v57 main_v58 rfl shapeCasts_S8x1x508x508_S8x508x508 ]

abbrev tap8b : List (HloOp τ sig (Elt F)) :=
  [ unary main_v58 main_v59 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v60 ((extractStridedSlice S8x3x508x508 ![0, 0, 1, 3] · slices_S8x3x512x512_S8x3x508x508_0_0_1_3) : (⟨S8x3x512x512, .f32⟩ : BufTy).Contents (Elt F) → (⟨S8x3x508x508, .f32⟩ : BufTy).Contents (Elt F)),
    unary main_v59 main_v61 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v61 main_v60 main_v62 (mulf : (⟨S8x3x508x508, .f32⟩ : BufTy).Contents (Elt F) → (⟨S8x3x508x508, .f32⟩ : BufTy).Contents (Elt F) → (⟨S8x3x508x508, .f32⟩ : BufTy).Contents (Elt F)),
    binary main_v56 main_v62 main_v63 (addf : (⟨S8x3x508x508, .f32⟩ : BufTy).Contents (Elt F) → (⟨S8x3x508x508, .f32⟩ : BufTy).Contents (Elt F) → (⟨S8x3x508x508, .f32⟩ : BufTy).Contents (Elt F)) ]

abbrev tap9 : List (HloOp τ sig (Elt F)) :=
  [ unary main_arg0 main_v64 ((extractStridedSlice S8x1x508x508 ![0, 9, 0, 0] · slices_S8x25x508x508_S8x1x508x508_0_9_0_0) : (⟨S8x25x508x508, .f32⟩ : BufTy).Contents (Elt F) → (⟨S8x1x508x508, .f32⟩ : BufTy).Contents (Elt F)),
    reshape main_v64 main_v65 rfl shapeCasts_S8x1x508x508_S8x508x508,
    unary main_v65 main_v66 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v67 ((extractStridedSlice S8x3x508x508 ![0, 0, 1, 4] · slices_S8x3x512x512_S8x3x508x508_0_0_1_4) : (⟨S8x3x512x512, .f32⟩ : BufTy).Contents (Elt F) → (⟨S8x3x508x508, .f32⟩ : BufTy).Contents (Elt F)),
    unary main_v66 main_v68 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v68 main_v67 main_v69 (mulf : (⟨S8x3x508x508, .f32⟩ : BufTy).Contents (Elt F) → (⟨S8x3x508x508, .f32⟩ : BufTy).Contents (Elt F) → (⟨S8x3x508x508, .f32⟩ : BufTy).Contents (Elt F)),
    binary main_v63 main_v69 main_v70 (addf : (⟨S8x3x508x508, .f32⟩ : BufTy).Contents (Elt F) → (⟨S8x3x508x508, .f32⟩ : BufTy).Contents (Elt F) → (⟨S8x3x508x508, .f32⟩ : BufTy).Contents (Elt F)) ]

abbrev tap10 : List (HloOp τ sig (Elt F)) :=
  [ unary main_arg0 main_v71 ((extractStridedSlice S8x1x508x508 ![0, 10, 0, 0] · slices_S8x25x508x508_S8x1x508x508_0_10_0_0) : (⟨S8x25x508x508, .f32⟩ : BufTy).Contents (Elt F) → (⟨S8x1x508x508, .f32⟩ : BufTy).Contents (Elt F)),
    reshape main_v71 main_v72 rfl shapeCasts_S8x1x508x508_S8x508x508,
    unary main_v72 main_v73 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v74 ((extractStridedSlice S8x3x508x508 ![0, 0, 2, 0] · slices_S8x3x512x512_S8x3x508x508_0_0_2_0) : (⟨S8x3x512x512, .f32⟩ : BufTy).Contents (Elt F) → (⟨S8x3x508x508, .f32⟩ : BufTy).Contents (Elt F)),
    unary main_v73 main_v75 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v75 main_v74 main_v76 (mulf : (⟨S8x3x508x508, .f32⟩ : BufTy).Contents (Elt F) → (⟨S8x3x508x508, .f32⟩ : BufTy).Contents (Elt F) → (⟨S8x3x508x508, .f32⟩ : BufTy).Contents (Elt F)),
    binary main_v70 main_v76 main_v77 (addf : (⟨S8x3x508x508, .f32⟩ : BufTy).Contents (Elt F) → (⟨S8x3x508x508, .f32⟩ : BufTy).Contents (Elt F) → (⟨S8x3x508x508, .f32⟩ : BufTy).Contents (Elt F)) ]

abbrev tap11 : List (HloOp τ sig (Elt F)) :=
  [ unary main_arg0 main_v78 ((extractStridedSlice S8x1x508x508 ![0, 11, 0, 0] · slices_S8x25x508x508_S8x1x508x508_0_11_0_0) : (⟨S8x25x508x508, .f32⟩ : BufTy).Contents (Elt F) → (⟨S8x1x508x508, .f32⟩ : BufTy).Contents (Elt F)),
    reshape main_v78 main_v79 rfl shapeCasts_S8x1x508x508_S8x508x508,
    unary main_v79 main_v80 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v81 ((extractStridedSlice S8x3x508x508 ![0, 0, 2, 1] · slices_S8x3x512x512_S8x3x508x508_0_0_2_1) : (⟨S8x3x512x512, .f32⟩ : BufTy).Contents (Elt F) → (⟨S8x3x508x508, .f32⟩ : BufTy).Contents (Elt F)),
    unary main_v80 main_v82 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v82 main_v81 main_v83 (mulf : (⟨S8x3x508x508, .f32⟩ : BufTy).Contents (Elt F) → (⟨S8x3x508x508, .f32⟩ : BufTy).Contents (Elt F) → (⟨S8x3x508x508, .f32⟩ : BufTy).Contents (Elt F)),
    binary main_v77 main_v83 main_v84 (addf : (⟨S8x3x508x508, .f32⟩ : BufTy).Contents (Elt F) → (⟨S8x3x508x508, .f32⟩ : BufTy).Contents (Elt F) → (⟨S8x3x508x508, .f32⟩ : BufTy).Contents (Elt F)) ]

abbrev tap12 : List (HloOp τ sig (Elt F)) :=
  [ unary main_arg0 main_v85 ((extractStridedSlice S8x1x508x508 ![0, 12, 0, 0] · slices_S8x25x508x508_S8x1x508x508_0_12_0_0) : (⟨S8x25x508x508, .f32⟩ : BufTy).Contents (Elt F) → (⟨S8x1x508x508, .f32⟩ : BufTy).Contents (Elt F)),
    reshape main_v85 main_v86 rfl shapeCasts_S8x1x508x508_S8x508x508,
    unary main_v86 main_v87 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v88 ((extractStridedSlice S8x3x508x508 ![0, 0, 2, 2] · slices_S8x3x512x512_S8x3x508x508_0_0_2_2) : (⟨S8x3x512x512, .f32⟩ : BufTy).Contents (Elt F) → (⟨S8x3x508x508, .f32⟩ : BufTy).Contents (Elt F)),
    unary main_v87 main_v89 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v89 main_v88 main_v90 (mulf : (⟨S8x3x508x508, .f32⟩ : BufTy).Contents (Elt F) → (⟨S8x3x508x508, .f32⟩ : BufTy).Contents (Elt F) → (⟨S8x3x508x508, .f32⟩ : BufTy).Contents (Elt F)),
    binary main_v84 main_v90 main_v91 (addf : (⟨S8x3x508x508, .f32⟩ : BufTy).Contents (Elt F) → (⟨S8x3x508x508, .f32⟩ : BufTy).Contents (Elt F) → (⟨S8x3x508x508, .f32⟩ : BufTy).Contents (Elt F)) ]

abbrev tap13 : List (HloOp τ sig (Elt F)) :=
  [ unary main_arg0 main_v92 ((extractStridedSlice S8x1x508x508 ![0, 13, 0, 0] · slices_S8x25x508x508_S8x1x508x508_0_13_0_0) : (⟨S8x25x508x508, .f32⟩ : BufTy).Contents (Elt F) → (⟨S8x1x508x508, .f32⟩ : BufTy).Contents (Elt F)),
    reshape main_v92 main_v93 rfl shapeCasts_S8x1x508x508_S8x508x508,
    unary main_v93 main_v94 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v95 ((extractStridedSlice S8x3x508x508 ![0, 0, 2, 3] · slices_S8x3x512x512_S8x3x508x508_0_0_2_3) : (⟨S8x3x512x512, .f32⟩ : BufTy).Contents (Elt F) → (⟨S8x3x508x508, .f32⟩ : BufTy).Contents (Elt F)),
    unary main_v94 main_v96 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v96 main_v95 main_v97 (mulf : (⟨S8x3x508x508, .f32⟩ : BufTy).Contents (Elt F) → (⟨S8x3x508x508, .f32⟩ : BufTy).Contents (Elt F) → (⟨S8x3x508x508, .f32⟩ : BufTy).Contents (Elt F)),
    binary main_v91 main_v97 main_v98 (addf : (⟨S8x3x508x508, .f32⟩ : BufTy).Contents (Elt F) → (⟨S8x3x508x508, .f32⟩ : BufTy).Contents (Elt F) → (⟨S8x3x508x508, .f32⟩ : BufTy).Contents (Elt F)) ]

abbrev tap14 : List (HloOp τ sig (Elt F)) :=
  [ unary main_arg0 main_v99 ((extractStridedSlice S8x1x508x508 ![0, 14, 0, 0] · slices_S8x25x508x508_S8x1x508x508_0_14_0_0) : (⟨S8x25x508x508, .f32⟩ : BufTy).Contents (Elt F) → (⟨S8x1x508x508, .f32⟩ : BufTy).Contents (Elt F)),
    reshape main_v99 main_v100 rfl shapeCasts_S8x1x508x508_S8x508x508,
    unary main_v100 main_v101 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v102 ((extractStridedSlice S8x3x508x508 ![0, 0, 2, 4] · slices_S8x3x512x512_S8x3x508x508_0_0_2_4) : (⟨S8x3x512x512, .f32⟩ : BufTy).Contents (Elt F) → (⟨S8x3x508x508, .f32⟩ : BufTy).Contents (Elt F)),
    unary main_v101 main_v103 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v103 main_v102 main_v104 (mulf : (⟨S8x3x508x508, .f32⟩ : BufTy).Contents (Elt F) → (⟨S8x3x508x508, .f32⟩ : BufTy).Contents (Elt F) → (⟨S8x3x508x508, .f32⟩ : BufTy).Contents (Elt F)),
    binary main_v98 main_v104 main_v105 (addf : (⟨S8x3x508x508, .f32⟩ : BufTy).Contents (Elt F) → (⟨S8x3x508x508, .f32⟩ : BufTy).Contents (Elt F) → (⟨S8x3x508x508, .f32⟩ : BufTy).Contents (Elt F)) ]

abbrev tap15 : List (HloOp τ sig (Elt F)) :=
  [ unary main_arg0 main_v106 ((extractStridedSlice S8x1x508x508 ![0, 15, 0, 0] · slices_S8x25x508x508_S8x1x508x508_0_15_0_0) : (⟨S8x25x508x508, .f32⟩ : BufTy).Contents (Elt F) → (⟨S8x1x508x508, .f32⟩ : BufTy).Contents (Elt F)),
    reshape main_v106 main_v107 rfl shapeCasts_S8x1x508x508_S8x508x508,
    unary main_v107 main_v108 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v109 ((extractStridedSlice S8x3x508x508 ![0, 0, 3, 0] · slices_S8x3x512x512_S8x3x508x508_0_0_3_0) : (⟨S8x3x512x512, .f32⟩ : BufTy).Contents (Elt F) → (⟨S8x3x508x508, .f32⟩ : BufTy).Contents (Elt F)),
    unary main_v108 main_v110 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v110 main_v109 main_v111 (mulf : (⟨S8x3x508x508, .f32⟩ : BufTy).Contents (Elt F) → (⟨S8x3x508x508, .f32⟩ : BufTy).Contents (Elt F) → (⟨S8x3x508x508, .f32⟩ : BufTy).Contents (Elt F)),
    binary main_v105 main_v111 main_v112 (addf : (⟨S8x3x508x508, .f32⟩ : BufTy).Contents (Elt F) → (⟨S8x3x508x508, .f32⟩ : BufTy).Contents (Elt F) → (⟨S8x3x508x508, .f32⟩ : BufTy).Contents (Elt F)) ]

abbrev tap16a : List (HloOp τ sig (Elt F)) :=
  [ unary main_arg0 main_v113 ((extractStridedSlice S8x1x508x508 ![0, 16, 0, 0] · slices_S8x25x508x508_S8x1x508x508_0_16_0_0) : (⟨S8x25x508x508, .f32⟩ : BufTy).Contents (Elt F) → (⟨S8x1x508x508, .f32⟩ : BufTy).Contents (Elt F)),
    reshape main_v113 main_v114 rfl shapeCasts_S8x1x508x508_S8x508x508,
    unary main_v114 main_v115 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v116 ((extractStridedSlice S8x3x508x508 ![0, 0, 3, 1] · slices_S8x3x512x512_S8x3x508x508_0_0_3_1) : (⟨S8x3x512x512, .f32⟩ : BufTy).Contents (Elt F) → (⟨S8x3x508x508, .f32⟩ : BufTy).Contents (Elt F)),
    unary main_v115 main_v117 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v117 main_v116 main_v118 (mulf : (⟨S8x3x508x508, .f32⟩ : BufTy).Contents (Elt F) → (⟨S8x3x508x508, .f32⟩ : BufTy).Contents (Elt F) → (⟨S8x3x508x508, .f32⟩ : BufTy).Contents (Elt F)) ]

abbrev tap16b : List (HloOp τ sig (Elt F)) :=
  [ binary main_v112 main_v118 main_v119 (addf : (⟨S8x3x508x508, .f32⟩ : BufTy).Contents (Elt F) → (⟨S8x3x508x508, .f32⟩ : BufTy).Contents (Elt F) → (⟨S8x3x508x508, .f32⟩ : BufTy).Contents (Elt F)) ]

abbrev tap17 : List (HloOp τ sig (Elt F)) :=
  [ unary main_arg0 main_v120 ((extractStridedSlice S8x1x508x508 ![0, 17, 0, 0] · slices_S8x25x508x508_S8x1x508x508_0_17_0_0) : (⟨S8x25x508x508, .f32⟩ : BufTy).Contents (Elt F) → (⟨S8x1x508x508, .f32⟩ : BufTy).Contents (Elt F)),
    reshape main_v120 main_v121 rfl shapeCasts_S8x1x508x508_S8x508x508,
    unary main_v121 main_v122 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v123 ((extractStridedSlice S8x3x508x508 ![0, 0, 3, 2] · slices_S8x3x512x512_S8x3x508x508_0_0_3_2) : (⟨S8x3x512x512, .f32⟩ : BufTy).Contents (Elt F) → (⟨S8x3x508x508, .f32⟩ : BufTy).Contents (Elt F)),
    unary main_v122 main_v124 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v124 main_v123 main_v125 (mulf : (⟨S8x3x508x508, .f32⟩ : BufTy).Contents (Elt F) → (⟨S8x3x508x508, .f32⟩ : BufTy).Contents (Elt F) → (⟨S8x3x508x508, .f32⟩ : BufTy).Contents (Elt F)),
    binary main_v119 main_v125 main_v126 (addf : (⟨S8x3x508x508, .f32⟩ : BufTy).Contents (Elt F) → (⟨S8x3x508x508, .f32⟩ : BufTy).Contents (Elt F) → (⟨S8x3x508x508, .f32⟩ : BufTy).Contents (Elt F)) ]

abbrev tap18 : List (HloOp τ sig (Elt F)) :=
  [ unary main_arg0 main_v127 ((extractStridedSlice S8x1x508x508 ![0, 18, 0, 0] · slices_S8x25x508x508_S8x1x508x508_0_18_0_0) : (⟨S8x25x508x508, .f32⟩ : BufTy).Contents (Elt F) → (⟨S8x1x508x508, .f32⟩ : BufTy).Contents (Elt F)),
    reshape main_v127 main_v128 rfl shapeCasts_S8x1x508x508_S8x508x508,
    unary main_v128 main_v129 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v130 ((extractStridedSlice S8x3x508x508 ![0, 0, 3, 3] · slices_S8x3x512x512_S8x3x508x508_0_0_3_3) : (⟨S8x3x512x512, .f32⟩ : BufTy).Contents (Elt F) → (⟨S8x3x508x508, .f32⟩ : BufTy).Contents (Elt F)),
    unary main_v129 main_v131 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v131 main_v130 main_v132 (mulf : (⟨S8x3x508x508, .f32⟩ : BufTy).Contents (Elt F) → (⟨S8x3x508x508, .f32⟩ : BufTy).Contents (Elt F) → (⟨S8x3x508x508, .f32⟩ : BufTy).Contents (Elt F)),
    binary main_v126 main_v132 main_v133 (addf : (⟨S8x3x508x508, .f32⟩ : BufTy).Contents (Elt F) → (⟨S8x3x508x508, .f32⟩ : BufTy).Contents (Elt F) → (⟨S8x3x508x508, .f32⟩ : BufTy).Contents (Elt F)) ]

abbrev tap19 : List (HloOp τ sig (Elt F)) :=
  [ unary main_arg0 main_v134 ((extractStridedSlice S8x1x508x508 ![0, 19, 0, 0] · slices_S8x25x508x508_S8x1x508x508_0_19_0_0) : (⟨S8x25x508x508, .f32⟩ : BufTy).Contents (Elt F) → (⟨S8x1x508x508, .f32⟩ : BufTy).Contents (Elt F)),
    reshape main_v134 main_v135 rfl shapeCasts_S8x1x508x508_S8x508x508,
    unary main_v135 main_v136 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v137 ((extractStridedSlice S8x3x508x508 ![0, 0, 3, 4] · slices_S8x3x512x512_S8x3x508x508_0_0_3_4) : (⟨S8x3x512x512, .f32⟩ : BufTy).Contents (Elt F) → (⟨S8x3x508x508, .f32⟩ : BufTy).Contents (Elt F)),
    unary main_v136 main_v138 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v138 main_v137 main_v139 (mulf : (⟨S8x3x508x508, .f32⟩ : BufTy).Contents (Elt F) → (⟨S8x3x508x508, .f32⟩ : BufTy).Contents (Elt F) → (⟨S8x3x508x508, .f32⟩ : BufTy).Contents (Elt F)),
    binary main_v133 main_v139 main_v140 (addf : (⟨S8x3x508x508, .f32⟩ : BufTy).Contents (Elt F) → (⟨S8x3x508x508, .f32⟩ : BufTy).Contents (Elt F) → (⟨S8x3x508x508, .f32⟩ : BufTy).Contents (Elt F)) ]

abbrev tap20 : List (HloOp τ sig (Elt F)) :=
  [ unary main_arg0 main_v141 ((extractStridedSlice S8x1x508x508 ![0, 20, 0, 0] · slices_S8x25x508x508_S8x1x508x508_0_20_0_0) : (⟨S8x25x508x508, .f32⟩ : BufTy).Contents (Elt F) → (⟨S8x1x508x508, .f32⟩ : BufTy).Contents (Elt F)),
    reshape main_v141 main_v142 rfl shapeCasts_S8x1x508x508_S8x508x508,
    unary main_v142 main_v143 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v144 ((extractStridedSlice S8x3x508x508 ![0, 0, 4, 0] · slices_S8x3x512x512_S8x3x508x508_0_0_4_0) : (⟨S8x3x512x512, .f32⟩ : BufTy).Contents (Elt F) → (⟨S8x3x508x508, .f32⟩ : BufTy).Contents (Elt F)),
    unary main_v143 main_v145 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v145 main_v144 main_v146 (mulf : (⟨S8x3x508x508, .f32⟩ : BufTy).Contents (Elt F) → (⟨S8x3x508x508, .f32⟩ : BufTy).Contents (Elt F) → (⟨S8x3x508x508, .f32⟩ : BufTy).Contents (Elt F)),
    binary main_v140 main_v146 main_v147 (addf : (⟨S8x3x508x508, .f32⟩ : BufTy).Contents (Elt F) → (⟨S8x3x508x508, .f32⟩ : BufTy).Contents (Elt F) → (⟨S8x3x508x508, .f32⟩ : BufTy).Contents (Elt F)) ]

abbrev tap21 : List (HloOp τ sig (Elt F)) :=
  [ unary main_arg0 main_v148 ((extractStridedSlice S8x1x508x508 ![0, 21, 0, 0] · slices_S8x25x508x508_S8x1x508x508_0_21_0_0) : (⟨S8x25x508x508, .f32⟩ : BufTy).Contents (Elt F) → (⟨S8x1x508x508, .f32⟩ : BufTy).Contents (Elt F)),
    reshape main_v148 main_v149 rfl shapeCasts_S8x1x508x508_S8x508x508,
    unary main_v149 main_v150 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v151 ((extractStridedSlice S8x3x508x508 ![0, 0, 4, 1] · slices_S8x3x512x512_S8x3x508x508_0_0_4_1) : (⟨S8x3x512x512, .f32⟩ : BufTy).Contents (Elt F) → (⟨S8x3x508x508, .f32⟩ : BufTy).Contents (Elt F)),
    unary main_v150 main_v152 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v152 main_v151 main_v153 (mulf : (⟨S8x3x508x508, .f32⟩ : BufTy).Contents (Elt F) → (⟨S8x3x508x508, .f32⟩ : BufTy).Contents (Elt F) → (⟨S8x3x508x508, .f32⟩ : BufTy).Contents (Elt F)),
    binary main_v147 main_v153 main_v154 (addf : (⟨S8x3x508x508, .f32⟩ : BufTy).Contents (Elt F) → (⟨S8x3x508x508, .f32⟩ : BufTy).Contents (Elt F) → (⟨S8x3x508x508, .f32⟩ : BufTy).Contents (Elt F)) ]

abbrev tap22 : List (HloOp τ sig (Elt F)) :=
  [ unary main_arg0 main_v155 ((extractStridedSlice S8x1x508x508 ![0, 22, 0, 0] · slices_S8x25x508x508_S8x1x508x508_0_22_0_0) : (⟨S8x25x508x508, .f32⟩ : BufTy).Contents (Elt F) → (⟨S8x1x508x508, .f32⟩ : BufTy).Contents (Elt F)),
    reshape main_v155 main_v156 rfl shapeCasts_S8x1x508x508_S8x508x508,
    unary main_v156 main_v157 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v158 ((extractStridedSlice S8x3x508x508 ![0, 0, 4, 2] · slices_S8x3x512x512_S8x3x508x508_0_0_4_2) : (⟨S8x3x512x512, .f32⟩ : BufTy).Contents (Elt F) → (⟨S8x3x508x508, .f32⟩ : BufTy).Contents (Elt F)),
    unary main_v157 main_v159 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v159 main_v158 main_v160 (mulf : (⟨S8x3x508x508, .f32⟩ : BufTy).Contents (Elt F) → (⟨S8x3x508x508, .f32⟩ : BufTy).Contents (Elt F) → (⟨S8x3x508x508, .f32⟩ : BufTy).Contents (Elt F)),
    binary main_v154 main_v160 main_v161 (addf : (⟨S8x3x508x508, .f32⟩ : BufTy).Contents (Elt F) → (⟨S8x3x508x508, .f32⟩ : BufTy).Contents (Elt F) → (⟨S8x3x508x508, .f32⟩ : BufTy).Contents (Elt F)) ]

abbrev tap23 : List (HloOp τ sig (Elt F)) :=
  [ unary main_arg0 main_v162 ((extractStridedSlice S8x1x508x508 ![0, 23, 0, 0] · slices_S8x25x508x508_S8x1x508x508_0_23_0_0) : (⟨S8x25x508x508, .f32⟩ : BufTy).Contents (Elt F) → (⟨S8x1x508x508, .f32⟩ : BufTy).Contents (Elt F)),
    reshape main_v162 main_v163 rfl shapeCasts_S8x1x508x508_S8x508x508,
    unary main_v163 main_v164 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v165 ((extractStridedSlice S8x3x508x508 ![0, 0, 4, 3] · slices_S8x3x512x512_S8x3x508x508_0_0_4_3) : (⟨S8x3x512x512, .f32⟩ : BufTy).Contents (Elt F) → (⟨S8x3x508x508, .f32⟩ : BufTy).Contents (Elt F)),
    unary main_v164 main_v166 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v166 main_v165 main_v167 (mulf : (⟨S8x3x508x508, .f32⟩ : BufTy).Contents (Elt F) → (⟨S8x3x508x508, .f32⟩ : BufTy).Contents (Elt F) → (⟨S8x3x508x508, .f32⟩ : BufTy).Contents (Elt F)),
    binary main_v161 main_v167 main_v168 (addf : (⟨S8x3x508x508, .f32⟩ : BufTy).Contents (Elt F) → (⟨S8x3x508x508, .f32⟩ : BufTy).Contents (Elt F) → (⟨S8x3x508x508, .f32⟩ : BufTy).Contents (Elt F)) ]

abbrev tap24 : List (HloOp τ sig (Elt F)) :=
  [ unary main_arg0 main_v169 ((extractStridedSlice S8x1x508x508 ![0, 24, 0, 0] · slices_S8x25x508x508_S8x1x508x508_0_24_0_0) : (⟨S8x25x508x508, .f32⟩ : BufTy).Contents (Elt F) → (⟨S8x1x508x508, .f32⟩ : BufTy).Contents (Elt F)),
    reshape main_v169 main_v170 rfl shapeCasts_S8x1x508x508_S8x508x508,
    unary main_v170 main_v171 (broadcastInDim S8x1x508x508 ![0, 2, 3] bcast_S8x508x508_S8x1x508x508_0_2_3 : (⟨S8x508x508, .f32⟩ : BufTy).Contents (Elt F) → (⟨S8x1x508x508, .f32⟩ : BufTy).Contents (Elt F)),
    unary main_arg1 main_v172 ((extractStridedSlice S8x3x508x508 ![0, 0, 4, 4] · slices_S8x3x512x512_S8x3x508x508_0_0_4_4) : (⟨S8x3x512x512, .f32⟩ : BufTy).Contents (Elt F) → (⟨S8x3x508x508, .f32⟩ : BufTy).Contents (Elt F)),
    unary main_v171 main_v173 (broadcastInDim S8x3x508x508 ![0, 1, 2, 3] bcast_S8x1x508x508_S8x3x508x508_0_1_2_3 : (⟨S8x1x508x508, .f32⟩ : BufTy).Contents (Elt F) → (⟨S8x3x508x508, .f32⟩ : BufTy).Contents (Elt F)),
    binary main_v173 main_v172 main_v174 (mulf : (⟨S8x3x508x508, .f32⟩ : BufTy).Contents (Elt F) → (⟨S8x3x508x508, .f32⟩ : BufTy).Contents (Elt F) → (⟨S8x3x508x508, .f32⟩ : BufTy).Contents (Elt F)),
    binary main_v168 main_v174 main_v175 (addf : (⟨S8x3x508x508, .f32⟩ : BufTy).Contents (Elt F) → (⟨S8x3x508x508, .f32⟩ : BufTy).Contents (Elt F) → (⟨S8x3x508x508, .f32⟩ : BufTy).Contents (Elt F)) ]

abbrev sumOps : List (HloOp τ sig (Elt F)) :=
  [ nullary main_cst_0 (constant S_ .f32 0x00000000#32),
    binary main_arg0 main_cst_0 main_v176 ((fun x v => Host.reduceAdd x v reducesTo_S8x25x508x508_S8x508x508_d1 h_S_) : (⟨S8x25x508x508, .f32⟩ : BufTy).Contents (Elt F) → (⟨S_, .f32⟩ : BufTy).Contents (Elt F) → (⟨S8x508x508, .f32⟩ : BufTy).Contents (Elt F)),
    unary main_v176 main_v177 (broadcastInDim S8x1x508x508 ![0, 2, 3] bcast_S8x508x508_S8x1x508x508_0_2_3 : (⟨S8x508x508, .f32⟩ : BufTy).Contents (Elt F) → (⟨S8x1x508x508, .f32⟩ : BufTy).Contents (Elt F)) ]

/-- The three windows @main is printed in, and the whole line. -/
def ops0 : List (HloOp τ sig (Elt F)) := zeroOps ++ (tap0 ++ (tap1 ++ (tap2 ++ (tap3 ++ (tap4 ++ (tap5 ++ (tap6 ++ (tap7 ++ (tap8a)))))))))
def ops1 : List (HloOp τ sig (Elt F)) := tap8b ++ (tap9 ++ (tap10 ++ (tap11 ++ (tap12 ++ (tap13 ++ (tap14 ++ (tap15 ++ (tap16a))))))))
def ops2 : List (HloOp τ sig (Elt F)) := tap16b ++ (tap17 ++ (tap18 ++ (tap19 ++ (tap20 ++ (tap21 ++ (tap22 ++ (tap23 ++ (tap24 ++ (sumOps)))))))))
def ops : List (HloOp τ sig (Elt F)) := ops0 ++ (ops1 ++ (ops2 ++ []))

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
theorem part3_eq (c : Dev nD) : main_part3 (F := F) c = seq [] := rfl

/-- @main is the line of its operations. -/
theorem main_eq (c : Dev nD) : main (F := F) c = seq ops := by
  show (main_part0 c >>= fun _ => main_part1 c >>= fun _ => main_part2 c >>= fun _ => main_part3 c) = seq (ops0 ++ (ops1 ++ (ops2 ++ [])))
  rw [part0_eq, part1_eq, part2_eq, part3_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem zeroOps_sub : (zeroOps : List (HloOp τ sig (Elt F))).Forall fun op => op.bufs ⊆ tcRefs τ sig :=
  ⟨nullary_bufs_sub .., unary_bufs_sub ..⟩
theorem zeroOps_fresh : (zeroOps : List (HloOp τ sig (Elt F))).Forall fun op => op.fresh = ∅ := by
  repeat' constructor
theorem tap0_sub : (tap0 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap0_fresh : (tap0 : List (HloOp τ sig (Elt F))).Forall fun op => op.fresh = ∅ := by
  repeat' constructor
theorem tap1_sub : (tap1 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap1_fresh : (tap1 : List (HloOp τ sig (Elt F))).Forall fun op => op.fresh = ∅ := by
  repeat' constructor
theorem tap2_sub : (tap2 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap2_fresh : (tap2 : List (HloOp τ sig (Elt F))).Forall fun op => op.fresh = ∅ := by
  repeat' constructor
theorem tap3_sub : (tap3 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap3_fresh : (tap3 : List (HloOp τ sig (Elt F))).Forall fun op => op.fresh = ∅ := by
  repeat' constructor
theorem tap4_sub : (tap4 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap4_fresh : (tap4 : List (HloOp τ sig (Elt F))).Forall fun op => op.fresh = ∅ := by
  repeat' constructor
theorem tap5_sub : (tap5 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap5_fresh : (tap5 : List (HloOp τ sig (Elt F))).Forall fun op => op.fresh = ∅ := by
  repeat' constructor
theorem tap6_sub : (tap6 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap6_fresh : (tap6 : List (HloOp τ sig (Elt F))).Forall fun op => op.fresh = ∅ := by
  repeat' constructor
theorem tap7_sub : (tap7 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap7_fresh : (tap7 : List (HloOp τ sig (Elt F))).Forall fun op => op.fresh = ∅ := by
  repeat' constructor
theorem tap8a_sub : (tap8a : List (HloOp τ sig (Elt F))).Forall fun op => op.bufs ⊆ tcRefs τ sig :=
  ⟨unary_bufs_sub .., reshape_bufs_sub ..⟩
theorem tap8a_fresh : (tap8a : List (HloOp τ sig (Elt F))).Forall fun op => op.fresh = ∅ := by
  repeat' constructor
theorem tap8b_sub : (tap8b : List (HloOp τ sig (Elt F))).Forall fun op => op.bufs ⊆ tcRefs τ sig :=
  ⟨unary_bufs_sub .., unary_bufs_sub .., unary_bufs_sub .., binary_bufs_sub .., binary_bufs_sub ..⟩
theorem tap8b_fresh : (tap8b : List (HloOp τ sig (Elt F))).Forall fun op => op.fresh = ∅ := by
  repeat' constructor
theorem tap9_sub : (tap9 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap9_fresh : (tap9 : List (HloOp τ sig (Elt F))).Forall fun op => op.fresh = ∅ := by
  repeat' constructor
theorem tap10_sub : (tap10 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap10_fresh : (tap10 : List (HloOp τ sig (Elt F))).Forall fun op => op.fresh = ∅ := by
  repeat' constructor
theorem tap11_sub : (tap11 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap11_fresh : (tap11 : List (HloOp τ sig (Elt F))).Forall fun op => op.fresh = ∅ := by
  repeat' constructor
theorem tap12_sub : (tap12 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap12_fresh : (tap12 : List (HloOp τ sig (Elt F))).Forall fun op => op.fresh = ∅ := by
  repeat' constructor
theorem tap13_sub : (tap13 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap13_fresh : (tap13 : List (HloOp τ sig (Elt F))).Forall fun op => op.fresh = ∅ := by
  repeat' constructor
theorem tap14_sub : (tap14 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap14_fresh : (tap14 : List (HloOp τ sig (Elt F))).Forall fun op => op.fresh = ∅ := by
  repeat' constructor
theorem tap15_sub : (tap15 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap15_fresh : (tap15 : List (HloOp τ sig (Elt F))).Forall fun op => op.fresh = ∅ := by
  repeat' constructor
theorem tap16a_sub : (tap16a : List (HloOp τ sig (Elt F))).Forall fun op => op.bufs ⊆ tcRefs τ sig :=
  ⟨unary_bufs_sub .., reshape_bufs_sub .., unary_bufs_sub .., unary_bufs_sub .., unary_bufs_sub .., binary_bufs_sub ..⟩
theorem tap16a_fresh : (tap16a : List (HloOp τ sig (Elt F))).Forall fun op => op.fresh = ∅ := by
  repeat' constructor
theorem tap16b_sub : (tap16b : List (HloOp τ sig (Elt F))).Forall fun op => op.bufs ⊆ tcRefs τ sig :=
  binary_bufs_sub ..
theorem tap16b_fresh : (tap16b : List (HloOp τ sig (Elt F))).Forall fun op => op.fresh = ∅ := by
  repeat' constructor
theorem tap17_sub : (tap17 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap17_fresh : (tap17 : List (HloOp τ sig (Elt F))).Forall fun op => op.fresh = ∅ := by
  repeat' constructor
theorem tap18_sub : (tap18 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap18_fresh : (tap18 : List (HloOp τ sig (Elt F))).Forall fun op => op.fresh = ∅ := by
  repeat' constructor
theorem tap19_sub : (tap19 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap19_fresh : (tap19 : List (HloOp τ sig (Elt F))).Forall fun op => op.fresh = ∅ := by
  repeat' constructor
theorem tap20_sub : (tap20 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap20_fresh : (tap20 : List (HloOp τ sig (Elt F))).Forall fun op => op.fresh = ∅ := by
  repeat' constructor
theorem tap21_sub : (tap21 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap21_fresh : (tap21 : List (HloOp τ sig (Elt F))).Forall fun op => op.fresh = ∅ := by
  repeat' constructor
theorem tap22_sub : (tap22 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap22_fresh : (tap22 : List (HloOp τ sig (Elt F))).Forall fun op => op.fresh = ∅ := by
  repeat' constructor
theorem tap23_sub : (tap23 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap23_fresh : (tap23 : List (HloOp τ sig (Elt F))).Forall fun op => op.fresh = ∅ := by
  repeat' constructor
theorem tap24_sub : (tap24 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem tap24_fresh : (tap24 : List (HloOp τ sig (Elt F))).Forall fun op => op.fresh = ∅ := by
  repeat' constructor
theorem sumOps_sub : (sumOps : List (HloOp τ sig (Elt F))).Forall fun op => op.bufs ⊆ tcRefs τ sig :=
  ⟨nullary_bufs_sub .., binary_bufs_sub .., unary_bufs_sub ..⟩
theorem sumOps_fresh : (sumOps : List (HloOp τ sig (Elt F))).Forall fun op => op.fresh = ∅ := by
  repeat' constructor

theorem ops_sub : (ops : List (HloOp τ sig (Elt F))).Forall fun op => op.bufs ⊆ tcRefs τ sig :=
  List.forall_append.mpr ⟨List.forall_append.mpr ⟨zeroOps_sub, List.forall_append.mpr ⟨tap0_sub, List.forall_append.mpr ⟨tap1_sub, List.forall_append.mpr ⟨tap2_sub, List.forall_append.mpr ⟨tap3_sub, List.forall_append.mpr ⟨tap4_sub, List.forall_append.mpr ⟨tap5_sub, List.forall_append.mpr ⟨tap6_sub, List.forall_append.mpr ⟨tap7_sub, tap8a_sub⟩⟩⟩⟩⟩⟩⟩⟩⟩, List.forall_append.mpr ⟨List.forall_append.mpr ⟨tap8b_sub, List.forall_append.mpr ⟨tap9_sub, List.forall_append.mpr ⟨tap10_sub, List.forall_append.mpr ⟨tap11_sub, List.forall_append.mpr ⟨tap12_sub, List.forall_append.mpr ⟨tap13_sub, List.forall_append.mpr ⟨tap14_sub, List.forall_append.mpr ⟨tap15_sub, tap16a_sub⟩⟩⟩⟩⟩⟩⟩⟩,
    List.forall_append.mpr ⟨List.forall_append.mpr ⟨tap16b_sub, List.forall_append.mpr ⟨tap17_sub, List.forall_append.mpr ⟨tap18_sub, List.forall_append.mpr ⟨tap19_sub, List.forall_append.mpr ⟨tap20_sub, List.forall_append.mpr ⟨tap21_sub, List.forall_append.mpr ⟨tap22_sub, List.forall_append.mpr ⟨tap23_sub, List.forall_append.mpr ⟨tap24_sub, sumOps_sub⟩⟩⟩⟩⟩⟩⟩⟩⟩, trivial⟩⟩⟩

theorem ops_fresh : ∀ op ∈ (ops : List (HloOp τ sig (Elt F))), op.fresh = ∅ :=
  List.forall_iff_forall_mem.mp (List.forall_append.mpr ⟨List.forall_append.mpr ⟨zeroOps_fresh, List.forall_append.mpr ⟨tap0_fresh, List.forall_append.mpr ⟨tap1_fresh, List.forall_append.mpr ⟨tap2_fresh, List.forall_append.mpr ⟨tap3_fresh, List.forall_append.mpr ⟨tap4_fresh, List.forall_append.mpr ⟨tap5_fresh, List.forall_append.mpr ⟨tap6_fresh, List.forall_append.mpr ⟨tap7_fresh, tap8a_fresh⟩⟩⟩⟩⟩⟩⟩⟩⟩, List.forall_append.mpr ⟨List.forall_append.mpr ⟨tap8b_fresh, List.forall_append.mpr ⟨tap9_fresh, List.forall_append.mpr ⟨tap10_fresh, List.forall_append.mpr ⟨tap11_fresh, List.forall_append.mpr ⟨tap12_fresh, List.forall_append.mpr ⟨tap13_fresh, List.forall_append.mpr ⟨tap14_fresh, List.forall_append.mpr ⟨tap15_fresh, tap16a_fresh⟩⟩⟩⟩⟩⟩⟩⟩,
    List.forall_append.mpr ⟨List.forall_append.mpr ⟨tap16b_fresh, List.forall_append.mpr ⟨tap17_fresh, List.forall_append.mpr ⟨tap18_fresh, List.forall_append.mpr ⟨tap19_fresh, List.forall_append.mpr ⟨tap20_fresh, List.forall_append.mpr ⟨tap21_fresh, List.forall_append.mpr ⟨tap22_fresh, List.forall_append.mpr ⟨tap23_fresh, List.forall_append.mpr ⟨tap24_fresh, sumOps_fresh⟩⟩⟩⟩⟩⟩⟩⟩⟩, trivial⟩⟩⟩)

/-! ## The fold, group by group -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The running sum before any tap: the zero array. -/
def acc0 : (⟨S8x3x508x508, .f32⟩ : BufTy).Contents (Elt F) :=
  broadcastInDim S8x3x508x508 ![] bcast_S_S8x3x508x508 (constant S_ .f32 0x00000000#32)
/-- The running sum after tap 0: shift (0, 0), plane 0. -/
def acc1 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc0) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 0, 0, 0] x0 slices_S8x25x508x508_S8x1x508x508_0_0_0_0) shapeCasts_S8x1x508x508_S8x508x508))) (extractStridedSlice S8x3x508x508 ![0, 0, 0, 0] x1 slices_S8x3x512x512_S8x3x508x508_0_0_0_0))
/-- The running sum after tap 1: shift (0, 1), plane 1. -/
def acc2 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc1 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 1, 0, 0] x0 slices_S8x25x508x508_S8x1x508x508_0_1_0_0) shapeCasts_S8x1x508x508_S8x508x508))) (extractStridedSlice S8x3x508x508 ![0, 0, 0, 1] x1 slices_S8x3x512x512_S8x3x508x508_0_0_0_1))
/-- The running sum after tap 2: shift (0, 2), plane 2. -/
def acc3 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc2 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 2, 0, 0] x0 slices_S8x25x508x508_S8x1x508x508_0_2_0_0) shapeCasts_S8x1x508x508_S8x508x508))) (extractStridedSlice S8x3x508x508 ![0, 0, 0, 2] x1 slices_S8x3x512x512_S8x3x508x508_0_0_0_2))
/-- The running sum after tap 3: shift (0, 3), plane 3. -/
def acc4 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc3 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 3, 0, 0] x0 slices_S8x25x508x508_S8x1x508x508_0_3_0_0) shapeCasts_S8x1x508x508_S8x508x508))) (extractStridedSlice S8x3x508x508 ![0, 0, 0, 3] x1 slices_S8x3x512x512_S8x3x508x508_0_0_0_3))
/-- The running sum after tap 4: shift (0, 4), plane 4. -/
def acc5 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc4 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 4, 0, 0] x0 slices_S8x25x508x508_S8x1x508x508_0_4_0_0) shapeCasts_S8x1x508x508_S8x508x508))) (extractStridedSlice S8x3x508x508 ![0, 0, 0, 4] x1 slices_S8x3x512x512_S8x3x508x508_0_0_0_4))
/-- The running sum after tap 5: shift (1, 0), plane 5. -/
def acc6 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc5 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 5, 0, 0] x0 slices_S8x25x508x508_S8x1x508x508_0_5_0_0) shapeCasts_S8x1x508x508_S8x508x508))) (extractStridedSlice S8x3x508x508 ![0, 0, 1, 0] x1 slices_S8x3x512x512_S8x3x508x508_0_0_1_0))
/-- The running sum after tap 6: shift (1, 1), plane 6. -/
def acc7 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc6 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 6, 0, 0] x0 slices_S8x25x508x508_S8x1x508x508_0_6_0_0) shapeCasts_S8x1x508x508_S8x508x508))) (extractStridedSlice S8x3x508x508 ![0, 0, 1, 1] x1 slices_S8x3x512x512_S8x3x508x508_0_0_1_1))
/-- The running sum after tap 7: shift (1, 2), plane 7. -/
def acc8 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc7 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 7, 0, 0] x0 slices_S8x25x508x508_S8x1x508x508_0_7_0_0) shapeCasts_S8x1x508x508_S8x508x508))) (extractStridedSlice S8x3x508x508 ![0, 0, 1, 2] x1 slices_S8x3x512x512_S8x3x508x508_0_0_1_2))
/-- The running sum after tap 8: shift (1, 3), plane 8. -/
def acc9 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc8 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 8, 0, 0] x0 slices_S8x25x508x508_S8x1x508x508_0_8_0_0) shapeCasts_S8x1x508x508_S8x508x508))) (extractStridedSlice S8x3x508x508 ![0, 0, 1, 3] x1 slices_S8x3x512x512_S8x3x508x508_0_0_1_3))
/-- The running sum after tap 9: shift (1, 4), plane 9. -/
def acc10 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc9 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 9, 0, 0] x0 slices_S8x25x508x508_S8x1x508x508_0_9_0_0) shapeCasts_S8x1x508x508_S8x508x508))) (extractStridedSlice S8x3x508x508 ![0, 0, 1, 4] x1 slices_S8x3x512x512_S8x3x508x508_0_0_1_4))
/-- The running sum after tap 10: shift (2, 0), plane 10. -/
def acc11 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc10 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 10, 0, 0] x0 slices_S8x25x508x508_S8x1x508x508_0_10_0_0) shapeCasts_S8x1x508x508_S8x508x508))) (extractStridedSlice S8x3x508x508 ![0, 0, 2, 0] x1 slices_S8x3x512x512_S8x3x508x508_0_0_2_0))
/-- The running sum after tap 11: shift (2, 1), plane 11. -/
def acc12 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc11 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 11, 0, 0] x0 slices_S8x25x508x508_S8x1x508x508_0_11_0_0) shapeCasts_S8x1x508x508_S8x508x508))) (extractStridedSlice S8x3x508x508 ![0, 0, 2, 1] x1 slices_S8x3x512x512_S8x3x508x508_0_0_2_1))
/-- The running sum after tap 12: shift (2, 2), plane 12. -/
def acc13 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc12 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 12, 0, 0] x0 slices_S8x25x508x508_S8x1x508x508_0_12_0_0) shapeCasts_S8x1x508x508_S8x508x508))) (extractStridedSlice S8x3x508x508 ![0, 0, 2, 2] x1 slices_S8x3x512x512_S8x3x508x508_0_0_2_2))
/-- The running sum after tap 13: shift (2, 3), plane 13. -/
def acc14 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc13 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 13, 0, 0] x0 slices_S8x25x508x508_S8x1x508x508_0_13_0_0) shapeCasts_S8x1x508x508_S8x508x508))) (extractStridedSlice S8x3x508x508 ![0, 0, 2, 3] x1 slices_S8x3x512x512_S8x3x508x508_0_0_2_3))
/-- The running sum after tap 14: shift (2, 4), plane 14. -/
def acc15 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc14 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 14, 0, 0] x0 slices_S8x25x508x508_S8x1x508x508_0_14_0_0) shapeCasts_S8x1x508x508_S8x508x508))) (extractStridedSlice S8x3x508x508 ![0, 0, 2, 4] x1 slices_S8x3x512x512_S8x3x508x508_0_0_2_4))
/-- The running sum after tap 15: shift (3, 0), plane 15. -/
def acc16 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc15 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 15, 0, 0] x0 slices_S8x25x508x508_S8x1x508x508_0_15_0_0) shapeCasts_S8x1x508x508_S8x508x508))) (extractStridedSlice S8x3x508x508 ![0, 0, 3, 0] x1 slices_S8x3x512x512_S8x3x508x508_0_0_3_0))
/-- The running sum after tap 16: shift (3, 1), plane 16. -/
def acc17 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc16 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 16, 0, 0] x0 slices_S8x25x508x508_S8x1x508x508_0_16_0_0) shapeCasts_S8x1x508x508_S8x508x508))) (extractStridedSlice S8x3x508x508 ![0, 0, 3, 1] x1 slices_S8x3x512x512_S8x3x508x508_0_0_3_1))
/-- The running sum after tap 17: shift (3, 2), plane 17. -/
def acc18 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc17 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 17, 0, 0] x0 slices_S8x25x508x508_S8x1x508x508_0_17_0_0) shapeCasts_S8x1x508x508_S8x508x508))) (extractStridedSlice S8x3x508x508 ![0, 0, 3, 2] x1 slices_S8x3x512x512_S8x3x508x508_0_0_3_2))
/-- The running sum after tap 18: shift (3, 3), plane 18. -/
def acc19 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc18 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 18, 0, 0] x0 slices_S8x25x508x508_S8x1x508x508_0_18_0_0) shapeCasts_S8x1x508x508_S8x508x508))) (extractStridedSlice S8x3x508x508 ![0, 0, 3, 3] x1 slices_S8x3x512x512_S8x3x508x508_0_0_3_3))
/-- The running sum after tap 19: shift (3, 4), plane 19. -/
def acc20 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc19 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 19, 0, 0] x0 slices_S8x25x508x508_S8x1x508x508_0_19_0_0) shapeCasts_S8x1x508x508_S8x508x508))) (extractStridedSlice S8x3x508x508 ![0, 0, 3, 4] x1 slices_S8x3x512x512_S8x3x508x508_0_0_3_4))
/-- The running sum after tap 20: shift (4, 0), plane 20. -/
def acc21 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc20 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 20, 0, 0] x0 slices_S8x25x508x508_S8x1x508x508_0_20_0_0) shapeCasts_S8x1x508x508_S8x508x508))) (extractStridedSlice S8x3x508x508 ![0, 0, 4, 0] x1 slices_S8x3x512x512_S8x3x508x508_0_0_4_0))
/-- The running sum after tap 21: shift (4, 1), plane 21. -/
def acc22 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc21 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 21, 0, 0] x0 slices_S8x25x508x508_S8x1x508x508_0_21_0_0) shapeCasts_S8x1x508x508_S8x508x508))) (extractStridedSlice S8x3x508x508 ![0, 0, 4, 1] x1 slices_S8x3x512x512_S8x3x508x508_0_0_4_1))
/-- The running sum after tap 22: shift (4, 2), plane 22. -/
def acc23 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc22 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 22, 0, 0] x0 slices_S8x25x508x508_S8x1x508x508_0_22_0_0) shapeCasts_S8x1x508x508_S8x508x508))) (extractStridedSlice S8x3x508x508 ![0, 0, 4, 2] x1 slices_S8x3x512x512_S8x3x508x508_0_0_4_2))
/-- The running sum after tap 23: shift (4, 3), plane 23. -/
def acc24 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc23 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 23, 0, 0] x0 slices_S8x25x508x508_S8x1x508x508_0_23_0_0) shapeCasts_S8x1x508x508_S8x508x508))) (extractStridedSlice S8x3x508x508 ![0, 0, 4, 3] x1 slices_S8x3x512x512_S8x3x508x508_0_0_4_3))
/-- The running sum after tap 24: shift (4, 4), plane 24. -/
def acc25 (x0 : (⟨S8x25x508x508, .f32⟩ : BufTy).Contents (Elt F)) (x1 : (⟨S8x3x512x512, .f32⟩ : BufTy).Contents (Elt F)) : (⟨S8x3x508x508, .f32⟩ : BufTy).Contents (Elt F) :=
  addf (acc24 x0 x1) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 24, 0, 0] x0 slices_S8x25x508x508_S8x1x508x508_0_24_0_0) shapeCasts_S8x1x508x508_S8x508x508))) (extractStridedSlice S8x3x508x508 ![0, 0, 4, 4] x1 slices_S8x3x512x512_S8x3x508x508_0_0_4_4))

theorem zero_v0 (W : Valuation τ sig (Elt F)) : after zeroOps W (Proc.devRef .tc main_v0) = acc0 (F := F) := by
  after_results; rfl
theorem zero_arg0 (W : Valuation τ sig (Elt F)) : after zeroOps W (Proc.devRef .tc main_arg0) = W (Proc.devRef .tc main_arg0) := by
  after_results
theorem zero_arg1 (W : Valuation τ sig (Elt F)) : after zeroOps W (Proc.devRef .tc main_arg1) = W (Proc.devRef .tc main_arg1) := by
  after_results

theorem tap0_acc (W : Valuation τ sig (Elt F)) :
    after tap0 W (Proc.devRef .tc main_v7)
      = addf (W (Proc.devRef .tc main_v0)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 0, 0, 0] (W (Proc.devRef .tc main_arg0)) slices_S8x25x508x508_S8x1x508x508_0_0_0_0) shapeCasts_S8x1x508x508_S8x508x508))) (extractStridedSlice S8x3x508x508 ![0, 0, 0, 0] (W (Proc.devRef .tc main_arg1)) slices_S8x3x512x512_S8x3x508x508_0_0_0_0)) := by
  after_results; rfl
theorem tap0_arg0 (W : Valuation τ sig (Elt F)) : after tap0 W (Proc.devRef .tc main_arg0) = W (Proc.devRef .tc main_arg0) := by
  after_results
theorem tap0_arg1 (W : Valuation τ sig (Elt F)) : after tap0 W (Proc.devRef .tc main_arg1) = W (Proc.devRef .tc main_arg1) := by
  after_results

theorem tap1_acc (W : Valuation τ sig (Elt F)) :
    after tap1 W (Proc.devRef .tc main_v14)
      = addf (W (Proc.devRef .tc main_v7)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 1, 0, 0] (W (Proc.devRef .tc main_arg0)) slices_S8x25x508x508_S8x1x508x508_0_1_0_0) shapeCasts_S8x1x508x508_S8x508x508))) (extractStridedSlice S8x3x508x508 ![0, 0, 0, 1] (W (Proc.devRef .tc main_arg1)) slices_S8x3x512x512_S8x3x508x508_0_0_0_1)) := by
  after_results; rfl
theorem tap1_arg0 (W : Valuation τ sig (Elt F)) : after tap1 W (Proc.devRef .tc main_arg0) = W (Proc.devRef .tc main_arg0) := by
  after_results
theorem tap1_arg1 (W : Valuation τ sig (Elt F)) : after tap1 W (Proc.devRef .tc main_arg1) = W (Proc.devRef .tc main_arg1) := by
  after_results

theorem tap2_acc (W : Valuation τ sig (Elt F)) :
    after tap2 W (Proc.devRef .tc main_v21)
      = addf (W (Proc.devRef .tc main_v14)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 2, 0, 0] (W (Proc.devRef .tc main_arg0)) slices_S8x25x508x508_S8x1x508x508_0_2_0_0) shapeCasts_S8x1x508x508_S8x508x508))) (extractStridedSlice S8x3x508x508 ![0, 0, 0, 2] (W (Proc.devRef .tc main_arg1)) slices_S8x3x512x512_S8x3x508x508_0_0_0_2)) := by
  after_results; rfl
theorem tap2_arg0 (W : Valuation τ sig (Elt F)) : after tap2 W (Proc.devRef .tc main_arg0) = W (Proc.devRef .tc main_arg0) := by
  after_results
theorem tap2_arg1 (W : Valuation τ sig (Elt F)) : after tap2 W (Proc.devRef .tc main_arg1) = W (Proc.devRef .tc main_arg1) := by
  after_results

theorem tap3_acc (W : Valuation τ sig (Elt F)) :
    after tap3 W (Proc.devRef .tc main_v28)
      = addf (W (Proc.devRef .tc main_v21)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 3, 0, 0] (W (Proc.devRef .tc main_arg0)) slices_S8x25x508x508_S8x1x508x508_0_3_0_0) shapeCasts_S8x1x508x508_S8x508x508))) (extractStridedSlice S8x3x508x508 ![0, 0, 0, 3] (W (Proc.devRef .tc main_arg1)) slices_S8x3x512x512_S8x3x508x508_0_0_0_3)) := by
  after_results; rfl
theorem tap3_arg0 (W : Valuation τ sig (Elt F)) : after tap3 W (Proc.devRef .tc main_arg0) = W (Proc.devRef .tc main_arg0) := by
  after_results
theorem tap3_arg1 (W : Valuation τ sig (Elt F)) : after tap3 W (Proc.devRef .tc main_arg1) = W (Proc.devRef .tc main_arg1) := by
  after_results

theorem tap4_acc (W : Valuation τ sig (Elt F)) :
    after tap4 W (Proc.devRef .tc main_v35)
      = addf (W (Proc.devRef .tc main_v28)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 4, 0, 0] (W (Proc.devRef .tc main_arg0)) slices_S8x25x508x508_S8x1x508x508_0_4_0_0) shapeCasts_S8x1x508x508_S8x508x508))) (extractStridedSlice S8x3x508x508 ![0, 0, 0, 4] (W (Proc.devRef .tc main_arg1)) slices_S8x3x512x512_S8x3x508x508_0_0_0_4)) := by
  after_results; rfl
theorem tap4_arg0 (W : Valuation τ sig (Elt F)) : after tap4 W (Proc.devRef .tc main_arg0) = W (Proc.devRef .tc main_arg0) := by
  after_results
theorem tap4_arg1 (W : Valuation τ sig (Elt F)) : after tap4 W (Proc.devRef .tc main_arg1) = W (Proc.devRef .tc main_arg1) := by
  after_results

theorem tap5_acc (W : Valuation τ sig (Elt F)) :
    after tap5 W (Proc.devRef .tc main_v42)
      = addf (W (Proc.devRef .tc main_v35)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 5, 0, 0] (W (Proc.devRef .tc main_arg0)) slices_S8x25x508x508_S8x1x508x508_0_5_0_0) shapeCasts_S8x1x508x508_S8x508x508))) (extractStridedSlice S8x3x508x508 ![0, 0, 1, 0] (W (Proc.devRef .tc main_arg1)) slices_S8x3x512x512_S8x3x508x508_0_0_1_0)) := by
  after_results; rfl
theorem tap5_arg0 (W : Valuation τ sig (Elt F)) : after tap5 W (Proc.devRef .tc main_arg0) = W (Proc.devRef .tc main_arg0) := by
  after_results
theorem tap5_arg1 (W : Valuation τ sig (Elt F)) : after tap5 W (Proc.devRef .tc main_arg1) = W (Proc.devRef .tc main_arg1) := by
  after_results

theorem tap6_acc (W : Valuation τ sig (Elt F)) :
    after tap6 W (Proc.devRef .tc main_v49)
      = addf (W (Proc.devRef .tc main_v42)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 6, 0, 0] (W (Proc.devRef .tc main_arg0)) slices_S8x25x508x508_S8x1x508x508_0_6_0_0) shapeCasts_S8x1x508x508_S8x508x508))) (extractStridedSlice S8x3x508x508 ![0, 0, 1, 1] (W (Proc.devRef .tc main_arg1)) slices_S8x3x512x512_S8x3x508x508_0_0_1_1)) := by
  after_results; rfl
theorem tap6_arg0 (W : Valuation τ sig (Elt F)) : after tap6 W (Proc.devRef .tc main_arg0) = W (Proc.devRef .tc main_arg0) := by
  after_results
theorem tap6_arg1 (W : Valuation τ sig (Elt F)) : after tap6 W (Proc.devRef .tc main_arg1) = W (Proc.devRef .tc main_arg1) := by
  after_results

theorem tap7_acc (W : Valuation τ sig (Elt F)) :
    after tap7 W (Proc.devRef .tc main_v56)
      = addf (W (Proc.devRef .tc main_v49)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 7, 0, 0] (W (Proc.devRef .tc main_arg0)) slices_S8x25x508x508_S8x1x508x508_0_7_0_0) shapeCasts_S8x1x508x508_S8x508x508))) (extractStridedSlice S8x3x508x508 ![0, 0, 1, 2] (W (Proc.devRef .tc main_arg1)) slices_S8x3x512x512_S8x3x508x508_0_0_1_2)) := by
  after_results; rfl
theorem tap7_arg0 (W : Valuation τ sig (Elt F)) : after tap7 W (Proc.devRef .tc main_arg0) = W (Proc.devRef .tc main_arg0) := by
  after_results
theorem tap7_arg1 (W : Valuation τ sig (Elt F)) : after tap7 W (Proc.devRef .tc main_arg1) = W (Proc.devRef .tc main_arg1) := by
  after_results

theorem tap8_acc (W : Valuation τ sig (Elt F)) :
    after (tap8a ++ tap8b) W (Proc.devRef .tc main_v63)
      = addf (W (Proc.devRef .tc main_v56)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 8, 0, 0] (W (Proc.devRef .tc main_arg0)) slices_S8x25x508x508_S8x1x508x508_0_8_0_0) shapeCasts_S8x1x508x508_S8x508x508))) (extractStridedSlice S8x3x508x508 ![0, 0, 1, 3] (W (Proc.devRef .tc main_arg1)) slices_S8x3x512x512_S8x3x508x508_0_0_1_3)) := by
  simp only [List.cons_append, List.nil_append]
  after_results; rfl
theorem tap8_arg0 (W : Valuation τ sig (Elt F)) : after (tap8a ++ tap8b) W (Proc.devRef .tc main_arg0) = W (Proc.devRef .tc main_arg0) := by
  simp only [List.cons_append, List.nil_append]
  after_results
theorem tap8_arg1 (W : Valuation τ sig (Elt F)) : after (tap8a ++ tap8b) W (Proc.devRef .tc main_arg1) = W (Proc.devRef .tc main_arg1) := by
  simp only [List.cons_append, List.nil_append]
  after_results

theorem tap9_acc (W : Valuation τ sig (Elt F)) :
    after tap9 W (Proc.devRef .tc main_v70)
      = addf (W (Proc.devRef .tc main_v63)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 9, 0, 0] (W (Proc.devRef .tc main_arg0)) slices_S8x25x508x508_S8x1x508x508_0_9_0_0) shapeCasts_S8x1x508x508_S8x508x508))) (extractStridedSlice S8x3x508x508 ![0, 0, 1, 4] (W (Proc.devRef .tc main_arg1)) slices_S8x3x512x512_S8x3x508x508_0_0_1_4)) := by
  after_results; rfl
theorem tap9_arg0 (W : Valuation τ sig (Elt F)) : after tap9 W (Proc.devRef .tc main_arg0) = W (Proc.devRef .tc main_arg0) := by
  after_results
theorem tap9_arg1 (W : Valuation τ sig (Elt F)) : after tap9 W (Proc.devRef .tc main_arg1) = W (Proc.devRef .tc main_arg1) := by
  after_results

theorem tap10_acc (W : Valuation τ sig (Elt F)) :
    after tap10 W (Proc.devRef .tc main_v77)
      = addf (W (Proc.devRef .tc main_v70)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 10, 0, 0] (W (Proc.devRef .tc main_arg0)) slices_S8x25x508x508_S8x1x508x508_0_10_0_0) shapeCasts_S8x1x508x508_S8x508x508))) (extractStridedSlice S8x3x508x508 ![0, 0, 2, 0] (W (Proc.devRef .tc main_arg1)) slices_S8x3x512x512_S8x3x508x508_0_0_2_0)) := by
  after_results; rfl
theorem tap10_arg0 (W : Valuation τ sig (Elt F)) : after tap10 W (Proc.devRef .tc main_arg0) = W (Proc.devRef .tc main_arg0) := by
  after_results
theorem tap10_arg1 (W : Valuation τ sig (Elt F)) : after tap10 W (Proc.devRef .tc main_arg1) = W (Proc.devRef .tc main_arg1) := by
  after_results

theorem tap11_acc (W : Valuation τ sig (Elt F)) :
    after tap11 W (Proc.devRef .tc main_v84)
      = addf (W (Proc.devRef .tc main_v77)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 11, 0, 0] (W (Proc.devRef .tc main_arg0)) slices_S8x25x508x508_S8x1x508x508_0_11_0_0) shapeCasts_S8x1x508x508_S8x508x508))) (extractStridedSlice S8x3x508x508 ![0, 0, 2, 1] (W (Proc.devRef .tc main_arg1)) slices_S8x3x512x512_S8x3x508x508_0_0_2_1)) := by
  after_results; rfl
theorem tap11_arg0 (W : Valuation τ sig (Elt F)) : after tap11 W (Proc.devRef .tc main_arg0) = W (Proc.devRef .tc main_arg0) := by
  after_results
theorem tap11_arg1 (W : Valuation τ sig (Elt F)) : after tap11 W (Proc.devRef .tc main_arg1) = W (Proc.devRef .tc main_arg1) := by
  after_results

theorem tap12_acc (W : Valuation τ sig (Elt F)) :
    after tap12 W (Proc.devRef .tc main_v91)
      = addf (W (Proc.devRef .tc main_v84)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 12, 0, 0] (W (Proc.devRef .tc main_arg0)) slices_S8x25x508x508_S8x1x508x508_0_12_0_0) shapeCasts_S8x1x508x508_S8x508x508))) (extractStridedSlice S8x3x508x508 ![0, 0, 2, 2] (W (Proc.devRef .tc main_arg1)) slices_S8x3x512x512_S8x3x508x508_0_0_2_2)) := by
  after_results; rfl
theorem tap12_arg0 (W : Valuation τ sig (Elt F)) : after tap12 W (Proc.devRef .tc main_arg0) = W (Proc.devRef .tc main_arg0) := by
  after_results
theorem tap12_arg1 (W : Valuation τ sig (Elt F)) : after tap12 W (Proc.devRef .tc main_arg1) = W (Proc.devRef .tc main_arg1) := by
  after_results

theorem tap13_acc (W : Valuation τ sig (Elt F)) :
    after tap13 W (Proc.devRef .tc main_v98)
      = addf (W (Proc.devRef .tc main_v91)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 13, 0, 0] (W (Proc.devRef .tc main_arg0)) slices_S8x25x508x508_S8x1x508x508_0_13_0_0) shapeCasts_S8x1x508x508_S8x508x508))) (extractStridedSlice S8x3x508x508 ![0, 0, 2, 3] (W (Proc.devRef .tc main_arg1)) slices_S8x3x512x512_S8x3x508x508_0_0_2_3)) := by
  after_results; rfl
theorem tap13_arg0 (W : Valuation τ sig (Elt F)) : after tap13 W (Proc.devRef .tc main_arg0) = W (Proc.devRef .tc main_arg0) := by
  after_results
theorem tap13_arg1 (W : Valuation τ sig (Elt F)) : after tap13 W (Proc.devRef .tc main_arg1) = W (Proc.devRef .tc main_arg1) := by
  after_results

theorem tap14_acc (W : Valuation τ sig (Elt F)) :
    after tap14 W (Proc.devRef .tc main_v105)
      = addf (W (Proc.devRef .tc main_v98)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 14, 0, 0] (W (Proc.devRef .tc main_arg0)) slices_S8x25x508x508_S8x1x508x508_0_14_0_0) shapeCasts_S8x1x508x508_S8x508x508))) (extractStridedSlice S8x3x508x508 ![0, 0, 2, 4] (W (Proc.devRef .tc main_arg1)) slices_S8x3x512x512_S8x3x508x508_0_0_2_4)) := by
  after_results; rfl
theorem tap14_arg0 (W : Valuation τ sig (Elt F)) : after tap14 W (Proc.devRef .tc main_arg0) = W (Proc.devRef .tc main_arg0) := by
  after_results
theorem tap14_arg1 (W : Valuation τ sig (Elt F)) : after tap14 W (Proc.devRef .tc main_arg1) = W (Proc.devRef .tc main_arg1) := by
  after_results

theorem tap15_acc (W : Valuation τ sig (Elt F)) :
    after tap15 W (Proc.devRef .tc main_v112)
      = addf (W (Proc.devRef .tc main_v105)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 15, 0, 0] (W (Proc.devRef .tc main_arg0)) slices_S8x25x508x508_S8x1x508x508_0_15_0_0) shapeCasts_S8x1x508x508_S8x508x508))) (extractStridedSlice S8x3x508x508 ![0, 0, 3, 0] (W (Proc.devRef .tc main_arg1)) slices_S8x3x512x512_S8x3x508x508_0_0_3_0)) := by
  after_results; rfl
theorem tap15_arg0 (W : Valuation τ sig (Elt F)) : after tap15 W (Proc.devRef .tc main_arg0) = W (Proc.devRef .tc main_arg0) := by
  after_results
theorem tap15_arg1 (W : Valuation τ sig (Elt F)) : after tap15 W (Proc.devRef .tc main_arg1) = W (Proc.devRef .tc main_arg1) := by
  after_results

theorem tap16_acc (W : Valuation τ sig (Elt F)) :
    after (tap16a ++ tap16b) W (Proc.devRef .tc main_v119)
      = addf (W (Proc.devRef .tc main_v112)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 16, 0, 0] (W (Proc.devRef .tc main_arg0)) slices_S8x25x508x508_S8x1x508x508_0_16_0_0) shapeCasts_S8x1x508x508_S8x508x508))) (extractStridedSlice S8x3x508x508 ![0, 0, 3, 1] (W (Proc.devRef .tc main_arg1)) slices_S8x3x512x512_S8x3x508x508_0_0_3_1)) := by
  simp only [List.cons_append, List.nil_append]
  after_results; rfl
theorem tap16_arg0 (W : Valuation τ sig (Elt F)) : after (tap16a ++ tap16b) W (Proc.devRef .tc main_arg0) = W (Proc.devRef .tc main_arg0) := by
  simp only [List.cons_append, List.nil_append]
  after_results
theorem tap16_arg1 (W : Valuation τ sig (Elt F)) : after (tap16a ++ tap16b) W (Proc.devRef .tc main_arg1) = W (Proc.devRef .tc main_arg1) := by
  simp only [List.cons_append, List.nil_append]
  after_results

theorem tap17_acc (W : Valuation τ sig (Elt F)) :
    after tap17 W (Proc.devRef .tc main_v126)
      = addf (W (Proc.devRef .tc main_v119)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 17, 0, 0] (W (Proc.devRef .tc main_arg0)) slices_S8x25x508x508_S8x1x508x508_0_17_0_0) shapeCasts_S8x1x508x508_S8x508x508))) (extractStridedSlice S8x3x508x508 ![0, 0, 3, 2] (W (Proc.devRef .tc main_arg1)) slices_S8x3x512x512_S8x3x508x508_0_0_3_2)) := by
  after_results; rfl
theorem tap17_arg0 (W : Valuation τ sig (Elt F)) : after tap17 W (Proc.devRef .tc main_arg0) = W (Proc.devRef .tc main_arg0) := by
  after_results
theorem tap17_arg1 (W : Valuation τ sig (Elt F)) : after tap17 W (Proc.devRef .tc main_arg1) = W (Proc.devRef .tc main_arg1) := by
  after_results

theorem tap18_acc (W : Valuation τ sig (Elt F)) :
    after tap18 W (Proc.devRef .tc main_v133)
      = addf (W (Proc.devRef .tc main_v126)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 18, 0, 0] (W (Proc.devRef .tc main_arg0)) slices_S8x25x508x508_S8x1x508x508_0_18_0_0) shapeCasts_S8x1x508x508_S8x508x508))) (extractStridedSlice S8x3x508x508 ![0, 0, 3, 3] (W (Proc.devRef .tc main_arg1)) slices_S8x3x512x512_S8x3x508x508_0_0_3_3)) := by
  after_results; rfl
theorem tap18_arg0 (W : Valuation τ sig (Elt F)) : after tap18 W (Proc.devRef .tc main_arg0) = W (Proc.devRef .tc main_arg0) := by
  after_results
theorem tap18_arg1 (W : Valuation τ sig (Elt F)) : after tap18 W (Proc.devRef .tc main_arg1) = W (Proc.devRef .tc main_arg1) := by
  after_results

theorem tap19_acc (W : Valuation τ sig (Elt F)) :
    after tap19 W (Proc.devRef .tc main_v140)
      = addf (W (Proc.devRef .tc main_v133)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 19, 0, 0] (W (Proc.devRef .tc main_arg0)) slices_S8x25x508x508_S8x1x508x508_0_19_0_0) shapeCasts_S8x1x508x508_S8x508x508))) (extractStridedSlice S8x3x508x508 ![0, 0, 3, 4] (W (Proc.devRef .tc main_arg1)) slices_S8x3x512x512_S8x3x508x508_0_0_3_4)) := by
  after_results; rfl
theorem tap19_arg0 (W : Valuation τ sig (Elt F)) : after tap19 W (Proc.devRef .tc main_arg0) = W (Proc.devRef .tc main_arg0) := by
  after_results
theorem tap19_arg1 (W : Valuation τ sig (Elt F)) : after tap19 W (Proc.devRef .tc main_arg1) = W (Proc.devRef .tc main_arg1) := by
  after_results

theorem tap20_acc (W : Valuation τ sig (Elt F)) :
    after tap20 W (Proc.devRef .tc main_v147)
      = addf (W (Proc.devRef .tc main_v140)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 20, 0, 0] (W (Proc.devRef .tc main_arg0)) slices_S8x25x508x508_S8x1x508x508_0_20_0_0) shapeCasts_S8x1x508x508_S8x508x508))) (extractStridedSlice S8x3x508x508 ![0, 0, 4, 0] (W (Proc.devRef .tc main_arg1)) slices_S8x3x512x512_S8x3x508x508_0_0_4_0)) := by
  after_results; rfl
theorem tap20_arg0 (W : Valuation τ sig (Elt F)) : after tap20 W (Proc.devRef .tc main_arg0) = W (Proc.devRef .tc main_arg0) := by
  after_results
theorem tap20_arg1 (W : Valuation τ sig (Elt F)) : after tap20 W (Proc.devRef .tc main_arg1) = W (Proc.devRef .tc main_arg1) := by
  after_results

theorem tap21_acc (W : Valuation τ sig (Elt F)) :
    after tap21 W (Proc.devRef .tc main_v154)
      = addf (W (Proc.devRef .tc main_v147)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 21, 0, 0] (W (Proc.devRef .tc main_arg0)) slices_S8x25x508x508_S8x1x508x508_0_21_0_0) shapeCasts_S8x1x508x508_S8x508x508))) (extractStridedSlice S8x3x508x508 ![0, 0, 4, 1] (W (Proc.devRef .tc main_arg1)) slices_S8x3x512x512_S8x3x508x508_0_0_4_1)) := by
  after_results; rfl
theorem tap21_arg0 (W : Valuation τ sig (Elt F)) : after tap21 W (Proc.devRef .tc main_arg0) = W (Proc.devRef .tc main_arg0) := by
  after_results
theorem tap21_arg1 (W : Valuation τ sig (Elt F)) : after tap21 W (Proc.devRef .tc main_arg1) = W (Proc.devRef .tc main_arg1) := by
  after_results

theorem tap22_acc (W : Valuation τ sig (Elt F)) :
    after tap22 W (Proc.devRef .tc main_v161)
      = addf (W (Proc.devRef .tc main_v154)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 22, 0, 0] (W (Proc.devRef .tc main_arg0)) slices_S8x25x508x508_S8x1x508x508_0_22_0_0) shapeCasts_S8x1x508x508_S8x508x508))) (extractStridedSlice S8x3x508x508 ![0, 0, 4, 2] (W (Proc.devRef .tc main_arg1)) slices_S8x3x512x512_S8x3x508x508_0_0_4_2)) := by
  after_results; rfl
theorem tap22_arg0 (W : Valuation τ sig (Elt F)) : after tap22 W (Proc.devRef .tc main_arg0) = W (Proc.devRef .tc main_arg0) := by
  after_results
theorem tap22_arg1 (W : Valuation τ sig (Elt F)) : after tap22 W (Proc.devRef .tc main_arg1) = W (Proc.devRef .tc main_arg1) := by
  after_results

theorem tap23_acc (W : Valuation τ sig (Elt F)) :
    after tap23 W (Proc.devRef .tc main_v168)
      = addf (W (Proc.devRef .tc main_v161)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 23, 0, 0] (W (Proc.devRef .tc main_arg0)) slices_S8x25x508x508_S8x1x508x508_0_23_0_0) shapeCasts_S8x1x508x508_S8x508x508))) (extractStridedSlice S8x3x508x508 ![0, 0, 4, 3] (W (Proc.devRef .tc main_arg1)) slices_S8x3x512x512_S8x3x508x508_0_0_4_3)) := by
  after_results; rfl
theorem tap23_arg0 (W : Valuation τ sig (Elt F)) : after tap23 W (Proc.devRef .tc main_arg0) = W (Proc.devRef .tc main_arg0) := by
  after_results
theorem tap23_arg1 (W : Valuation τ sig (Elt F)) : after tap23 W (Proc.devRef .tc main_arg1) = W (Proc.devRef .tc main_arg1) := by
  after_results

theorem tap24_acc (W : Valuation τ sig (Elt F)) :
    after tap24 W (Proc.devRef .tc main_v175)
      = addf (W (Proc.devRef .tc main_v168)) (mulf (broadcastInDim S8x3x508x508 ![0, 1, 2, 3] bcast_S8x1x508x508_S8x3x508x508_0_1_2_3 (broadcastInDim S8x1x508x508 ![0, 2, 3] bcast_S8x508x508_S8x1x508x508_0_2_3 (shapeCast S8x508x508 (extractStridedSlice S8x1x508x508 ![0, 24, 0, 0] (W (Proc.devRef .tc main_arg0)) slices_S8x25x508x508_S8x1x508x508_0_24_0_0) shapeCasts_S8x1x508x508_S8x508x508))) (extractStridedSlice S8x3x508x508 ![0, 0, 4, 4] (W (Proc.devRef .tc main_arg1)) slices_S8x3x512x512_S8x3x508x508_0_0_4_4)) := by
  after_results; rfl
theorem tap24_arg0 (W : Valuation τ sig (Elt F)) : after tap24 W (Proc.devRef .tc main_arg0) = W (Proc.devRef .tc main_arg0) := by
  after_results
theorem tap24_arg1 (W : Valuation τ sig (Elt F)) : after tap24 W (Proc.devRef .tc main_arg1) = W (Proc.devRef .tc main_arg1) := by
  after_results

/-! ## The fold through the taps: the running sum, and the arguments untouched -/

/-- The buffers after the zero array and the first k taps. -/
def val0 (V : Valuation τ sig (Elt F)) : Valuation τ sig (Elt F) := after zeroOps V
def val1 (V : Valuation τ sig (Elt F)) : Valuation τ sig (Elt F) := after tap0 (val0 V)
def val2 (V : Valuation τ sig (Elt F)) : Valuation τ sig (Elt F) := after tap1 (val1 V)
def val3 (V : Valuation τ sig (Elt F)) : Valuation τ sig (Elt F) := after tap2 (val2 V)
def val4 (V : Valuation τ sig (Elt F)) : Valuation τ sig (Elt F) := after tap3 (val3 V)
def val5 (V : Valuation τ sig (Elt F)) : Valuation τ sig (Elt F) := after tap4 (val4 V)
def val6 (V : Valuation τ sig (Elt F)) : Valuation τ sig (Elt F) := after tap5 (val5 V)
def val7 (V : Valuation τ sig (Elt F)) : Valuation τ sig (Elt F) := after tap6 (val6 V)
def val8 (V : Valuation τ sig (Elt F)) : Valuation τ sig (Elt F) := after tap7 (val7 V)
def val9 (V : Valuation τ sig (Elt F)) : Valuation τ sig (Elt F) := after (tap8a ++ tap8b) (val8 V)
def val10 (V : Valuation τ sig (Elt F)) : Valuation τ sig (Elt F) := after tap9 (val9 V)
def val11 (V : Valuation τ sig (Elt F)) : Valuation τ sig (Elt F) := after tap10 (val10 V)
def val12 (V : Valuation τ sig (Elt F)) : Valuation τ sig (Elt F) := after tap11 (val11 V)
def val13 (V : Valuation τ sig (Elt F)) : Valuation τ sig (Elt F) := after tap12 (val12 V)
def val14 (V : Valuation τ sig (Elt F)) : Valuation τ sig (Elt F) := after tap13 (val13 V)
def val15 (V : Valuation τ sig (Elt F)) : Valuation τ sig (Elt F) := after tap14 (val14 V)
def val16 (V : Valuation τ sig (Elt F)) : Valuation τ sig (Elt F) := after tap15 (val15 V)
def val17 (V : Valuation τ sig (Elt F)) : Valuation τ sig (Elt F) := after (tap16a ++ tap16b) (val16 V)
def val18 (V : Valuation τ sig (Elt F)) : Valuation τ sig (Elt F) := after tap17 (val17 V)
def val19 (V : Valuation τ sig (Elt F)) : Valuation τ sig (Elt F) := after tap18 (val18 V)
def val20 (V : Valuation τ sig (Elt F)) : Valuation τ sig (Elt F) := after tap19 (val19 V)
def val21 (V : Valuation τ sig (Elt F)) : Valuation τ sig (Elt F) := after tap20 (val20 V)
def val22 (V : Valuation τ sig (Elt F)) : Valuation τ sig (Elt F) := after tap21 (val21 V)
def val23 (V : Valuation τ sig (Elt F)) : Valuation τ sig (Elt F) := after tap22 (val22 V)
def val24 (V : Valuation τ sig (Elt F)) : Valuation τ sig (Elt F) := after tap23 (val23 V)
def val25 (V : Valuation τ sig (Elt F)) : Valuation τ sig (Elt F) := after tap24 (val24 V)

theorem inv0 (V : Valuation τ sig (Elt F)) :
    val0 V (Proc.devRef .tc main_v0) = acc0 (F := F)
    ∧ val0 V (Proc.devRef .tc main_arg0) = V (Proc.devRef .tc main_arg0)
    ∧ val0 V (Proc.devRef .tc main_arg1) = V (Proc.devRef .tc main_arg1) :=
  ⟨zero_v0 V, zero_arg0 V, zero_arg1 V⟩

theorem inv1 (V : Valuation τ sig (Elt F)) :
    val1 V (Proc.devRef .tc main_v7) = acc1 (V (Proc.devRef .tc main_arg0)) (V (Proc.devRef .tc main_arg1))
    ∧ val1 V (Proc.devRef .tc main_arg0) = V (Proc.devRef .tc main_arg0)
    ∧ val1 V (Proc.devRef .tc main_arg1) = V (Proc.devRef .tc main_arg1) := by
  obtain ⟨h, h0, h1⟩ := inv0 V
  refine ⟨?_, (tap0_arg0 _).trans h0, (tap0_arg1 _).trans h1⟩
  unfold val1
  rw [tap0_acc, h, h0, h1]
  rfl

theorem inv2 (V : Valuation τ sig (Elt F)) :
    val2 V (Proc.devRef .tc main_v14) = acc2 (V (Proc.devRef .tc main_arg0)) (V (Proc.devRef .tc main_arg1))
    ∧ val2 V (Proc.devRef .tc main_arg0) = V (Proc.devRef .tc main_arg0)
    ∧ val2 V (Proc.devRef .tc main_arg1) = V (Proc.devRef .tc main_arg1) := by
  obtain ⟨h, h0, h1⟩ := inv1 V
  refine ⟨?_, (tap1_arg0 _).trans h0, (tap1_arg1 _).trans h1⟩
  unfold val2
  rw [tap1_acc, h, h0, h1]
  rfl

theorem inv3 (V : Valuation τ sig (Elt F)) :
    val3 V (Proc.devRef .tc main_v21) = acc3 (V (Proc.devRef .tc main_arg0)) (V (Proc.devRef .tc main_arg1))
    ∧ val3 V (Proc.devRef .tc main_arg0) = V (Proc.devRef .tc main_arg0)
    ∧ val3 V (Proc.devRef .tc main_arg1) = V (Proc.devRef .tc main_arg1) := by
  obtain ⟨h, h0, h1⟩ := inv2 V
  refine ⟨?_, (tap2_arg0 _).trans h0, (tap2_arg1 _).trans h1⟩
  unfold val3
  rw [tap2_acc, h, h0, h1]
  rfl

theorem inv4 (V : Valuation τ sig (Elt F)) :
    val4 V (Proc.devRef .tc main_v28) = acc4 (V (Proc.devRef .tc main_arg0)) (V (Proc.devRef .tc main_arg1))
    ∧ val4 V (Proc.devRef .tc main_arg0) = V (Proc.devRef .tc main_arg0)
    ∧ val4 V (Proc.devRef .tc main_arg1) = V (Proc.devRef .tc main_arg1) := by
  obtain ⟨h, h0, h1⟩ := inv3 V
  refine ⟨?_, (tap3_arg0 _).trans h0, (tap3_arg1 _).trans h1⟩
  unfold val4
  rw [tap3_acc, h, h0, h1]
  rfl

theorem inv5 (V : Valuation τ sig (Elt F)) :
    val5 V (Proc.devRef .tc main_v35) = acc5 (V (Proc.devRef .tc main_arg0)) (V (Proc.devRef .tc main_arg1))
    ∧ val5 V (Proc.devRef .tc main_arg0) = V (Proc.devRef .tc main_arg0)
    ∧ val5 V (Proc.devRef .tc main_arg1) = V (Proc.devRef .tc main_arg1) := by
  obtain ⟨h, h0, h1⟩ := inv4 V
  refine ⟨?_, (tap4_arg0 _).trans h0, (tap4_arg1 _).trans h1⟩
  unfold val5
  rw [tap4_acc, h, h0, h1]
  rfl

theorem inv6 (V : Valuation τ sig (Elt F)) :
    val6 V (Proc.devRef .tc main_v42) = acc6 (V (Proc.devRef .tc main_arg0)) (V (Proc.devRef .tc main_arg1))
    ∧ val6 V (Proc.devRef .tc main_arg0) = V (Proc.devRef .tc main_arg0)
    ∧ val6 V (Proc.devRef .tc main_arg1) = V (Proc.devRef .tc main_arg1) := by
  obtain ⟨h, h0, h1⟩ := inv5 V
  refine ⟨?_, (tap5_arg0 _).trans h0, (tap5_arg1 _).trans h1⟩
  unfold val6
  rw [tap5_acc, h, h0, h1]
  rfl

theorem inv7 (V : Valuation τ sig (Elt F)) :
    val7 V (Proc.devRef .tc main_v49) = acc7 (V (Proc.devRef .tc main_arg0)) (V (Proc.devRef .tc main_arg1))
    ∧ val7 V (Proc.devRef .tc main_arg0) = V (Proc.devRef .tc main_arg0)
    ∧ val7 V (Proc.devRef .tc main_arg1) = V (Proc.devRef .tc main_arg1) := by
  obtain ⟨h, h0, h1⟩ := inv6 V
  refine ⟨?_, (tap6_arg0 _).trans h0, (tap6_arg1 _).trans h1⟩
  unfold val7
  rw [tap6_acc, h, h0, h1]
  rfl

theorem inv8 (V : Valuation τ sig (Elt F)) :
    val8 V (Proc.devRef .tc main_v56) = acc8 (V (Proc.devRef .tc main_arg0)) (V (Proc.devRef .tc main_arg1))
    ∧ val8 V (Proc.devRef .tc main_arg0) = V (Proc.devRef .tc main_arg0)
    ∧ val8 V (Proc.devRef .tc main_arg1) = V (Proc.devRef .tc main_arg1) := by
  obtain ⟨h, h0, h1⟩ := inv7 V
  refine ⟨?_, (tap7_arg0 _).trans h0, (tap7_arg1 _).trans h1⟩
  unfold val8
  rw [tap7_acc, h, h0, h1]
  rfl

theorem inv9 (V : Valuation τ sig (Elt F)) :
    val9 V (Proc.devRef .tc main_v63) = acc9 (V (Proc.devRef .tc main_arg0)) (V (Proc.devRef .tc main_arg1))
    ∧ val9 V (Proc.devRef .tc main_arg0) = V (Proc.devRef .tc main_arg0)
    ∧ val9 V (Proc.devRef .tc main_arg1) = V (Proc.devRef .tc main_arg1) := by
  obtain ⟨h, h0, h1⟩ := inv8 V
  refine ⟨?_, (tap8_arg0 _).trans h0, (tap8_arg1 _).trans h1⟩
  unfold val9
  rw [tap8_acc, h, h0, h1]
  rfl

theorem inv10 (V : Valuation τ sig (Elt F)) :
    val10 V (Proc.devRef .tc main_v70) = acc10 (V (Proc.devRef .tc main_arg0)) (V (Proc.devRef .tc main_arg1))
    ∧ val10 V (Proc.devRef .tc main_arg0) = V (Proc.devRef .tc main_arg0)
    ∧ val10 V (Proc.devRef .tc main_arg1) = V (Proc.devRef .tc main_arg1) := by
  obtain ⟨h, h0, h1⟩ := inv9 V
  refine ⟨?_, (tap9_arg0 _).trans h0, (tap9_arg1 _).trans h1⟩
  unfold val10
  rw [tap9_acc, h, h0, h1]
  rfl

theorem inv11 (V : Valuation τ sig (Elt F)) :
    val11 V (Proc.devRef .tc main_v77) = acc11 (V (Proc.devRef .tc main_arg0)) (V (Proc.devRef .tc main_arg1))
    ∧ val11 V (Proc.devRef .tc main_arg0) = V (Proc.devRef .tc main_arg0)
    ∧ val11 V (Proc.devRef .tc main_arg1) = V (Proc.devRef .tc main_arg1) := by
  obtain ⟨h, h0, h1⟩ := inv10 V
  refine ⟨?_, (tap10_arg0 _).trans h0, (tap10_arg1 _).trans h1⟩
  unfold val11
  rw [tap10_acc, h, h0, h1]
  rfl

theorem inv12 (V : Valuation τ sig (Elt F)) :
    val12 V (Proc.devRef .tc main_v84) = acc12 (V (Proc.devRef .tc main_arg0)) (V (Proc.devRef .tc main_arg1))
    ∧ val12 V (Proc.devRef .tc main_arg0) = V (Proc.devRef .tc main_arg0)
    ∧ val12 V (Proc.devRef .tc main_arg1) = V (Proc.devRef .tc main_arg1) := by
  obtain ⟨h, h0, h1⟩ := inv11 V
  refine ⟨?_, (tap11_arg0 _).trans h0, (tap11_arg1 _).trans h1⟩
  unfold val12
  rw [tap11_acc, h, h0, h1]
  rfl

theorem inv13 (V : Valuation τ sig (Elt F)) :
    val13 V (Proc.devRef .tc main_v91) = acc13 (V (Proc.devRef .tc main_arg0)) (V (Proc.devRef .tc main_arg1))
    ∧ val13 V (Proc.devRef .tc main_arg0) = V (Proc.devRef .tc main_arg0)
    ∧ val13 V (Proc.devRef .tc main_arg1) = V (Proc.devRef .tc main_arg1) := by
  obtain ⟨h, h0, h1⟩ := inv12 V
  refine ⟨?_, (tap12_arg0 _).trans h0, (tap12_arg1 _).trans h1⟩
  unfold val13
  rw [tap12_acc, h, h0, h1]
  rfl

theorem inv14 (V : Valuation τ sig (Elt F)) :
    val14 V (Proc.devRef .tc main_v98) = acc14 (V (Proc.devRef .tc main_arg0)) (V (Proc.devRef .tc main_arg1))
    ∧ val14 V (Proc.devRef .tc main_arg0) = V (Proc.devRef .tc main_arg0)
    ∧ val14 V (Proc.devRef .tc main_arg1) = V (Proc.devRef .tc main_arg1) := by
  obtain ⟨h, h0, h1⟩ := inv13 V
  refine ⟨?_, (tap13_arg0 _).trans h0, (tap13_arg1 _).trans h1⟩
  unfold val14
  rw [tap13_acc, h, h0, h1]
  rfl

theorem inv15 (V : Valuation τ sig (Elt F)) :
    val15 V (Proc.devRef .tc main_v105) = acc15 (V (Proc.devRef .tc main_arg0)) (V (Proc.devRef .tc main_arg1))
    ∧ val15 V (Proc.devRef .tc main_arg0) = V (Proc.devRef .tc main_arg0)
    ∧ val15 V (Proc.devRef .tc main_arg1) = V (Proc.devRef .tc main_arg1) := by
  obtain ⟨h, h0, h1⟩ := inv14 V
  refine ⟨?_, (tap14_arg0 _).trans h0, (tap14_arg1 _).trans h1⟩
  unfold val15
  rw [tap14_acc, h, h0, h1]
  rfl

theorem inv16 (V : Valuation τ sig (Elt F)) :
    val16 V (Proc.devRef .tc main_v112) = acc16 (V (Proc.devRef .tc main_arg0)) (V (Proc.devRef .tc main_arg1))
    ∧ val16 V (Proc.devRef .tc main_arg0) = V (Proc.devRef .tc main_arg0)
    ∧ val16 V (Proc.devRef .tc main_arg1) = V (Proc.devRef .tc main_arg1) := by
  obtain ⟨h, h0, h1⟩ := inv15 V
  refine ⟨?_, (tap15_arg0 _).trans h0, (tap15_arg1 _).trans h1⟩
  unfold val16
  rw [tap15_acc, h, h0, h1]
  rfl

theorem inv17 (V : Valuation τ sig (Elt F)) :
    val17 V (Proc.devRef .tc main_v119) = acc17 (V (Proc.devRef .tc main_arg0)) (V (Proc.devRef .tc main_arg1))
    ∧ val17 V (Proc.devRef .tc main_arg0) = V (Proc.devRef .tc main_arg0)
    ∧ val17 V (Proc.devRef .tc main_arg1) = V (Proc.devRef .tc main_arg1) := by
  obtain ⟨h, h0, h1⟩ := inv16 V
  refine ⟨?_, (tap16_arg0 _).trans h0, (tap16_arg1 _).trans h1⟩
  unfold val17
  rw [tap16_acc, h, h0, h1]
  rfl

theorem inv18 (V : Valuation τ sig (Elt F)) :
    val18 V (Proc.devRef .tc main_v126) = acc18 (V (Proc.devRef .tc main_arg0)) (V (Proc.devRef .tc main_arg1))
    ∧ val18 V (Proc.devRef .tc main_arg0) = V (Proc.devRef .tc main_arg0)
    ∧ val18 V (Proc.devRef .tc main_arg1) = V (Proc.devRef .tc main_arg1) := by
  obtain ⟨h, h0, h1⟩ := inv17 V
  refine ⟨?_, (tap17_arg0 _).trans h0, (tap17_arg1 _).trans h1⟩
  unfold val18
  rw [tap17_acc, h, h0, h1]
  rfl

theorem inv19 (V : Valuation τ sig (Elt F)) :
    val19 V (Proc.devRef .tc main_v133) = acc19 (V (Proc.devRef .tc main_arg0)) (V (Proc.devRef .tc main_arg1))
    ∧ val19 V (Proc.devRef .tc main_arg0) = V (Proc.devRef .tc main_arg0)
    ∧ val19 V (Proc.devRef .tc main_arg1) = V (Proc.devRef .tc main_arg1) := by
  obtain ⟨h, h0, h1⟩ := inv18 V
  refine ⟨?_, (tap18_arg0 _).trans h0, (tap18_arg1 _).trans h1⟩
  unfold val19
  rw [tap18_acc, h, h0, h1]
  rfl

theorem inv20 (V : Valuation τ sig (Elt F)) :
    val20 V (Proc.devRef .tc main_v140) = acc20 (V (Proc.devRef .tc main_arg0)) (V (Proc.devRef .tc main_arg1))
    ∧ val20 V (Proc.devRef .tc main_arg0) = V (Proc.devRef .tc main_arg0)
    ∧ val20 V (Proc.devRef .tc main_arg1) = V (Proc.devRef .tc main_arg1) := by
  obtain ⟨h, h0, h1⟩ := inv19 V
  refine ⟨?_, (tap19_arg0 _).trans h0, (tap19_arg1 _).trans h1⟩
  unfold val20
  rw [tap19_acc, h, h0, h1]
  rfl

theorem inv21 (V : Valuation τ sig (Elt F)) :
    val21 V (Proc.devRef .tc main_v147) = acc21 (V (Proc.devRef .tc main_arg0)) (V (Proc.devRef .tc main_arg1))
    ∧ val21 V (Proc.devRef .tc main_arg0) = V (Proc.devRef .tc main_arg0)
    ∧ val21 V (Proc.devRef .tc main_arg1) = V (Proc.devRef .tc main_arg1) := by
  obtain ⟨h, h0, h1⟩ := inv20 V
  refine ⟨?_, (tap20_arg0 _).trans h0, (tap20_arg1 _).trans h1⟩
  unfold val21
  rw [tap20_acc, h, h0, h1]
  rfl

theorem inv22 (V : Valuation τ sig (Elt F)) :
    val22 V (Proc.devRef .tc main_v154) = acc22 (V (Proc.devRef .tc main_arg0)) (V (Proc.devRef .tc main_arg1))
    ∧ val22 V (Proc.devRef .tc main_arg0) = V (Proc.devRef .tc main_arg0)
    ∧ val22 V (Proc.devRef .tc main_arg1) = V (Proc.devRef .tc main_arg1) := by
  obtain ⟨h, h0, h1⟩ := inv21 V
  refine ⟨?_, (tap21_arg0 _).trans h0, (tap21_arg1 _).trans h1⟩
  unfold val22
  rw [tap21_acc, h, h0, h1]
  rfl

theorem inv23 (V : Valuation τ sig (Elt F)) :
    val23 V (Proc.devRef .tc main_v161) = acc23 (V (Proc.devRef .tc main_arg0)) (V (Proc.devRef .tc main_arg1))
    ∧ val23 V (Proc.devRef .tc main_arg0) = V (Proc.devRef .tc main_arg0)
    ∧ val23 V (Proc.devRef .tc main_arg1) = V (Proc.devRef .tc main_arg1) := by
  obtain ⟨h, h0, h1⟩ := inv22 V
  refine ⟨?_, (tap22_arg0 _).trans h0, (tap22_arg1 _).trans h1⟩
  unfold val23
  rw [tap22_acc, h, h0, h1]
  rfl

theorem inv24 (V : Valuation τ sig (Elt F)) :
    val24 V (Proc.devRef .tc main_v168) = acc24 (V (Proc.devRef .tc main_arg0)) (V (Proc.devRef .tc main_arg1))
    ∧ val24 V (Proc.devRef .tc main_arg0) = V (Proc.devRef .tc main_arg0)
    ∧ val24 V (Proc.devRef .tc main_arg1) = V (Proc.devRef .tc main_arg1) := by
  obtain ⟨h, h0, h1⟩ := inv23 V
  refine ⟨?_, (tap23_arg0 _).trans h0, (tap23_arg1 _).trans h1⟩
  unfold val24
  rw [tap23_acc, h, h0, h1]
  rfl

theorem inv25 (V : Valuation τ sig (Elt F)) :
    val25 V (Proc.devRef .tc main_v175) = acc25 (V (Proc.devRef .tc main_arg0)) (V (Proc.devRef .tc main_arg1))
    ∧ val25 V (Proc.devRef .tc main_arg0) = V (Proc.devRef .tc main_arg0)
    ∧ val25 V (Proc.devRef .tc main_arg1) = V (Proc.devRef .tc main_arg1) := by
  obtain ⟨h, h0, h1⟩ := inv24 V
  refine ⟨?_, (tap24_arg0 _).trans h0, (tap24_arg1 _).trans h1⟩
  unfold val25
  rw [tap24_acc, h, h0, h1]
  rfl

/-- The whole line is the tap sums' operations run after the 25 taps. -/
theorem ops_after (V : Valuation τ sig (Elt F)) : after (ops (F := F)) V = after sumOps (val25 V) := by
  simp only [ops, ops0, ops1, ops2, val25, val24, val23, val22, val21, val20, val19, val18, val17, val16, val15, val14, val13, val12, val11, val10, val9, val8, val7, val6, val5, val4, val3, val2, val1, val0, after_append, after_nil]

theorem sum_keep (W : Valuation τ sig (Elt F)) : after sumOps W (Proc.devRef .tc main_v175) = W (Proc.devRef .tc main_v175) := by
  after_results
theorem sum_arg0 (W : Valuation τ sig (Elt F)) : after sumOps W (Proc.devRef .tc main_arg0) = W (Proc.devRef .tc main_arg0) := by
  after_results
theorem sum_arg1 (W : Valuation τ sig (Elt F)) : after sumOps W (Proc.devRef .tc main_arg1) = W (Proc.devRef .tc main_arg1) := by
  after_results
theorem sum_v177 (W : Valuation τ sig (Elt F)) :
    after sumOps W (Proc.devRef .tc main_v177)
      = broadcastInDim S8x1x508x508 ![0, 2, 3] bcast_S8x508x508_S8x1x508x508_0_2_3
          (Host.reduceAdd (W (Proc.devRef .tc main_arg0)) (constant S_ .f32 0x00000000#32) reducesTo_S8x25x508x508_S8x508x508_d1 h_S_) := by
  after_results

/-- On every device, for any float values, from any memory with zero counters: every weakly fair execution of @main
    terminates with the first result at the running sum after the 25th tap, the second at the tap sums, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = acc25 (m ((c.tc : Thread nD τ).loc main_arg0)) (m ((c.tc : Thread nD τ).loc main_arg1))
      ∧ r.2.mem ((c.tc : Thread nD τ).loc main_v177) = broadcastInDim S8x1x508x508 ![0, 2, 3] bcast_S8x508x508_S8x1x508x508_0_2_3
          (Host.reduceAdd (m ((c.tc : Thread nD τ).loc main_arg0)) (constant S_ .f32 0x00000000#32) reducesTo_S8x25x508x508_S8x508x508_d1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v175).trans (by rw [ops_after]; exact (sum_keep _).trans (inv25 _).1),
        (h c main_v177).trans (by rw [ops_after, sum_v177, (inv25 _).2.1]),
        (h c main_arg0).trans (by rw [ops_after]; exact (sum_arg0 _).trans (inv25 _).2.1),
        (h c main_arg1).trans (by rw [ops_after]; exact (sum_arg1 _).trans (inv25 _).2.2)⟩)
    (run_seq scopedRefs_eq scopedSems_eq defs main (fun _ => ops) main_eq (fun _ => ops_sub) m ρ (fun _ => ops_fresh))

end Cert.ReferenceIdeal.RefRun

end
-- ==== Proof.LibHostTaps.lean ====
/-
  The reference's layout operations, read at an index.

  The reference computes the filtered image tap by tap on whole arrays: it takes plane n of the weights
  [8,25,508,508] as an [8,1,508,508] slice, re-lays it [8,508,508], spreads it back to [8,1,508,508] and then over
  the 3 channels, and multiplies it with the image [8,3,512,512] shifted by (di, dj) and cut to 508 × 508.
  Each lemma says which entry of the operand an entry of the result is.
-/
import Idealize.ShloMosaic.Lib.ValueIdx
import Idealize.ShloMosaic.Lib.Pipeline.Value

namespace Cert.HostTaps

open Idealize.ShloMosaic Idealize.ShloMosaic.ValueIdx

variable {α : Type}

/-- Plane `n` of the weights, sliced, re-laid and spread over the channels: entry (b, c, R, j) is the weights' entry
    (b, n, R, j). -/
theorem plane_apply (n : Nat) (hn : n < 25) (x : (⟨4, ![8, 25, 508, 508]⟩ : Shape).Idx → α)
    (h : (⟨4, ![8, 25, 508, 508]⟩ : Shape).Slices ![0, n, 0, 0] ⟨4, ![8, 1, 508, 508]⟩)
    (hc : (⟨4, ![8, 1, 508, 508]⟩ : Shape).ShapeCasts ⟨3, ![8, 508, 508]⟩)
    (hb1 : (⟨3, ![8, 508, 508]⟩ : Shape).BroadcastsInDim ⟨4, ![8, 1, 508, 508]⟩ ![0, 2, 3])
    (hb2 : (⟨4, ![8, 1, 508, 508]⟩ : Shape).BroadcastsInDim ⟨4, ![8, 3, 508, 508]⟩ ![0, 1, 2, 3])
    (b : Fin 8) (c : Fin 3) (R : Fin 508) (j : Fin 508) :
    broadcastInDim ⟨4, ![8, 3, 508, 508]⟩ ![0, 1, 2, 3] hb2
      (broadcastInDim ⟨4, ![8, 1, 508, 508]⟩ ![0, 2, 3] hb1
        (shapeCast ⟨3, ![8, 508, 508]⟩ (extractStridedSlice ⟨4, ![8, 1, 508, 508]⟩ ![0, n, 0, 0] x h) hc)) (ix4 b c R j)
      = x (ix4 b ⟨n, hn⟩ R j) := by
  refine (broadcastInDim_apply _ hb2 _ (ix4 b c R j) (ix4 b 0 R j) fun a => ?_).trans ?_
  · match a with
    | ⟨0, _⟩ => rfl
    | ⟨1, _⟩ => rfl
    | ⟨2, _⟩ => rfl
    | ⟨3, _⟩ => rfl
  refine (broadcastInDim_apply _ hb1 _ (ix4 b 0 R j) (ix3 b R j) fun a => ?_).trans ?_
  · match a with
    | ⟨0, _⟩ => rfl
    | ⟨1, _⟩ => rfl
    | ⟨2, _⟩ => rfl
  refine (shapeCast_apply _ hc (ix3 b R j) (ix4 b 0 R j) ?_).trans ?_
  · rw [Shape.rowMajor_val_four, Shape.rowMajor_val_three]
    show ((b.val * 1 + 0) * 508 + R.val) * 508 + j.val = (b.val * 508 + R.val) * 508 + j.val
    omega
  exact extractStridedSlice_apply _ x h _ _ fun a => by
    match a with
    | ⟨0, _⟩ => show b.val = 0 + b.val; omega
    | ⟨1, _⟩ => show n = n + 0; omega
    | ⟨2, _⟩ => show R.val = 0 + R.val; omega
    | ⟨3, _⟩ => show j.val = 0 + j.val; omega

/-- The image shifted by (di, dj) and cut to 508 × 508: entry (b, c, R, j) is the image's entry (b, c, R + di, j + dj). -/
theorem shift_apply (di dj : Nat) (hdi : di ≤ 4) (hdj : dj ≤ 4) (x : (⟨4, ![8, 3, 512, 512]⟩ : Shape).Idx → α)
    (h : (⟨4, ![8, 3, 512, 512]⟩ : Shape).Slices ![0, 0, di, dj] ⟨4, ![8, 3, 508, 508]⟩)
    (b : Fin 8) (c : Fin 3) (R : Fin 508) (j : Fin 508) :
    extractStridedSlice ⟨4, ![8, 3, 508, 508]⟩ ![0, 0, di, dj] x h (ix4 b c R j)
      = x (ix4 b c ⟨R.val + di, by omega⟩ ⟨j.val + dj, by omega⟩) :=
  extractStridedSlice_apply _ x h _ _ fun a => by
    match a with
    | ⟨0, _⟩ => show b.val = 0 + b.val; omega
    | ⟨1, _⟩ => show c.val = 0 + c.val; omega
    | ⟨2, _⟩ => show R.val + di = di + R.val; omega
    | ⟨3, _⟩ => show j.val + dj = dj + j.val; omega

/-- A scalar spread over [8,3,508,508]: every entry is the scalar. -/
theorem splat_apply (v : (⟨0, ![]⟩ : Shape).Idx → α)
    (h : (⟨0, ![]⟩ : Shape).BroadcastsInDim ⟨4, ![8, 3, 508, 508]⟩ ![]) (i : (⟨4, ![8, 3, 508, 508]⟩ : Shape).Idx) :
    broadcastInDim ⟨4, ![8, 3, 508, 508]⟩ ![] h v i = v ix0 :=
  broadcastInDim_apply _ h v i ix0 fun a => a.elim0

/-- A per-pixel array [8,508,508] spread back to [8,1,508,508]: entry (b, 0, R, j) is entry (b, R, j). -/
theorem keep_apply (y : (⟨3, ![8, 508, 508]⟩ : Shape).Idx → α)
    (hb1 : (⟨3, ![8, 508, 508]⟩ : Shape).BroadcastsInDim ⟨4, ![8, 1, 508, 508]⟩ ![0, 2, 3])
    (b : Fin 8) (R : Fin 508) (j : Fin 508) :
    broadcastInDim ⟨4, ![8, 1, 508, 508]⟩ ![0, 2, 3] hb1 y (ix4 b 0 R j) = y (ix3 b R j) :=
  broadcastInDim_apply _ hb1 _ (ix4 b 0 R j) (ix3 b R j) fun a => by
    match a with
    | ⟨0, _⟩ => rfl
    | ⟨1, _⟩ => rfl
    | ⟨2, _⟩ => rfl

end Cert.HostTaps
-- ==== Proof.RefValue.lean ====
/-
  What the reference computes, at the extended reals: the same two functions of the arguments as the kernel.

  The reference adds the 25 products to a zero array tap by tap, the row shift di outermost, each product formed on
  whole arrays from a spread plane of the weights and a shifted window of the image; read at one entry this is
  `Spec.filteredRowAt`, which equals `Spec.filteredAt` by reordering the 25 terms. Its tap sums are a sum over the
  plane axis from the zero constant.
-/
import proofs.«111710_j29137058136307_2_alg».proof.Proof.RefRun
import proofs.«111710_j29137058136307_2_alg».proof.Proof.LibHostTaps
import proofs.«111710_j29137058136307_2_alg».proof.Proof.Spec
import Idealize.ShloMosaic.PureOps.Ideal.Laws

set_option maxRecDepth 16384

noncomputable section

namespace Cert.ReferenceIdeal.RefValue

open Cert.ReferenceIdeal Cert.ReferenceIdeal.Gen Cert.ReferenceIdeal.RefRun Cert.Spec Cert.Reorder
open Idealize.ShloMosaic Idealize.ShloMosaic.TcCoe Idealize.ShloMosaic.ValueIdx Idealize.SL.Sem
open scoped BigOperators

theorem zero_bits : (FloatOps.ofBits .f32 0x00000000#32 : Ideal .f32) = (0 : EReal) := Ideal.ofBits_zero_f32

set_option maxHeartbeats 4000000 in
/-- The running sum after the 25th tap is the filtered image of the two arguments. -/
theorem filtered_eq (x0 : (⟨S8x25x508x508, .f32⟩ : BufTy).Contents (Elt Ideal)) (x1 : (⟨S8x3x512x512, .f32⟩ : BufTy).Contents (Elt Ideal)) :
    acc25 (F := Ideal) x0 x1 = filtered x0 x1 (Nat.le_refl _) := by
  refine funext fun (i : (⟨4, ![8, 3, 508, 508]⟩ : Shape).Idx) => ?_
  obtain ⟨b, cc, R, j, rfl⟩ : ∃ (b : Fin 8) (cc : Fin 3) (R : Fin 508) (j : Fin 508), i = ix4 b cc R j :=
    ⟨i 0, i 1, i 2, i 3, eq_ix4 i⟩
  show acc25 x0 x1 (ix4 b cc R j) = filteredAt _ _ _ b cc R j
  rw [filteredAt_eq_row]
  simp only [acc25, acc24, acc23, acc22, acc21, acc20, acc19, acc18, acc17, acc16, acc15, acc14, acc13, acc12, acc11, acc10, acc9, acc8, acc7, acc6, acc5, acc4, acc3, acc2, acc1, acc0, addf, mulf,
    HostTaps.plane_apply 0 (by omega), HostTaps.plane_apply 1 (by omega), HostTaps.plane_apply 2 (by omega), HostTaps.plane_apply 3 (by omega), HostTaps.plane_apply 4 (by omega), HostTaps.plane_apply 5 (by omega), HostTaps.plane_apply 6 (by omega), HostTaps.plane_apply 7 (by omega), HostTaps.plane_apply 8 (by omega), HostTaps.plane_apply 9 (by omega), HostTaps.plane_apply 10 (by omega), HostTaps.plane_apply 11 (by omega), HostTaps.plane_apply 12 (by omega), HostTaps.plane_apply 13 (by omega), HostTaps.plane_apply 14 (by omega), HostTaps.plane_apply 15 (by omega), HostTaps.plane_apply 16 (by omega), HostTaps.plane_apply 17 (by omega), HostTaps.plane_apply 18 (by omega), HostTaps.plane_apply 19 (by omega), HostTaps.plane_apply 20 (by omega), HostTaps.plane_apply 21 (by omega), HostTaps.plane_apply 22 (by omega), HostTaps.plane_apply 23 (by omega), HostTaps.plane_apply 24 (by omega),
    HostTaps.shift_apply 0 0 (by omega) (by omega), HostTaps.shift_apply 0 1 (by omega) (by omega), HostTaps.shift_apply 0 2 (by omega) (by omega), HostTaps.shift_apply 0 3 (by omega) (by omega), HostTaps.shift_apply 0 4 (by omega) (by omega), HostTaps.shift_apply 1 0 (by omega) (by omega), HostTaps.shift_apply 1 1 (by omega) (by omega), HostTaps.shift_apply 1 2 (by omega) (by omega), HostTaps.shift_apply 1 3 (by omega) (by omega), HostTaps.shift_apply 1 4 (by omega) (by omega), HostTaps.shift_apply 2 0 (by omega) (by omega), HostTaps.shift_apply 2 1 (by omega) (by omega), HostTaps.shift_apply 2 2 (by omega) (by omega), HostTaps.shift_apply 2 3 (by omega) (by omega), HostTaps.shift_apply 2 4 (by omega) (by omega), HostTaps.shift_apply 3 0 (by omega) (by omega), HostTaps.shift_apply 3 1 (by omega) (by omega), HostTaps.shift_apply 3 2 (by omega) (by omega), HostTaps.shift_apply 3 3 (by omega) (by omega), HostTaps.shift_apply 3 4 (by omega) (by omega), HostTaps.shift_apply 4 0 (by omega) (by omega), HostTaps.shift_apply 4 1 (by omega) (by omega), HostTaps.shift_apply 4 2 (by omega) (by omega), HostTaps.shift_apply 4 3 (by omega) (by omega), HostTaps.shift_apply 4 4 (by omega) (by omega)]
  simp only [broadcastInDim, constant, zero_bits]
  rfl

/-- The sum of the weights over the plane axis, spread back to [8,1,508,508], is the tap sums. -/
theorem tapSum_eq (x0 : (⟨S8x25x508x508, .f32⟩ : BufTy).Contents (Elt Ideal)) :
    broadcastInDim S8x1x508x508 ![0, 2, 3] bcast_S8x508x508_S8x1x508x508_0_2_3
        (Host.reduceAdd x0 (constant (F := Ideal) S_ .f32 0x00000000#32) reducesTo_S8x25x508x508_S8x508x508_d1 h_S_)
      = tapSum x0 := by
  refine funext fun (i : (⟨4, ![8, 1, 508, 508]⟩ : Shape).Idx) => ?_
  obtain ⟨b, z, R, j, rfl⟩ : ∃ (b : Fin 8) (z : Fin 1) (R : Fin 508) (j : Fin 508), i = ix4 b z R j :=
    ⟨i 0, i 1, i 2, i 3, eq_ix4 i⟩
  obtain rfl : z = 0 := Subsingleton.elim _ _
  show _ = tapSumAt _ b R j
  rw [tapSumAt_eq_sum, HostTaps.keep_apply]
  simp only [Host.reduceAdd, Ideal.hostReduceAdd_def]
  rw [Ideal.hostReduceAdd_single reducesTo_S8x25x508x508_S8x508x508_d1 (by decide)]
  refine congrArg₂ (· + ·) Ideal.ofBits_zero_f32 (Finset.sum_congr rfl fun k _ => ?_)
  exact congrArg _ (funext fun a => Fin.ext (by
    match a with
    | ⟨0, _⟩ => rfl
    | ⟨1, _⟩ => rfl
    | ⟨2, _⟩ => rfl
    | ⟨3, _⟩ => rfl))

variable (m : (ℓ : Loc nD τ sig) → Buf (Elt Ideal) ℓ) (ρ : Dev nD → PrngReg)

/-- The run of the idealized reference, read: both results named, both arguments unchanged. -/
theorem run : θ_run defs (onTc (τ := τ) (main (F := Ideal))) ⟨m, fun _ => 0, ρ⟩ fun r => ∀ c : Dev nD,
      r.2.mem ((c.tc : Thread nD τ).loc main_v175)
        = filtered (m ((c.tc : Thread nD τ).loc main_arg0)) (m ((c.tc : Thread nD τ).loc main_arg1)) (Nat.le_refl _)
      ∧ r.2.mem ((c.tc : Thread nD τ).loc main_v177) = tapSum (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (filtered_eq _ _), (h c).2.1.trans (tapSum_eq _), (h c).2.2.1, (h c).2.2.2⟩)
    (Cert.ReferenceIdeal.RefRun.run (F := Ideal) m ρ)

end Cert.ReferenceIdeal.RefValue

end
-- ==== Proof.lean ====
/-
  The certificate of the per-pixel 5 × 5 filtering kernel against its jnp reference.

  Both programs return, for weights w[b, n, R, j] and an image x[b, c, ·, ·], the filtered image
  Σ over the 25 taps (di, dj) of w[b, 5·di + dj, R, j] · x[b, c, R + di, j + dj] and the tap sums Σ_n w[b, n, R, j].
  The kernel adds the products lane shift outermost, row tile by row tile, on a zero-padded image; the reference
  adds them row shift outermost on whole arrays. On the extended reals the two orders give the same sum, because
  addition is commutative and associative (no distributivity or cancellation is used, so the inputs' finiteness is
  not needed). The three frames: each program runs to the end, faults nowhere and leaves its arguments unchanged.
-/
import proofs.«111710_j29137058136307_2_alg».proof.Defs
import proofs.«111710_j29137058136307_2_alg».proof.Proof.Gen.Kernel
import proofs.«111710_j29137058136307_2_alg».proof.Proof.Gen.KernelIdeal
import proofs.«111710_j29137058136307_2_alg».proof.Proof.Gen.ReferenceIdeal
import proofs.«111710_j29137058136307_2_alg».proof.Proof.Gen.Pre_finite_inputs
import proofs.«111710_j29137058136307_2_alg».proof.Proof.FrameBits
import proofs.«111710_j29137058136307_2_alg».proof.Proof.ValueIdeal
import proofs.«111710_j29137058136307_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.RefValue.run m ρ)

/-- Both idealized programs end with the filtered image and the tap sums of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Body.run m ρ, ?_⟩
  refine (θ_run Cert.ReferenceIdeal.defs _ _).mono (fun r h c => ?_) (Cert.ReferenceIdeal.RefValue.run m' ρ')
  obtain ⟨h0, h1, h2, h3⟩ := h c
  refine ⟨h0.trans ?_, h1.trans ?_, h2, h3⟩
  · rw [(hagree c).1, (hagree c).2]
  · rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
